-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S1x1 : Shape := ⟨2, ![1, 1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1x1 : S_.BroadcastsInDim S1x1 (![] : Fin 0 → Fin S1x1.rank)
  reducesTo_S1x1_S_d0_1 : S1x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128 .f32) (main_arg10 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S1600000 .f32) (main_arg2 : FVec F S1x1 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : IVec S1600000 32) (main_arg12 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S1600000 : Shape := ⟨1, ![1600000]⟩
abbrev S1x1 : Shape := ⟨2, ![1, 1]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S25x2x128 : Shape := ⟨3, ![25, 2, 128]⟩
abbrev S4000x128 : Shape := ⟨2, ![4000, 128]⟩
abbrev S1x2x128 : Shape := ⟨3, ![1, 2, 128]⟩
abbrev S2x128 : Shape := ⟨2, ![2, 128]⟩
abbrev S25x1x128 : Shape := ⟨3, ![25, 1, 128]⟩
abbrev S25x128 : Shape := ⟨2, ![25, 128]⟩

abbrev nBuf : Space → Nat
  | .hbm => 79
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1x1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1600000, .i32⟩
  | .hbm, ⟨12, _⟩ => ⟨S1600000, .i32⟩
  | .hbm, ⟨13, _⟩ => ⟨S100000x128, .bf16⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .bf16⟩
  | .hbm, ⟨23, _⟩ => ⟨S1600000x128, .f32⟩
  | .hbm, ⟨24, _⟩ => ⟨S1600000x1, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S100000x128, .bf16⟩
  | .hbm, ⟨39, _⟩ => ⟨S25x2x128, .f32⟩
  | .hbm, ⟨40, _⟩ => ⟨S25x1x128, .f32⟩
  | .hbm, ⟨41, _⟩ => ⟨S25x128, .f32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S25x1x128, .f32⟩
  | .hbm, ⟨46, _⟩ => ⟨S25x128, .f32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S25x2x128, .f32⟩
  | .hbm, ⟨60, _⟩ => ⟨S25x1x128, .f32⟩
  | .hbm, ⟨61, _⟩ => ⟨S25x128, .f32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S25x1x128, .f32⟩
  | .hbm, ⟨66, _⟩ => ⟨S25x128, .f32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S4000x128, .bf16⟩
  | .local _ .vmem, ⟨8, _⟩ => ⟨S4000x128, .bf16⟩
  | .local _ .vmem, ⟨9, _⟩ => ⟨S1x2x128, .f32⟩
  | .local _ .vmem, ⟨10, _⟩ => ⟨S1x2x128, .f32⟩
  | .local _ .vmem, ⟨11, _⟩ => ⟨S4000x128, .bf16⟩
  | .local _ .vmem, ⟨12, _⟩ => ⟨S4000x128, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S4000x128, .f32⟩
  | .local _ .vmem, ⟨20, _⟩ => ⟨S4000x128, .f32⟩
  | .local _ .vmem, ⟨21, _⟩ => ⟨S1x2x128, .f32⟩
  | .local _ .vmem, ⟨22, _⟩ => ⟨S1x2x128, .f32⟩
  | .local _ .vmem, ⟨23, _⟩ => ⟨S4000x128, .f32⟩
  | .local _ .vmem, ⟨24, _⟩ => ⟨S4000x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S4000x128, .f32⟩
  | .local _ .vmem, ⟨30, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1x1_S1x128_0_1 : S1x1.BroadcastsInDim S1x128 (![0, 1] : Fin 2 → Fin S1x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  reduces_S4000x128_S128 : S4000x128.Reduces [0] S128
  concatenates_S1x128_S1x128_S2x128_d0 : Shape.Concatenates [S1x128, S1x128] S2x128 0
  shapeCasts_S2x128_S1x2x128 : S2x128.ShapeCasts S1x2x128
  inb_S1x2x128_S1x2x128_0_0_0 : ∀ a, (![0, 0, 0] : Fin 3 → Nat) a + S1x2x128.size a ≤ S1x2x128.size a
  h_S1x2x128 : 0 < S1x2x128.numel
  slices_S25x2x128_S25x1x128_0_0_0 : S25x2x128.Slices ![0, 0, 0] S25x1x128
  shapeCasts_S25x1x128_S25x128 : S25x1x128.ShapeCasts S25x128
  reducesTo_S25x128_S128_d0 : S25x128.ReducesTo [0] S128
  h_S_ : 0 < S_.numel
  bcast_S128_S1x128_1 : S128.BroadcastsInDim S1x128 (![1] : Fin 1 → Fin S1x128.rank)
  slices_S25x2x128_S25x1x128_0_1_0 : S25x2x128.Slices ![0, 1, 0] S25x1x128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x128.size a ≤ S25x2x128.size a
  hwx0_6 : ∀ i : grid0.Coords, EltTy.bits .f32 = 32 ∨ (Rect.block (s := S25x2x128) S1x2x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x2x128.size a ≤ S25x2x128.size a
  hwx1_8 : ∀ i : grid1.Coords, EltTy.bits .f32 = 32 ∨ (Rect.block (s := S25x2x128) S1x2x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v14) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S1x2x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37_0) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v37_1) S1x2x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v37_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1x1 : Shape := ⟨2, ![1, 1]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S1600000, .f32⟩
  | 2 => ⟨S1x1, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S1600000x1, .f32⟩
  | 23 => ⟨S1600000x128, .f32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S100000x128, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S100000x128, .f32⟩
  | 100 => ⟨S100000x128, .f32⟩
  | 101 => ⟨S100000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call1_cst : Ref sig .tc := ⟨.hbm, 80, rfl⟩
abbrev main_call1_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_5 : Ref sig .tc := ⟨.hbm, 87, rfl⟩
abbrev main_v44 : Ref sig .tc := ⟨.hbm, 88, rfl⟩
abbrev main_cst_6 : Ref sig .tc := ⟨.hbm, 89, rfl⟩
abbrev main_v45 : Ref sig .tc := ⟨.hbm, 90, rfl⟩
abbrev main_v46 : Ref sig .tc := ⟨.hbm, 91, rfl⟩
abbrev main_c_7 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_cst_3 : Ref sig .tc := ⟨.hbm, 109, rfl⟩
abbrev main_call2_v12 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_8 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_call3_cst : Ref sig .tc := ⟨.hbm, 131, rfl⟩
abbrev main_call3_v0 : Ref sig .tc := ⟨.hbm, 132, rfl⟩
abbrev main_v63 : Ref sig .tc := ⟨.hbm, 133, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1x1_S100000x128_0_1 : S1x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with every buffer named: every weakly fair execution of @main terminates with each
  unscoped buffer of a core holding the last boundary's contents (the fold of the host stretches and of the three
  regions' write-backs from the launch memory). The result array is read off that fold in the modules that follow.
-/
import proofs.«154256_j1151051235416_2_alg».proof.Proof.KernelIdealFrameP

set_option maxRecDepth 16384

noncomputable section

namespace Cert.KernelIdeal.KerValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same run with the result array and the thirteen argument arrays read out. -/
theorem run_named : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)
    (run_all m ρ)

end Cert.KernelIdeal.KerValue

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.NormSpec.lean ====
/-
  The function both programs compute, entry by entry, on the extended reals.

  A message matrix is aggregated over a graph's edges: row `r` receives, for every edge whose destination index is `r`,
  the source row of `v` (the source index clamped into the matrix) scaled by the edge's weight. A self-loop term
  `eps · v` is added. Then, twice: a linear map with a bias, a normalisation of every column by its mean and variance
  over the 100000 rows (a small positive number added to the variance before the inverse square root), a scale and a
  shift per column, and the maximum with zero.

  The two programs differ in one place only, the variance of a column: one takes the mean of the squares minus the
  square of the mean (`varMoments`), the other the mean of the squared deviations from the mean (`varCentered`).
  `net` takes the variance as a parameter, so that the two are `net varMoments …` and `net varCentered …`.
-/
import proofs.«154256_j1151051235416_2_alg».proof.Proof.LibSegmentRows
import Idealize.ShloMosaic.PureOps.Ideal
import Idealize.ShloMosaic.Lib.ValueIdx

noncomputable section

open Idealize.ShloMosaic Idealize.ShloMosaic.ValueIdx

namespace Cert.NormSpec

/-- A matrix of 100000 rows and 128 columns, and a row of 128 entries. -/
abbrev Mat := Fin 100000 → Fin 128 → EReal
abbrev Row := Fin 128 → EReal

/-- The number a column sum is divided by: the single-precision pattern both programs carry for 100000. -/
def rowCount : EReal := Ideal.ofBits .f32 0x47C35000#32
/-- The small number added to a variance before the inverse square root: the single-precision pattern both
    programs carry for it. -/
def stab : EReal := Ideal.ofBits .f32 0x3727C5AC#32

/-- A rank-2 array read by coordinates, and a rank-1 array read by its coordinate. -/
def mat {n0 n1 : Nat} (a : (⟨2, ![n0, n1]⟩ : Shape).Idx → EReal) : Fin n0 → Fin n1 → EReal := fun r c => a (ix2 r c)
def vec {n : Nat} (a : (⟨1, ![n]⟩ : Shape).Idx → EReal) : Fin n → EReal := fun c => a (ix1 c)

/-- The aggregated messages: entry `(r, c)` is the sum, over the edges whose destination index is `r`, of `v` at the
    edge's clamped source row and column `c`, times the edge's weight entry. -/
def aggregate (v : (⟨2, ![100000, 128]⟩ : Shape).Idx → EReal) (src dst : IVec ⟨2, ![1600000, 1]⟩ 32)
    (wm : (⟨2, ![1600000, 128]⟩ : Shape).Idx → EReal) : Mat :=
  fun r c => ∑ e ∈ Cert.SegmentRows.segment dst r,
    v (ix2 (Cert.SegmentRows.takeRow (N := 100000) (by decide) src e) c) * wm (ix2 e c)

def colSum (x : Mat) : Row := fun c => ∑ r : Fin 100000, x r c
def mean (x : Mat) : Row := fun c => Ideal.div (colSum x c) rowCount
/-- The variance of a column as the mean of the squares minus the square of the mean. -/
def varMoments (x : Mat) : Row :=
  fun c => Ideal.div (colSum (fun r c => x r c * x r c) c) rowCount - mean x c * mean x c
/-- The variance of a column as the mean of the squared deviations from the mean. -/
def varCentered (x : Mat) : Row :=
  fun c => Ideal.div (colSum (fun r c => (x r c - mean x c) * (x r c - mean x c)) c) rowCount
/-- Normalise, scale, shift, and take the maximum with zero. -/
def normRelu (x : Mat) (mu va g b : Row) : Mat :=
  fun r c => max ((x r c - mu c) * Ideal.rsqrt (va c + stab) * g c + b c) 0
/-- A linear map with a bias. -/
def affine (h : Mat) (W : Fin 128 → Fin 128 → EReal) (b : Row) : Mat :=
  fun r c => (∑ k : Fin 128, h r k * W k c) + b c
/-- The aggregated messages plus the self-loop term. -/
def selfLoop (agg v : Mat) (eps : EReal) : Mat := fun r k => agg r k + eps * v r k

/-- The whole computation, the variance a parameter. -/
def net (va : Mat → Row) (agg v : Mat) (eps : EReal) (W1 : Fin 128 → Fin 128 → EReal) (b1 g1 be1 : Row)
    (W2 : Fin 128 → Fin 128 → EReal) (b2 g2 be2 : Row) : Mat :=
  normRelu (affine (normRelu (affine (selfLoop agg v eps) W1 b1) (mean (affine (selfLoop agg v eps) W1 b1))
      (va (affine (selfLoop agg v eps) W1 b1)) g1 be1) W2 b2)
    (mean (affine (normRelu (affine (selfLoop agg v eps) W1 b1) (mean (affine (selfLoop agg v eps) W1 b1))
      (va (affine (selfLoop agg v eps) W1 b1)) g1 be1) W2 b2))
    (va (affine (normRelu (affine (selfLoop agg v eps) W1 b1) (mean (affine (selfLoop agg v eps) W1 b1))
      (va (affine (selfLoop agg v eps) W1 b1)) g1 be1) W2 b2)) g2 be2

end Cert.NormSpec

end
-- ==== Proof.KernelForms.lean ====
/-
  The three pallas_calls as whole-array functions of the arrays they find, entry by entry.
  `pre1`: a linear map with a bias applied to `a + e · v`. `pre2`: the same linear map applied to the rectified,
  normalised first pre-activation. `norm3`: the rectified, normalised second pre-activation. `blockStats`: per block
  of 4000 rows, the column sums and the column sums of squares. Row vectors are [1, 128] arrays read at `(0, k)`.
-/
import proofs.«154256_j1151051235416_2_alg».proof.KernelIdeal
import proofs.«154256_j1151051235416_2_alg».proof.Proof.NormSpec

noncomputable section

namespace Cert.KernelIdeal.KerValue

open Cert.KernelIdeal Idealize.ShloMosaic Idealize.ShloMosaic.ValueIdx

/-- Row `4000·t + p` of the tall arrays: row `p` of block `t`. -/
def rowOf (t : Fin 25) (p : Fin 4000) : Fin 100000 := ⟨4000 * t.val + p.val, by omega⟩

theorem rowOf_val (t : Fin 25) (p : Fin 4000) : (rowOf t p).val = 4000 * t.val + p.val := rfl

/-- A linear map with a bias applied to `a + e · v`. -/
def pre1 (X0 X1 : FVec Ideal S100000x128 .f32) (X2 X4 : FVec Ideal S1x128 .f32) (X3 : FVec Ideal S128x128 .f32) :
    FVec Ideal S100000x128 .f32 :=
  fun i => (∑ k : Fin 128, (X0 (ix2 (i 0) k) + X2 (ix2 0 k) * X1 (ix2 (i 0) k)) * X3 (ix2 k (i 1))) + X4 (ix2 0 (i 1))

/-- A linear map with a bias applied to the rectified, normalised `x` (mean row `M`, variance row `Va`, scale `G`,
    shift `B`). -/
def pre2 (X : FVec Ideal S100000x128 .f32) (M Va G B : FVec Ideal S1x128 .f32) (W : FVec Ideal S128x128 .f32)
    (Bi : FVec Ideal S1x128 .f32) : FVec Ideal S100000x128 .f32 :=
  fun i => (∑ k : Fin 128, max ((X (ix2 (i 0) k) - M (ix2 0 k)) * Ideal.rsqrt (Va (ix2 0 k) + Cert.NormSpec.stab) * G (ix2 0 k)
      + B (ix2 0 k)) 0 * W (ix2 k (i 1))) + Bi (ix2 0 (i 1))

/-- The rectified, normalised `x`. -/
def norm3 (X : FVec Ideal S100000x128 .f32) (M Va G B : FVec Ideal S1x128 .f32) : FVec Ideal S100000x128 .f32 :=
  fun i => max ((X (ix2 (i 0) (i 1)) - M (ix2 0 (i 1))) * Ideal.rsqrt (Va (ix2 0 (i 1)) + Cert.NormSpec.stab) * G (ix2 0 (i 1))
      + B (ix2 0 (i 1))) 0

/-- Per block of 4000 rows, the column sums (slot 0) and the column sums of squares (slot 1) of a tall array. -/
def blockStats (x : FVec Ideal S100000x128 .f32) : FVec Ideal S25x2x128 .f32 :=
  fun i => if (i 1).val = 0 then ∑ p : Fin 4000, x (ix2 (rowOf (i 0) p) (i 2))
    else ∑ p : Fin 4000, x (ix2 (rowOf (i 0) p) (i 2)) * x (ix2 (rowOf (i 0) p) (i 2))

theorem blockStats_sum (x : FVec Ideal S100000x128 .f32) (t : Fin 25) (q : Fin 128) :
    blockStats x (ix3 t 0 q) = ∑ p : Fin 4000, x (ix2 (rowOf t p) q) := rfl
theorem blockStats_sq (x : FVec Ideal S100000x128 .f32) (t : Fin 25) (q : Fin 128) :
    blockStats x (ix3 t 1 q) = ∑ p : Fin 4000, x (ix2 (rowOf t p) q) * x (ix2 (rowOf t p) q) := rfl

end Cert.KernelIdeal.KerValue

end
-- ==== Proof.KernelBlocks0.lean ====
/-
  Where the blocks of the first pallas_call sit in their arrays. The grid has 25 points; at point `t` a row window
  holds rows `4000·t … 4000·t + 3999` of a [100000, 128] array, a constant window holds the whole of its small
  array, and the statistics window holds slab `t` of the [25, 2, 128] array. Every index of an output array lies in
  exactly the block its leading coordinate names, so the blocks cover the array.
-/
import proofs.«154256_j1151051235416_2_alg».proof.Proof.KernelIdealFrameP
import proofs.«154256_j1151051235416_2_alg».proof.Proof.KernelForms
import Idealize.ShloMosaic.Lib.ValueIdx
import Idealize.ShloMosaic.Lib.Pipeline.Value

set_option maxRecDepth 16384

noncomputable section

namespace Cert.KernelIdeal.KerValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- A point of the first grid as a number below 25. -/
def pt0 (t : Fin cfg0.N) : Fin 25 := ⟨t.val, by have := t.isLt; have h : cfg0.N = 25 := N_0; omega⟩

/-- The printed index maps of the first pallas_call, decided over its 25 points. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

section
variable (t : Fin cfg0.N)

/-- Row windows: entry `(p, k)` of the block is entry `(4000·t + p, k)` of the array. -/
theorem emb0_0 (p : Fin 4000) (k : Fin 128) : ((cfg0.win 0).blk t).view.emb (ix2 p k) = ix2 (rowOf (pt0 t) p) k := by
  obtain ⟨e0, e1, -⟩ := idx0 t
  funext a; apply Fin.ext
  match a with
  | ⟨0, _⟩ => show win0_0.index t (0 : Fin 2) * 4000 + 1 * p.val = 4000 * t.val + p.val; omega
  | ⟨1, _⟩ => show win0_0.index t (1 : Fin 2) * 128 + 1 * k.val = k.val; omega
theorem emb0_1 (p : Fin 4000) (k : Fin 128) : ((cfg0.win 1).blk t).view.emb (ix2 p k) = ix2 (rowOf (pt0 t) p) k := by
  obtain ⟨-, -, e0, e1, -⟩ := idx0 t
  funext a; apply Fin.ext
  match a with
  | ⟨0, _⟩ => show win0_1.index t (0 : Fin 2) * 4000 + 1 * p.val = 4000 * t.val + p.val; omega
  | ⟨1, _⟩ => show win0_1.index t (1 : Fin 2) * 128 + 1 * k.val = k.val; omega
theorem emb0_5 (p : Fin 4000) (k : Fin 128) : ((cfg0.win 5).blk t).view.emb (ix2 p k) = ix2 (rowOf (pt0 t) p) k := by
  obtain ⟨-, -, -, -, -, -, -, -, -, -, e0, e1, -⟩ := idx0 t
  funext a; apply Fin.ext
  match a with
  | ⟨0, _⟩ => show win0_5.index t (0 : Fin 2) * 4000 + 1 * p.val = 4000 * t.val + p.val; omega
  | ⟨1, _⟩ => show win0_5.index t (1 : Fin 2) * 128 + 1 * k.val = k.val; omega
/-- Constant windows: the block is the whole small array. -/
theorem emb0_2 (z : Fin 1) (k : Fin 128) : ((cfg0.win 2).blk t).view.emb (ix2 z k) = ix2 z k := by
  obtain ⟨-, -, -, -, e0, e1, -⟩ := idx0 t
  funext a; apply Fin.ext
  match a with
  | ⟨0, _⟩ => show win0_2.index t (0 : Fin 2) * 1 + 1 * z.val = z.val; omega
  | ⟨1, _⟩ => show win0_2.index t (1 : Fin 2) * 128 + 1 * k.val = k.val; omega
theorem emb0_3 (j : Fin 128) (k : Fin 128) : ((cfg0.win 3).blk t).view.emb (ix2 j k) = ix2 j k := by
  obtain ⟨-, -, -, -, -, -, e0, e1, -⟩ := idx0 t
  funext a; apply Fin.ext
  match a with
  | ⟨0, _⟩ => show win0_3.index t (0 : Fin 2) * 128 + 1 * j.val = j.val; omega
  | ⟨1, _⟩ => show win0_3.index t (1 : Fin 2) * 128 + 1 * k.val = k.val; omega
theorem emb0_4 (z : Fin 1) (k : Fin 128) : ((cfg0.win 4).blk t).view.emb (ix2 z k) = ix2 z k := by
  obtain ⟨-, -, -, -, -, -, -, -, e0, e1, -⟩ := idx0 t
  funext a; apply Fin.ext
  match a with
  | ⟨0, _⟩ => show win0_4.index t (0 : Fin 2) * 1 + 1 * z.val = z.val; omega
  | ⟨1, _⟩ => show win0_4.index t (1 : Fin 2) * 128 + 1 * k.val = k.val; omega
/-- The statistics window: slab `t`. -/
theorem emb0_6 (z : Fin 1) (j : Fin 2) (k : Fin 128) : ((cfg0.win 6).blk t).view.emb (ix3 z j k) = ix3 (pt0 t) j k := by
  obtain ⟨-, -, -, -, -, -, -, -, -, -, -, -, e0, e1, e2⟩ := idx0 t
  funext a; apply Fin.ext
  match a with
  | ⟨0, _⟩ => show win0_6.index t (0 : Fin 3) * 1 + 1 * z.val = t.val; omega
  | ⟨1, _⟩ => show win0_6.index t (1 : Fin 3) * 2 + 1 * j.val = j.val; omega
  | ⟨2, _⟩ => show win0_6.index t (2 : Fin 3) * 128 + 1 * k.val = k.val; omega

/-- An index of the tall output is in point `t`'s block iff each coordinate is in the block's range. -/
theorem mem_blk0_5 (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v22_0).slice (win0_5.rect t)).set ↔ _
  rw [View.set_slice_whole, Rect.mem_set_unit]
  exact Iff.rfl
theorem mem_blk0_6 (i : S25x2x128.Idx) :
    i ∈ ((cfg0.win 6).blk t).view.set ↔ ∀ a : Fin 3, win0_6.index t a * S1x2x128.size a ≤ (i a).val ∧ (i a).val < win0_6.index t a * S1x2x128.size a + S1x2x128.size a := by
  show i ∈ ((View.whole main_v22_1).slice (win0_6.rect t)).set ↔ _
  rw [View.set_slice_whole, Rect.mem_set_unit]
  exact Iff.rfl
end

/-- Every row of the tall output lies in the block of the point `row / 4000`. -/
theorem cover0_5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  let t : Fin cfg0.N := ⟨(i 0).val / 4000, by omega⟩
  have ht : t.val = (i 0).val / 4000 := rfl
  obtain ⟨-, -, -, -, -, -, -, -, -, -, e0, e1, -⟩ := idx0 t
  refine ⟨t, flush0_5 t, ?_⟩
  rw [mem_blk0_5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega
/-- Every index of the statistics array lies in the slab its leading coordinate names. -/
theorem cover0_6 (i : S25x2x128.Idx) : ∃ t : Fin cfg0.N, (cfg0.win 6).flush t = true ∧ i ∈ ((cfg0.win 6).blk t).view.set := by
  have hi0 : (i 0).val < 25 := (i 0).isLt
  have hi1 : (i 1).val < 2 := (i 1).isLt
  have hi2 : (i 2).val < 128 := (i 2).isLt
  have hN : cfg0.N = 25 := N_0
  let t : Fin cfg0.N := ⟨(i 0).val, by omega⟩
  have ht : t.val = (i 0).val := rfl
  obtain ⟨-, -, -, -, -, -, -, -, -, -, -, -, e0, e1, e2⟩ := idx0 t
  refine ⟨t, flush0_6 t, ?_⟩
  rw [mem_blk0_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2 ≤ (i 1).val ∧ (i 1).val < win0_6.index t (1 : Fin 3) * 2 + 2; omega
  | ⟨2, _⟩ => show win0_6.index t (2 : Fin 3) * 128 ≤ (i 2).val ∧ (i 2).val < win0_6.index t (2 : Fin 3) * 128 + 128; omega

end Cert.KernelIdeal.KerValue

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«154256_j1151051235416_2_alg».proof.Proof.LibRows
import proofs.«154256_j1151051235416_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.KernelPayloadPack.lean ====
/-
  Two rows packed as a 1 x 2 x 128 array, read at an entry.

  Each of the first two bodies ends by laying two 1 x 128 rows one under the other (a 2 x 128 array) and adding a leading
  unit axis. Entry (0, 0, q) of the result is the first row's entry (0, q), entry (0, 1, q) the second row's. The second
  row is a vector of 128 entries recast as a row, so its entry (0, q) is the vector's entry q.
-/
import proofs.«154256_j1151051235416_2_alg».proof.Proof.Gen.KernelIdeal.Skeleton
import proofs.«154256_j1151051235416_2_alg».proof.Proof.NormSpec
import proofs.«154256_j1151051235416_2_alg».proof.Proof.LibPlainMatmul
import proofs.«154256_j1151051235416_2_alg».proof.Proof.LibMatrixReduce
import Idealize.ShloMosaic.Lib.ValueLayout

noncomputable section

open Idealize.ShloMosaic Idealize.ShloMosaic.ValueIdx Cert.KernelIdeal

namespace Cert.KernelIdeal.Payload

variable {α : Type}

/-- Two `1 x b` rows laid one under the other, read in the first row. -/
theorem concat_rows_fst {b : ℕ} (u v : (⟨2, ![1, b]⟩ : Shape).Idx → α)
    (h : Shape.Concatenates [(⟨2, ![1, b]⟩ : Shape), ⟨2, ![1, b]⟩] ⟨2, ![2, b]⟩ 0) (c : Fin b) :
    concatenate ⟨2, ![2, b]⟩ 0 [⟨⟨2, ![1, b]⟩, u⟩, ⟨⟨2, ![1, b]⟩, v⟩] h (ix2 (0 : Fin 2) c) = u (ix2 (0 : Fin 1) c) :=
  concatenate_pair_apply_left 0 u v h (ix2 (0 : Fin 2) c) rfl (ix2 (0 : Fin 1) c) (fun a => by
    match a with
    | ⟨0, _⟩ => rfl
    | ⟨1, _⟩ => rfl)

/-- Two `1 x b` rows laid one under the other, read in the second row. -/
theorem concat_rows_snd {b : ℕ} (u v : (⟨2, ![1, b]⟩ : Shape).Idx → α)
    (h : Shape.Concatenates [(⟨2, ![1, b]⟩ : Shape), ⟨2, ![1, b]⟩] ⟨2, ![2, b]⟩ 0) (c : Fin b) :
    concatenate ⟨2, ![2, b]⟩ 0 [⟨⟨2, ![1, b]⟩, u⟩, ⟨⟨2, ![1, b]⟩, v⟩] h (ix2 (1 : Fin 2) c) = v (ix2 (0 : Fin 1) c) :=
  concatenate_pair_apply_right 0 u v h (ix2 (1 : Fin 2) c) rfl rfl (ix2 (0 : Fin 1) c) (fun a ha => by
    match a, ha with
    | ⟨0, _⟩, ha => exact absurd rfl ha
    | ⟨1, _⟩, _ => rfl) rfl

/-- The packed pair at `(0, 0, q)`: the first row at `(0, q)`. -/
theorem pack_fst (u : FVec Ideal S1x128 .f32) (w : FVec Ideal S128 .f32) (q : Fin 128) :
    Gen.k1_pay1 u w (ix3 0 0 q) = u (ix2 0 q) := by
  unfold Gen.k1_pay1
  exact (shapeCast_ab_1ab_apply _ _ 0 0 q).trans (concat_rows_fst _ _ _ q)

/-- The packed pair at `(0, 1, q)`: the vector at `q`. -/
theorem pack_snd (u : FVec Ideal S1x128 .f32) (w : FVec Ideal S128 .f32) (q : Fin 128) :
    Gen.k1_pay1 u w (ix3 0 1 q) = w (ix1 q) := by
  unfold Gen.k1_pay1
  exact ((shapeCast_ab_1ab_apply _ _ 0 1 q).trans (concat_rows_snd _ _ _ q)).trans (shapeCast_a_1a_apply _ _ 0 q)

end Cert.KernelIdeal.Payload

end
-- ==== Proof.KernelPayload1.lean ====
/-
  The first body's arithmetic read at an entry, over the extended reals.

  The body forms the 4000 x 128 block `x0 + x2 · x4` (the row `x2` broadcast down the rows), multiplies it by the
  128 x 128 matrix `x9` and adds the row `x12`. It stores the result, and the two rows of column statistics of the
  result: the column sums and the column sums of squares. Rounding to a narrower format is the identity on the
  extended reals, and the product is accumulated into the zero matrix.
-/
import proofs.«154256_j1151051235416_2_alg».proof.Proof.Gen.KernelIdeal.Skeleton
import proofs.«154256_j1151051235416_2_alg».proof.Proof.NormSpec
import proofs.«154256_j1151051235416_2_alg».proof.Proof.LibPlainMatmul
import proofs.«154256_j1151051235416_2_alg».proof.Proof.LibMatrixReduce
import proofs.«154256_j1151051235416_2_alg».proof.Proof.KernelPayloadPack
import Idealize.ShloMosaic.Lib.ValueLayout

noncomputable section

open Idealize.ShloMosaic Idealize.ShloMosaic.ValueIdx Cert.KernelIdeal

namespace Cert.KernelIdeal.Payload

/-- The linear map with its bias, at entry `(p, q)`. -/
theorem linear1_apply (x0 x4 : Vec Ideal S4000x128 .f32) (x2 x12 : Vec Ideal S1x128 .f32) (x9 : Vec Ideal S128x128 .f32)
    (p : Fin 4000) (q : Fin 128) :
    Gen.k0_pay1 x0 x2 x4 x9 x12 (ix2 p q)
      = (∑ k : Fin 128, (x0 (ix2 p k) + x2 (ix2 0 k) * x4 (ix2 p k)) * x9 (ix2 k q)) + x12 (ix2 0 q) := by
  unfold Gen.k0_pay1
  simp only [shapeCast_self]
  rw [addf_apply, broadcastTo_1b_ab_apply]
  refine congrArg (· + x12 (ix2 0 q)) ?_
  refine (Cert.LibPlainMatmul.matmul_zero_apply dot_S4000x128_S128x128_S4000x128_1_0_0_1_n_n rfl rfl rfl rfl rfl rfl
    none _ _ p q).trans ?_
  refine Finset.sum_congr rfl fun k _ => ?_
  rw [truncf_apply, truncf_apply, addf_apply, mulf_apply, broadcastTo_1b_ab_apply]

/-- The stored block is the linear map's: rounding to the narrower format is the identity on the extended reals. -/
theorem stored1_apply (x0 x4 : Vec Ideal S4000x128 .f32) (x2 x12 : Vec Ideal S1x128 .f32) (x9 : Vec Ideal S128x128 .f32)
    (p : Fin 4000) (q : Fin 128) :
    Gen.k0_pay2 x0 x2 x4 x9 x12 (ix2 p q) = Gen.k0_pay1 x0 x2 x4 x9 x12 (ix2 p q) := rfl

/-- The first row of statistics: the column sums. -/
theorem stats1_sum (x0 x4 : Vec Ideal S4000x128 .f32) (x2 x12 : Vec Ideal S1x128 .f32) (x9 : Vec Ideal S128x128 .f32)
    (q : Fin 128) :
    Gen.k0_pay3 x0 x2 x4 x9 x12 (ix3 0 0 q) = ∑ p : Fin 4000, Gen.k0_pay1 x0 x2 x4 x9 x12 (ix2 p q) := by
  refine (pack_fst _ _ q).trans ?_
  refine (shapeCast_a_1a_apply _ _ 0 q).trans ?_
  exact Cert.LibMatrixReduce.colSum_apply _ _ _ _ _ q

/-- The second row of statistics: the column sums of squares. -/
theorem stats1_sq (x0 x4 : Vec Ideal S4000x128 .f32) (x2 x12 : Vec Ideal S1x128 .f32) (x9 : Vec Ideal S128x128 .f32)
    (q : Fin 128) :
    Gen.k0_pay3 x0 x2 x4 x9 x12 (ix3 0 1 q)
      = ∑ p : Fin 4000, Gen.k0_pay1 x0 x2 x4 x9 x12 (ix2 p q) * Gen.k0_pay1 x0 x2 x4 x9 x12 (ix2 p q) := by
  refine (pack_snd _ _ q).trans ?_
  exact Cert.LibMatrixReduce.colSum_apply _ _ _ _ _ q

end Cert.KernelIdeal.Payload

end
-- ==== Proof.KernelLayer1.lean ====
/-
  The first pallas_call, read as whole arrays. Its tall output is the first pre-activation
  `x1 (r, c) = ∑ k, (agg (r, k) + eps (0, k) · v (r, k)) · W1 (k, c) + b1 (0, c)` of the arrays the region finds, and
  its statistics output holds, in slab `t`, the column sums of `x1` and of its squares over the 4000 rows of block `t`.
  Point `t` writes back exactly block `t` of these two functions, and the blocks cover the arrays.
-/
import proofs.«154256_j1151051235416_2_alg».proof.Proof.KernelBlocks0
import proofs.«154256_j1151051235416_2_alg».proof.Proof.KernelPayload1

set_option maxRecDepth 16384

noncomputable section

namespace Cert.KernelIdeal.KerValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

section
variable (c : Dev nD) (t : Fin cfg0.N)

theorem blk0_0 (p : Fin 4000) (k : Fin 128) : iblk0 V c 0 t (ix2 p k) = V c (Pipeline.arrRef spec0 0) (ix2 (rowOf (pt0 t) p) k) := by
  show V c (Pipeline.arrRef spec0 0) (((cfg0.win 0).blk t).view.emb (ix2 p k)) = _
  rw [emb0_0]
theorem blk0_1 (p : Fin 4000) (k : Fin 128) : iblk0 V c 1 t (ix2 p k) = V c (Pipeline.arrRef spec0 1) (ix2 (rowOf (pt0 t) p) k) := by
  show V c (Pipeline.arrRef spec0 1) (((cfg0.win 1).blk t).view.emb (ix2 p k)) = _
  rw [emb0_1]
theorem blk0_2 (z : Fin 1) (k : Fin 128) : iblk0 V c 2 t (ix2 z k) = V c (Pipeline.arrRef spec0 2) (ix2 z k) := by
  show V c (Pipeline.arrRef spec0 2) (((cfg0.win 2).blk t).view.emb (ix2 z k)) = _
  rw [emb0_2]
theorem blk0_3 (j : Fin 128) (k : Fin 128) : iblk0 V c 3 t (ix2 j k) = V c (Pipeline.arrRef spec0 3) (ix2 j k) := by
  show V c (Pipeline.arrRef spec0 3) (((cfg0.win 3).blk t).view.emb (ix2 j k)) = _
  rw [emb0_3]
theorem blk0_4 (z : Fin 1) (k : Fin 128) : iblk0 V c 4 t (ix2 z k) = V c (Pipeline.arrRef spec0 4) (ix2 z k) := by
  show V c (Pipeline.arrRef spec0 4) (((cfg0.win 4).blk t).view.emb (ix2 z k)) = _
  rw [emb0_4]

/-- The body's pre-activation at entry `(p, q)` of point `t`'s block is `pre1` at row `4000·t + p`. -/
theorem body1_at (p : Fin 4000) (q : Fin 128) :
    Gen.k0_pay1 (F := Ideal) (iblk0 V c 0 t) (iblk0 V c 2 t) (iblk0 V c 1 t) (iblk0 V c 3 t) (iblk0 V c 4 t) (ix2 p q)
      = pre1 (V c (Pipeline.arrRef spec0 0)) (V c (Pipeline.arrRef spec0 1)) (V c (Pipeline.arrRef spec0 2)) (V c (Pipeline.arrRef spec0 4))
          (V c (Pipeline.arrRef spec0 3)) (ix2 (rowOf (pt0 t) p) q) := by
  refine (Cert.KernelIdeal.Payload.linear1_apply (iblk0 V c 0 t) (iblk0 V c 1 t) (iblk0 V c 2 t) (iblk0 V c 4 t) (iblk0 V c 3 t) p q).trans ?_
  simp only [blk0_0, blk0_1, blk0_2, blk0_3, blk0_4]
  rfl

/-- What point `t` writes back to the tall output is block `t` of the pre-activation. -/
theorem flushed0_5_eq :
    (dat0 V c).flushed 5 t = ((cfg0.win 5).blk t).view.read (Elt Ideal)
      (pre1 (V c (Pipeline.arrRef spec0 0)) (V c (Pipeline.arrRef spec0 1)) (V c (Pipeline.arrRef spec0 2)) (V c (Pipeline.arrRef spec0 4))
          (V c (Pipeline.arrRef spec0 3))) := by
  show (cfg0.win 5).cut (grid0.coords t) ((dat0 V c).after 5 t) = _
  rw [after0_5]
  unfold out0_5
  rw [View.canon_unit_zero hz2]
  simp only [View.ld_unit_zero (S := S4000x128) hz2, View.ld_unit_zero (S := S1x128) hz2, View.ld_unit_zero (S := S128x128) hz2]
  funext j
  obtain ⟨p, q, rfl⟩ : ∃ (p : Fin 4000) (q : Fin 128), j = ix2 p q := ⟨j 0, j 1, eq_ix2 j⟩
  show Gen.k0_pay2 (F := Ideal) (iblk0 V c 0 t) (iblk0 V c 2 t) (iblk0 V c 1 t) (iblk0 V c 3 t) (iblk0 V c 4 t) (ix2 p q)
    = pre1 _ _ _ _ _ (((cfg0.win 5).blk t).view.emb (ix2 p q))
  rw [emb0_5]
  exact (Cert.KernelIdeal.Payload.stored1_apply (iblk0 V c 0 t) (iblk0 V c 1 t) (iblk0 V c 2 t) (iblk0 V c 4 t) (iblk0 V c 3 t) p q).trans
    (body1_at V c t p q)

/-- What point `t` writes back to the statistics output is slab `t` of the block statistics. -/
theorem flushed0_6_eq :
    (dat0 V c).flushed 6 t = ((cfg0.win 6).blk t).view.read (Elt Ideal)
      (blockStats (pre1 (V c (Pipeline.arrRef spec0 0)) (V c (Pipeline.arrRef spec0 1)) (V c (Pipeline.arrRef spec0 2)) (V c (Pipeline.arrRef spec0 4))
          (V c (Pipeline.arrRef spec0 3)))) := by
  show (cfg0.win 6).cut (grid0.coords t) ((dat0 V c).after 6 t) = _
  rw [after0_6]
  unfold out0_6
  rw [View.canon_unit_zero hz3]
  simp only [View.ld_unit_zero (S := S4000x128) hz2, View.ld_unit_zero (S := S1x128) hz2, View.ld_unit_zero (S := S128x128) hz2]
  funext j
  obtain ⟨z, s, q, rfl⟩ : ∃ (z : Fin 1) (s : Fin 2) (q : Fin 128), j = ix3 z s q := ⟨j 0, j 1, j 2, eq_ix3 j⟩
  show Gen.k0_pay3 (F := Ideal) (iblk0 V c 0 t) (iblk0 V c 2 t) (iblk0 V c 1 t) (iblk0 V c 3 t) (iblk0 V c 4 t) (ix3 z s q)
    = blockStats _ (((cfg0.win 6).blk t).view.emb (ix3 z s q))
  rw [emb0_6]
  obtain rfl : z = 0 := Subsingleton.elim _ _
  match s with
  | ⟨0, _⟩ =>
    refine (Cert.KernelIdeal.Payload.stats1_sum (iblk0 V c 0 t) (iblk0 V c 1 t) (iblk0 V c 2 t) (iblk0 V c 4 t) (iblk0 V c 3 t) q).trans ?_
    show _ = ∑ p : Fin 4000, pre1 _ _ _ _ _ (ix2 (rowOf (pt0 t) p) q)
    exact Finset.sum_congr rfl fun p _ => body1_at V c t p q
  | ⟨1, _⟩ =>
    refine (Cert.KernelIdeal.Payload.stats1_sq (iblk0 V c 0 t) (iblk0 V c 1 t) (iblk0 V c 2 t) (iblk0 V c 4 t) (iblk0 V c 3 t) q).trans ?_
    show _ = ∑ p : Fin 4000, pre1 _ _ _ _ _ (ix2 (rowOf (pt0 t) p) q) * pre1 _ _ _ _ _ (ix2 (rowOf (pt0 t) p) q)
    exact Finset.sum_congr rfl fun p _ => by rw [body1_at V c t p q]
end

/-- The tall output after the region: the pre-activation of the arrays the region finds. -/
theorem final0_5 (c : Dev nD) : (dat0 V c).arrAt 5 cfg0.N
    = pre1 (V c (Pipeline.arrRef spec0 0)) (V c (Pipeline.arrRef spec0 1)) (V c (Pipeline.arrRef spec0 2)) (V c (Pipeline.arrRef spec0 4))
        (V c (Pipeline.arrRef spec0 3)) :=
  (dat0 V c).arrAt_eq_of_cover 5 _ (fun t _ => flushed0_5_eq V c t) cover0_5

/-- The statistics output after the region. -/
theorem final0_6 (c : Dev nD) : (dat0 V c).arrAt 6 cfg0.N
    = blockStats (pre1 (V c (Pipeline.arrRef spec0 0)) (V c (Pipeline.arrRef spec0 1)) (V c (Pipeline.arrRef spec0 2)) (V c (Pipeline.arrRef spec0 4))
        (V c (Pipeline.arrRef spec0 3))) :=
  (dat0 V c).arrAt_eq_of_cover 6 _ (fun t _ => flushed0_6_eq V c t) cover0_6

end Cert.KernelIdeal.KerValue

end
-- ==== Proof.KernelBlocks12.lean ====
/-
  Where the blocks of the second and third pallas_calls sit in their arrays: as in the first, at point `t` a row
  window holds rows `4000·t … 4000·t + 3999`, a constant window the whole of its small array, the statistics
  window slab `t`; the output blocks cover their arrays.
-/
import proofs.«154256_j1151051235416_2_alg».proof.Proof.KernelBlocks0

set_option maxRecDepth 16384

noncomputable section

namespace Cert.KernelIdeal.KerValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- A point of grid 1 as a number below 25. -/
def pt1 (t : Fin cfg1.N) : Fin 25 := ⟨t.val, by have := t.isLt; have h : cfg1.N = 25 := N_1; omega⟩

/-- The printed index maps of this pallas_call, decided over its 25 points. -/
theorem idx1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0
    ∧ win1_8.index t (0 : Fin 3) = t.val
    ∧ win1_8.index t (1 : Fin 3) = 0
    ∧ win1_8.index t (2 : Fin 3) = 0 :=
  (by decide +kernel : ∀ t : Fin grid1.N, _)

section
variable (t : Fin cfg1.N)

theorem emb1_0 (p : Fin 4000) (k : Fin 128) : ((cfg1.win 0).blk t).view.emb (ix2 p k) = ix2 (rowOf (pt1 t) p) k := by
  obtain ⟨e0, e1, -⟩ := idx1 t
  funext a; apply Fin.ext
  match a with
  | ⟨0, _⟩ => show win1_0.index t (0 : Fin 2) * 4000 + 1 * p.val = 4000 * t.val + p.val; omega
  | ⟨1, _⟩ => show win1_0.index t (1 : Fin 2) * 128 + 1 * k.val = k.val; omega
theorem emb1_1 (z : Fin 1) (k : Fin 128) : ((cfg1.win 1).blk t).view.emb (ix2 z k) = ix2 z k := by
  obtain ⟨-, -, e0, e1, -⟩ := idx1 t
  funext a; apply Fin.ext
  match a with
  | ⟨0, _⟩ => show win1_1.index t (0 : Fin 2) * 1 + 1 * z.val = z.val; omega
  | ⟨1, _⟩ => show win1_1.index t (1 : Fin 2) * 128 + 1 * k.val = k.val; omega
theorem emb1_2 (z : Fin 1) (k : Fin 128) : ((cfg1.win 2).blk t).view.emb (ix2 z k) = ix2 z k := by
  obtain ⟨-, -, -, -, e0, e1, -⟩ := idx1 t
  funext a; apply Fin.ext
  match a with
  | ⟨0, _⟩ => show win1_2.index t (0 : Fin 2) * 1 + 1 * z.val = z.val; omega
  | ⟨1, _⟩ => show win1_2.index t (1 : Fin 2) * 128 + 1 * k.val = k.val; omega
theorem emb1_3 (z : Fin 1) (k : Fin 128) : ((cfg1.win 3).blk t).view.emb (ix2 z k) = ix2 z k := by
  obtain ⟨-, -, -, -, -, -, e0, e1, -⟩ := idx1 t
  funext a; apply Fin.ext
  match a with
  | ⟨0, _⟩ => show win1_3.index t (0 : Fin 2) * 1 + 1 * z.val = z.val; omega
  | ⟨1, _⟩ => show win1_3.index t (1 : Fin 2) * 128 + 1 * k.val = k.val; omega
theorem emb1_4 (z : Fin 1) (k : Fin 128) : ((cfg1.win 4).blk t).view.emb (ix2 z k) = ix2 z k := by
  obtain ⟨-, -, -, -, -, -, -, -, e0, e1, -⟩ := idx1 t
  funext a; apply Fin.ext
  match a with
  | ⟨0, _⟩ => show win1_4.index t (0 : Fin 2) * 1 + 1 * z.val = z.val; omega
  | ⟨1, _⟩ => show win1_4.index t (1 : Fin 2) * 128 + 1 * k.val = k.val; omega
theorem emb1_5 (j : Fin 128) (k : Fin 128) : ((cfg1.win 5).blk t).view.emb (ix2 j k) = ix2 j k := by
  obtain ⟨-, -, -, -, -, -, -, -, -, -, e0, e1, -⟩ := idx1 t
  funext a; apply Fin.ext
  match a with
  | ⟨0, _⟩ => show win1_5.index t (0 : Fin 2) * 128 + 1 * j.val = j.val; omega
  | ⟨1, _⟩ => show win1_5.index t (1 : Fin 2) * 128 + 1 * k.val = k.val; omega
theorem emb1_6 (z : Fin 1) (k : Fin 128) : ((cfg1.win 6).blk t).view.emb (ix2 z k) = ix2 z k := by
  obtain ⟨-, -, -, -, -, -, -, -, -, -, -, -, e0, e1, -⟩ := idx1 t
  funext a; apply Fin.ext
  match a with
  | ⟨0, _⟩ => show win1_6.index t (0 : Fin 2) * 1 + 1 * z.val = z.val; omega
  | ⟨1, _⟩ => show win1_6.index t (1 : Fin 2) * 128 + 1 * k.val = k.val; omega
theorem emb1_7 (p : Fin 4000) (k : Fin 128) : ((cfg1.win 7).blk t).view.emb (ix2 p k) = ix2 (rowOf (pt1 t) p) k := by
  obtain ⟨-, -, -, -, -, -, -, -, -, -, -, -, -, -, e0, e1, -⟩ := idx1 t
  funext a; apply Fin.ext
  match a with
  | ⟨0, _⟩ => show win1_7.index t (0 : Fin 2) * 4000 + 1 * p.val = 4000 * t.val + p.val; omega
  | ⟨1, _⟩ => show win1_7.index t (1 : Fin 2) * 128 + 1 * k.val = k.val; omega
theorem emb1_8 (z : Fin 1) (j : Fin 2) (k : Fin 128) : ((cfg1.win 8).blk t).view.emb (ix3 z j k) = ix3 (pt1 t) j k := by
  obtain ⟨-, -, -, -, -, -, -, -, -, -, -, -, -, -, -, -, e0, e1, e2⟩ := idx1 t
  funext a; apply Fin.ext
  match a with
  | ⟨0, _⟩ => show win1_8.index t (0 : Fin 3) * 1 + 1 * z.val = t.val; omega
  | ⟨1, _⟩ => show win1_8.index t (1 : Fin 3) * 2 + 1 * j.val = j.val; omega
  | ⟨2, _⟩ => show win1_8.index t (2 : Fin 3) * 128 + 1 * k.val = k.val; omega

theorem mem_blk1_7 (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v37_0).slice (win1_7.rect t)).set ↔ _
  rw [View.set_slice_whole, Rect.mem_set_unit]
  exact Iff.rfl

theorem mem_blk1_8 (i : S25x2x128.Idx) :
    i ∈ ((cfg1.win 8).blk t).view.set ↔ ∀ a : Fin 3, win1_8.index t a * S1x2x128.size a ≤ (i a).val ∧ (i a).val < win1_8.index t a * S1x2x128.size a + S1x2x128.size a := by
  show i ∈ ((View.whole main_v37_1).slice (win1_8.rect t)).set ↔ _
  rw [View.set_slice_whole, Rect.mem_set_unit]
  exact Iff.rfl
end

/-- Every row of the tall output lies in the block of the point `row / 4000`. -/
theorem cover1_7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 25 := N_1
  let t : Fin cfg1.N := ⟨(i 0).val / 4000, by omega⟩
  have ht : t.val = (i 0).val / 4000 := rfl
  obtain ⟨-, -, -, -, -, -, -, -, -, -, -, -, -, -, e0, e1, -⟩ := idx1 t
  refine ⟨t, flush1_7 t, ?_⟩
  rw [mem_blk1_7]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 128 ≤ (i 1).val ∧ (i 1).val < win1_7.index t (1 : Fin 2) * 128 + 128; omega

/-- Every index of the statistics array lies in the slab its leading coordinate names. -/
theorem cover1_8 (i : S25x2x128.Idx) : ∃ t : Fin cfg1.N, (cfg1.win 8).flush t = true ∧ i ∈ ((cfg1.win 8).blk t).view.set := by
  have hi0 : (i 0).val < 25 := (i 0).isLt
  have hi1 : (i 1).val < 2 := (i 1).isLt
  have hi2 : (i 2).val < 128 := (i 2).isLt
  have hN : cfg1.N = 25 := N_1
  let t : Fin cfg1.N := ⟨(i 0).val, by omega⟩
  have ht : t.val = (i 0).val := rfl
  obtain ⟨-, -, -, -, -, -, -, -, -, -, -, -, -, -, -, -, e0, e1, e2⟩ := idx1 t
  refine ⟨t, flush1_8 t, ?_⟩
  rw [mem_blk1_8]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 2 ≤ (i 1).val ∧ (i 1).val < win1_8.index t (1 : Fin 3) * 2 + 2; omega
  | ⟨2, _⟩ => show win1_8.index t (2 : Fin 3) * 128 ≤ (i 2).val ∧ (i 2).val < win1_8.index t (2 : Fin 3) * 128 + 128; omega

/-- A point of grid 2 as a number below 25. -/
def pt2 (t : Fin cfg2.N) : Fin 25 := ⟨t.val, by have := t.isLt; have h : cfg2.N = 25 := N_2; omega⟩

/-- The printed index maps of this pallas_call, decided over its 25 points. -/
theorem idx2 : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

section
variable (t : Fin cfg2.N)

theorem emb2_0 (p : Fin 4000) (k : Fin 128) : ((cfg2.win 0).blk t).view.emb (ix2 p k) = ix2 (rowOf (pt2 t) p) k := by
  obtain ⟨e0, e1, -⟩ := idx2 t
  funext a; apply Fin.ext
  match a with
  | ⟨0, _⟩ => show win2_0.index t (0 : Fin 2) * 4000 + 1 * p.val = 4000 * t.val + p.val; omega
  | ⟨1, _⟩ => show win2_0.index t (1 : Fin 2) * 128 + 1 * k.val = k.val; omega
theorem emb2_1 (z : Fin 1) (k : Fin 128) : ((cfg2.win 1).blk t).view.emb (ix2 z k) = ix2 z k := by
  obtain ⟨-, -, e0, e1, -⟩ := idx2 t
  funext a; apply Fin.ext
  match a with
  | ⟨0, _⟩ => show win2_1.index t (0 : Fin 2) * 1 + 1 * z.val = z.val; omega
  | ⟨1, _⟩ => show win2_1.index t (1 : Fin 2) * 128 + 1 * k.val = k.val; omega
theorem emb2_2 (z : Fin 1) (k : Fin 128) : ((cfg2.win 2).blk t).view.emb (ix2 z k) = ix2 z k := by
  obtain ⟨-, -, -, -, e0, e1, -⟩ := idx2 t
  funext a; apply Fin.ext
  match a with
  | ⟨0, _⟩ => show win2_2.index t (0 : Fin 2) * 1 + 1 * z.val = z.val; omega
  | ⟨1, _⟩ => show win2_2.index t (1 : Fin 2) * 128 + 1 * k.val = k.val; omega
theorem emb2_3 (z : Fin 1) (k : Fin 128) : ((cfg2.win 3).blk t).view.emb (ix2 z k) = ix2 z k := by
  obtain ⟨-, -, -, -, -, -, e0, e1, -⟩ := idx2 t
  funext a; apply Fin.ext
  match a with
  | ⟨0, _⟩ => show win2_3.index t (0 : Fin 2) * 1 + 1 * z.val = z.val; omega
  | ⟨1, _⟩ => show win2_3.index t (1 : Fin 2) * 128 + 1 * k.val = k.val; omega
theorem emb2_4 (z : Fin 1) (k : Fin 128) : ((cfg2.win 4).blk t).view.emb (ix2 z k) = ix2 z k := by
  obtain ⟨-, -, -, -, -, -, -, -, e0, e1, -⟩ := idx2 t
  funext a; apply Fin.ext
  match a with
  | ⟨0, _⟩ => show win2_4.index t (0 : Fin 2) * 1 + 1 * z.val = z.val; omega
  | ⟨1, _⟩ => show win2_4.index t (1 : Fin 2) * 128 + 1 * k.val = k.val; omega
theorem emb2_5 (p : Fin 4000) (k : Fin 128) : ((cfg2.win 5).blk t).view.emb (ix2 p k) = ix2 (rowOf (pt2 t) p) k := by
  obtain ⟨-, -, -, -, -, -, -, -, -, -, e0, e1⟩ := idx2 t
  funext a; apply Fin.ext
  match a with
  | ⟨0, _⟩ => show win2_5.index t (0 : Fin 2) * 4000 + 1 * p.val = 4000 * t.val + p.val; omega
  | ⟨1, _⟩ => show win2_5.index t (1 : Fin 2) * 128 + 1 * k.val = k.val; omega

theorem mem_blk2_5 (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v52).slice (win2_5.rect t)).set ↔ _
  rw [View.set_slice_whole, Rect.mem_set_unit]
  exact Iff.rfl
end

/-- Every row of the tall output lies in the block of the point `row / 4000`. -/
theorem cover2_5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  let t : Fin cfg2.N := ⟨(i 0).val / 4000, by omega⟩
  have ht : t.val = (i 0).val / 4000 := rfl
  obtain ⟨-, -, -, -, -, -, -, -, -, -, e0, e1⟩ := idx2 t
  refine ⟨t, flush2_5 t, ?_⟩
  rw [mem_blk2_5]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

end Cert.KernelIdeal.KerValue

end
-- ==== Proof.KernelPayload2.lean ====
/-
  The second body's arithmetic read at an entry, over the extended reals.

  The body normalises its 4000 x 128 block column by column (subtract the column's mean, multiply by the inverse square
  root of the column's variance plus a small positive number, scale, shift, maximum with zero), multiplies the result by
  the 128 x 128 matrix `x25` and adds the row `x28`. It stores the product, and the two rows of column statistics of
  the product: the column sums and the column sums of squares. Widening and rounding between formats are the identity
  on the extended reals, and the product is accumulated into the zero matrix.
-/
import proofs.«154256_j1151051235416_2_alg».proof.Proof.Gen.KernelIdeal.Skeleton
import proofs.«154256_j1151051235416_2_alg».proof.Proof.NormSpec
import proofs.«154256_j1151051235416_2_alg».proof.Proof.LibPlainMatmul
import proofs.«154256_j1151051235416_2_alg».proof.Proof.LibMatrixReduce
import proofs.«154256_j1151051235416_2_alg».proof.Proof.KernelPayloadPack
import Idealize.ShloMosaic.Lib.ValueLayout

noncomputable section

open Idealize.ShloMosaic Idealize.ShloMosaic.ValueIdx Cert.KernelIdeal

namespace Cert.KernelIdeal.Payload

/-- The zero pattern is zero. -/
theorem zero_pattern : (Scalar.ofBits .f32 0x00000000#32 : Ideal .f32) = 0 := Ideal.ofBits_zero_f32

/-- The normalised block through the linear map with its bias, at entry `(p, q)`. -/
theorem linear2_apply (x0 : Vec Ideal S4000x128 .bf16) (x3 x8 x14 x18 x28 : Vec Ideal S1x128 .f32)
    (x25 : Vec Ideal S128x128 .f32) (p : Fin 4000) (q : Fin 128) :
    Gen.k1_pay2 x0 x3 x8 x14 x18 x25 x28 (ix2 p q)
      = (∑ k : Fin 128, max ((x0 (ix2 p k) - x8 (ix2 0 k)) * Ideal.rsqrt (x3 (ix2 0 k) + Cert.NormSpec.stab)
            * x14 (ix2 0 k) + x18 (ix2 0 k)) 0 * x25 (ix2 k q)) + x28 (ix2 0 q) := by
  unfold Gen.k1_pay2
  simp only [shapeCast_self]
  rw [addf_apply, broadcastTo_1b_ab_apply]
  refine congrArg (· + x28 (ix2 0 q)) ?_
  refine (Cert.LibPlainMatmul.matmul_zero_apply dot_S4000x128_S128x128_S4000x128_1_0_0_1_n_n rfl rfl rfl rfl rfl rfl
    none _ _ p q).trans ?_
  refine Finset.sum_congr rfl fun k _ => ?_
  rw [truncf_apply, truncf_apply, maximumf_apply, addf_apply, mulf_apply, mulf_apply, subf_apply, extf_apply,
    broadcast_apply, zero_pattern,
    broadcastTo_1b_ab_apply, broadcastTo_1b_ab_apply, broadcastTo_1b_ab_apply, broadcastTo_1b_ab_apply]
  rfl

/-- The first row of statistics: the column sums. -/
theorem stats2_sum (x0 : Vec Ideal S4000x128 .bf16) (x3 x8 x14 x18 x28 : Vec Ideal S1x128 .f32)
    (x25 : Vec Ideal S128x128 .f32) (q : Fin 128) :
    Gen.k1_pay1 (Gen.k1_pay3 x0 x3 x8 x14 x18 x25 x28) (Gen.k1_pay4 x0 x3 x8 x14 x18 x25 x28) (ix3 0 0 q)
      = ∑ p : Fin 4000, Gen.k1_pay2 x0 x3 x8 x14 x18 x25 x28 (ix2 p q) := by
  refine (pack_fst _ _ q).trans ?_
  unfold Gen.k1_pay3
  refine (shapeCast_a_1a_apply _ _ 0 q).trans ?_
  exact Cert.LibMatrixReduce.colSum_apply _ _ _ _ _ q

/-- The second row of statistics: the column sums of squares. -/
theorem stats2_sq (x0 : Vec Ideal S4000x128 .bf16) (x3 x8 x14 x18 x28 : Vec Ideal S1x128 .f32)
    (x25 : Vec Ideal S128x128 .f32) (q : Fin 128) :
    Gen.k1_pay1 (Gen.k1_pay3 x0 x3 x8 x14 x18 x25 x28) (Gen.k1_pay4 x0 x3 x8 x14 x18 x25 x28) (ix3 0 1 q)
      = ∑ p : Fin 4000, Gen.k1_pay2 x0 x3 x8 x14 x18 x25 x28 (ix2 p q) * Gen.k1_pay2 x0 x3 x8 x14 x18 x25 x28 (ix2 p q) := by
  refine (pack_snd _ _ q).trans ?_
  unfold Gen.k1_pay4
  exact Cert.LibMatrixReduce.colSum_apply _ _ _ _ _ q

end Cert.KernelIdeal.Payload

end
-- ==== Proof.KernelLayer2.lean ====
/-
  The second pallas_call, read as whole arrays. Its tall output is the second pre-activation: the first
  pre-activation normalised column by column with the mean and variance rows it finds, scaled, shifted, rectified, then
  through a linear map with a bias. Its statistics output holds, in slab `t`, the column sums of that output and of its
  squares over the 4000 rows of block `t`. Point `t` writes back exactly block `t` of these two functions, and the
  blocks cover the arrays.
-/
import proofs.«154256_j1151051235416_2_alg».proof.Proof.KernelBlocks12
import proofs.«154256_j1151051235416_2_alg».proof.Proof.KernelPayload2

set_option maxRecDepth 16384

noncomputable section

namespace Cert.KernelIdeal.KerValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

section
variable (c : Dev nD) (t : Fin cfg1.N)

theorem blk1_0 (p : Fin 4000) (k : Fin 128) : iblk1 V c 0 t (ix2 p k) = V c (Pipeline.arrRef spec1 0) (ix2 (rowOf (pt1 t) p) k) := by
  show V c (Pipeline.arrRef spec1 0) (((cfg1.win 0).blk t).view.emb (ix2 p k)) = _
  rw [emb1_0]
theorem blk1_1 (z : Fin 1) (k : Fin 128) : iblk1 V c 1 t (ix2 z k) = V c (Pipeline.arrRef spec1 1) (ix2 z k) := by
  show V c (Pipeline.arrRef spec1 1) (((cfg1.win 1).blk t).view.emb (ix2 z k)) = _
  rw [emb1_1]
theorem blk1_2 (z : Fin 1) (k : Fin 128) : iblk1 V c 2 t (ix2 z k) = V c (Pipeline.arrRef spec1 2) (ix2 z k) := by
  show V c (Pipeline.arrRef spec1 2) (((cfg1.win 2).blk t).view.emb (ix2 z k)) = _
  rw [emb1_2]
theorem blk1_3 (z : Fin 1) (k : Fin 128) : iblk1 V c 3 t (ix2 z k) = V c (Pipeline.arrRef spec1 3) (ix2 z k) := by
  show V c (Pipeline.arrRef spec1 3) (((cfg1.win 3).blk t).view.emb (ix2 z k)) = _
  rw [emb1_3]
theorem blk1_4 (z : Fin 1) (k : Fin 128) : iblk1 V c 4 t (ix2 z k) = V c (Pipeline.arrRef spec1 4) (ix2 z k) := by
  show V c (Pipeline.arrRef spec1 4) (((cfg1.win 4).blk t).view.emb (ix2 z k)) = _
  rw [emb1_4]
theorem blk1_5 (z : Fin 128) (k : Fin 128) : iblk1 V c 5 t (ix2 z k) = V c (Pipeline.arrRef spec1 5) (ix2 z k) := by
  show V c (Pipeline.arrRef spec1 5) (((cfg1.win 5).blk t).view.emb (ix2 z k)) = _
  rw [emb1_5]
theorem blk1_6 (z : Fin 1) (k : Fin 128) : iblk1 V c 6 t (ix2 z k) = V c (Pipeline.arrRef spec1 6) (ix2 z k) := by
  show V c (Pipeline.arrRef spec1 6) (((cfg1.win 6).blk t).view.emb (ix2 z k)) = _
  rw [emb1_6]

/-- The body's output at entry `(p, q)` of point `t`'s block is `pre2` at row `4000·t + p`. -/
theorem body2_at (p : Fin 4000) (q : Fin 128) :
    Gen.k1_pay2 (F := Ideal) (iblk1 V c 0 t) (iblk1 V c 2 t) (iblk1 V c 1 t) (iblk1 V c 3 t) (iblk1 V c 4 t) (iblk1 V c 5 t) (iblk1 V c 6 t) (ix2 p q)
      = pre2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (ix2 (rowOf (pt1 t) p) q) := by
  refine (Cert.KernelIdeal.Payload.linear2_apply (iblk1 V c 0 t) (iblk1 V c 2 t) (iblk1 V c 1 t) (iblk1 V c 3 t) (iblk1 V c 4 t) (iblk1 V c 6 t) (iblk1 V c 5 t) p q).trans ?_
  simp only [blk1_0, blk1_1, blk1_2, blk1_3, blk1_4, blk1_5, blk1_6]
  rfl

/-- What point `t` writes back to the tall output is block `t` of the second pre-activation. -/
theorem flushed1_7_eq :
    (dat1 V c).flushed 7 t = ((cfg1.win 7).blk t).view.read (Elt Ideal)
      (pre2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [after1_7]
  unfold out1_7
  rw [View.canon_unit_zero hz2]
  simp only [View.ld_unit_zero (S := S4000x128) hz2, View.ld_unit_zero (S := S1x128) hz2, View.ld_unit_zero (S := S128x128) hz2]
  funext j
  obtain ⟨p, q, rfl⟩ : ∃ (p : Fin 4000) (q : Fin 128), j = ix2 p q := ⟨j 0, j 1, eq_ix2 j⟩
  show Gen.k1_pay2 (F := Ideal) (iblk1 V c 0 t) (iblk1 V c 2 t) (iblk1 V c 1 t) (iblk1 V c 3 t) (iblk1 V c 4 t) (iblk1 V c 5 t) (iblk1 V c 6 t) (ix2 p q)
    = pre2 _ _ _ _ _ _ _ (((cfg1.win 7).blk t).view.emb (ix2 p q))
  rw [emb1_7]
  exact body2_at V c t p q

/-- The body's first row of statistics at point `t`: the column sums of `pre2` over block `t`. -/
theorem stats2_sum_at (q : Fin 128) :
    Gen.k1_pay1 (F := Ideal) (Gen.k1_pay3 (iblk1 V c 0 t) (iblk1 V c 2 t) (iblk1 V c 1 t) (iblk1 V c 3 t) (iblk1 V c 4 t) (iblk1 V c 5 t) (iblk1 V c 6 t)) (Gen.k1_pay4 (iblk1 V c 0 t) (iblk1 V c 2 t) (iblk1 V c 1 t) (iblk1 V c 3 t) (iblk1 V c 4 t) (iblk1 V c 5 t) (iblk1 V c 6 t)) (ix3 0 0 q)
      = ∑ p : Fin 4000, pre2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (ix2 (rowOf (pt1 t) p) q) := by
  refine (Cert.KernelIdeal.Payload.stats2_sum (iblk1 V c 0 t) (iblk1 V c 2 t) (iblk1 V c 1 t) (iblk1 V c 3 t) (iblk1 V c 4 t) (iblk1 V c 6 t) (iblk1 V c 5 t) q).trans ?_
  exact Finset.sum_congr rfl fun p _ => body2_at V c t p q

/-- The body's second row of statistics at point `t`: the column sums of the squares of `pre2` over block `t`. -/
theorem stats2_sq_at (q : Fin 128) :
    Gen.k1_pay1 (F := Ideal) (Gen.k1_pay3 (iblk1 V c 0 t) (iblk1 V c 2 t) (iblk1 V c 1 t) (iblk1 V c 3 t) (iblk1 V c 4 t) (iblk1 V c 5 t) (iblk1 V c 6 t)) (Gen.k1_pay4 (iblk1 V c 0 t) (iblk1 V c 2 t) (iblk1 V c 1 t) (iblk1 V c 3 t) (iblk1 V c 4 t) (iblk1 V c 5 t) (iblk1 V c 6 t)) (ix3 0 1 q)
      = ∑ p : Fin 4000, pre2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (ix2 (rowOf (pt1 t) p) q)
          * pre2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (ix2 (rowOf (pt1 t) p) q) := by
  refine (Cert.KernelIdeal.Payload.stats2_sq (iblk1 V c 0 t) (iblk1 V c 2 t) (iblk1 V c 1 t) (iblk1 V c 3 t) (iblk1 V c 4 t) (iblk1 V c 6 t) (iblk1 V c 5 t) q).trans ?_
  exact Finset.sum_congr rfl fun p _ => by rw [body2_at V c t p q]

/-- What point `t` writes back to the statistics output is slab `t` of the block statistics. -/
theorem flushed1_8_eq :
    (dat1 V c).flushed 8 t = ((cfg1.win 8).blk t).view.read (Elt Ideal)
      (blockStats (pre2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)))) := by
  show (cfg1.win 8).cut (grid1.coords t) ((dat1 V c).after 8 t) = _
  rw [after1_8]
  unfold out1_8
  rw [View.canon_unit_zero hz3]
  simp only [View.ld_unit_zero (S := S4000x128) hz2, View.ld_unit_zero (S := S1x128) hz2, View.ld_unit_zero (S := S128x128) hz2]
  funext j
  obtain ⟨z, s, q, rfl⟩ : ∃ (z : Fin 1) (s : Fin 2) (q : Fin 128), j = ix3 z s q := ⟨j 0, j 1, j 2, eq_ix3 j⟩
  show Gen.k1_pay1 (F := Ideal) (Gen.k1_pay3 (iblk1 V c 0 t) (iblk1 V c 2 t) (iblk1 V c 1 t) (iblk1 V c 3 t) (iblk1 V c 4 t) (iblk1 V c 5 t) (iblk1 V c 6 t)) (Gen.k1_pay4 (iblk1 V c 0 t) (iblk1 V c 2 t) (iblk1 V c 1 t) (iblk1 V c 3 t) (iblk1 V c 4 t) (iblk1 V c 5 t) (iblk1 V c 6 t)) (ix3 z s q)
    = blockStats _ (((cfg1.win 8).blk t).view.emb (ix3 z s q))
  rw [emb1_8]
  obtain rfl : z = 0 := Subsingleton.elim _ _
  match s with
  | ⟨0, _⟩ => exact (stats2_sum_at V c t q).trans (blockStats_sum _ (pt1 t) q).symm
  | ⟨1, _⟩ => exact (stats2_sq_at V c t q).trans (blockStats_sq _ (pt1 t) q).symm
end

/-- The tall output after the region: the second pre-activation of the arrays the region finds. -/
theorem final1_7 (c : Dev nD) : (dat1 V c).arrAt 7 cfg1.N
    = pre2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) :=
  (dat1 V c).arrAt_eq_of_cover 7 _ (fun t _ => flushed1_7_eq V c t) cover1_7

/-- The statistics output after the region. -/
theorem final1_8 (c : Dev nD) : (dat1 V c).arrAt 8 cfg1.N
    = blockStats (pre2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) :=
  (dat1 V c).arrAt_eq_of_cover 8 _ (fun t _ => flushed1_8_eq V c t) cover1_8

end Cert.KernelIdeal.KerValue

end
-- ==== Proof.KernelPayload3.lean ====
/-
  The third body's arithmetic read at an entry, over the extended reals.

  The body normalises a 4000 x 128 block column by column: it subtracts the column's mean, multiplies by the inverse
  square root of the column's variance plus a small positive number, scales, shifts, and takes the maximum with zero.
  Every row operand is a 1 x 128 row broadcast down the 4000 rows, so the entry (p, q) of the result depends on the
  block's entry (p, q) and on the rows' entries (0, q) only.
-/
import proofs.«154256_j1151051235416_2_alg».proof.Proof.Gen.KernelIdeal.Skeleton
import proofs.«154256_j1151051235416_2_alg».proof.Proof.NormSpec
import proofs.«154256_j1151051235416_2_alg».proof.Proof.LibPlainMatmul
import proofs.«154256_j1151051235416_2_alg».proof.Proof.LibMatrixReduce
import Idealize.ShloMosaic.Lib.ValueLayout

noncomputable section

open Idealize.ShloMosaic Idealize.ShloMosaic.ValueIdx Cert.KernelIdeal

namespace Cert.KernelIdeal.Payload

/-- The small number the bodies add to a variance is the specification's. -/
theorem stab_eq : (Scalar.ofBits .f32 0x3727C5AC#32 : Ideal .f32) = Cert.NormSpec.stab := rfl

/-- The zero pattern is zero. -/
theorem zero_eq : (Scalar.ofBits .f32 0x00000000#32 : Ideal .f32) = 0 := Ideal.ofBits_zero_f32

/-- The normalised, scaled, shifted block and its maximum with zero, at entry `(p, q)`. -/
theorem norm3_apply (x0 : Vec Ideal S4000x128 .f32) (x2 x7 x13 x17 : Vec Ideal S1x128 .f32) (p : Fin 4000) (q : Fin 128) :
    Gen.k2_pay1 x0 x2 x7 x13 x17 (ix2 p q)
      = max ((x0 (ix2 p q) - x7 (ix2 0 q)) * Ideal.rsqrt (x2 (ix2 0 q) + Cert.NormSpec.stab) * x13 (ix2 0 q) + x17 (ix2 0 q)) 0 := by
  unfold Gen.k2_pay1
  simp only [shapeCast_self]
  rw [maximumf_apply, addf_apply, mulf_apply, mulf_apply, subf_apply, broadcast_apply, zero_eq,
    broadcastTo_1b_ab_apply, broadcastTo_1b_ab_apply, broadcastTo_1b_ab_apply, broadcastTo_1b_ab_apply]
  rfl

end Cert.KernelIdeal.Payload

end
-- ==== Proof.KernelLayer3.lean ====
/-
  The third pallas_call, read as a whole array. Its output is the second pre-activation normalised column by
  column with the mean and variance rows it finds, scaled, shifted and rectified. Point `t` writes back exactly block
  `t` of this function, and the blocks cover the array.
-/
import proofs.«154256_j1151051235416_2_alg».proof.Proof.KernelBlocks12
import proofs.«154256_j1151051235416_2_alg».proof.Proof.KernelPayload3

set_option maxRecDepth 16384

noncomputable section

namespace Cert.KernelIdeal.KerValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

section
variable (c : Dev nD) (t : Fin cfg2.N)

theorem blk2_0 (p : Fin 4000) (k : Fin 128) : iblk2 V c 0 t (ix2 p k) = V c (Pipeline.arrRef spec2 0) (ix2 (rowOf (pt2 t) p) k) := by
  show V c (Pipeline.arrRef spec2 0) (((cfg2.win 0).blk t).view.emb (ix2 p k)) = _
  rw [emb2_0]
theorem blk2_1 (z : Fin 1) (k : Fin 128) : iblk2 V c 1 t (ix2 z k) = V c (Pipeline.arrRef spec2 1) (ix2 z k) := by
  show V c (Pipeline.arrRef spec2 1) (((cfg2.win 1).blk t).view.emb (ix2 z k)) = _
  rw [emb2_1]
theorem blk2_2 (z : Fin 1) (k : Fin 128) : iblk2 V c 2 t (ix2 z k) = V c (Pipeline.arrRef spec2 2) (ix2 z k) := by
  show V c (Pipeline.arrRef spec2 2) (((cfg2.win 2).blk t).view.emb (ix2 z k)) = _
  rw [emb2_2]
theorem blk2_3 (z : Fin 1) (k : Fin 128) : iblk2 V c 3 t (ix2 z k) = V c (Pipeline.arrRef spec2 3) (ix2 z k) := by
  show V c (Pipeline.arrRef spec2 3) (((cfg2.win 3).blk t).view.emb (ix2 z k)) = _
  rw [emb2_3]
theorem blk2_4 (z : Fin 1) (k : Fin 128) : iblk2 V c 4 t (ix2 z k) = V c (Pipeline.arrRef spec2 4) (ix2 z k) := by
  show V c (Pipeline.arrRef spec2 4) (((cfg2.win 4).blk t).view.emb (ix2 z k)) = _
  rw [emb2_4]

/-- The body's output at entry `(p, q)` of point `t`'s block is `norm3` at row `4000·t + p`. -/
theorem body3_at (p : Fin 4000) (q : Fin 128) :
    Gen.k2_pay1 (F := Ideal) (iblk2 V c 0 t) (iblk2 V c 2 t) (iblk2 V c 1 t) (iblk2 V c 3 t) (iblk2 V c 4 t) (ix2 p q)
      = norm3 (V c (Pipeline.arrRef spec2 0)) (V c (Pipeline.arrRef spec2 1)) (V c (Pipeline.arrRef spec2 2)) (V c (Pipeline.arrRef spec2 3)) (V c (Pipeline.arrRef spec2 4)) (ix2 (rowOf (pt2 t) p) q) := by
  refine (Cert.KernelIdeal.Payload.norm3_apply (iblk2 V c 0 t) (iblk2 V c 2 t) (iblk2 V c 1 t) (iblk2 V c 3 t) (iblk2 V c 4 t) p q).trans ?_
  simp only [blk2_0, blk2_1, blk2_2, blk2_3, blk2_4]
  rfl

/-- What point `t` writes back to the output is block `t` of the normalised array. -/
theorem flushed2_5_eq :
    (dat2 V c).flushed 5 t = ((cfg2.win 5).blk t).view.read (Elt Ideal)
      (norm3 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S1x128) hz2]
  funext j
  obtain ⟨p, q, rfl⟩ : ∃ (p : Fin 4000) (q : Fin 128), j = ix2 p q := ⟨j 0, j 1, eq_ix2 j⟩
  show Gen.k2_pay1 (F := Ideal) (iblk2 V c 0 t) (iblk2 V c 2 t) (iblk2 V c 1 t) (iblk2 V c 3 t) (iblk2 V c 4 t) (ix2 p q)
    = norm3 _ _ _ _ _ (((cfg2.win 5).blk t).view.emb (ix2 p q))
  rw [emb2_5]
  exact body3_at V c t p q
end

/-- The output after the region: the normalised, rectified second pre-activation of the arrays the region finds. -/
theorem final2_5 (c : Dev nD) : (dat2 V c).arrAt 5 cfg2.N
    = norm3 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed2_5_eq V c t) cover2_5

end Cert.KernelIdeal.KerValue

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«154256_j1151051235416_2_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.LibHostReads.lean ====
/-
  Host array operations read at coordinates, over the extended reals — general facts, for any extents.

  * The accumulating scatters `[E, C] → [N, C]` and `[E] → [N]` along an index column `[E, 1]`, and the row gather
    `[N, C] → [E, C]`, stated for ANY dimension-number record that equals the row / vector one (so a printed record
    is passed with `rfl`): the host operation `Host.scatterAdd` / `Host.gather` itself, not the instance's field.
  * The `broadcast_in_dim` forms of a kept axis: `[m] → [m, 1]` at `(p, 0)`, `[m, 1] → [m, n]` at `(p, q)`,
    `[n] → [1, n]` at `(0, q)`, `[1, n] → [m, n]` at `(p, q)`.
  * The host's maximum and sum along the rows of a matrix (`stablehlo.reduce` over axis 1 with a scalar initial
    value), read at a row: the maximum folded from the initial value, the initial value plus the row's sum — from
    the `ReducesTo` fact alone.
  * Contents carried to a typed reference's buffer type and back (the casts an outlined function's operations
    put around their values cancel in pairs, with no evaluation of the buffer's type).
-/
import proofs.«154256_j1151051235416_2_alg».proof.Proof.LibSegmentRows
import proofs.«154256_j1151051235416_2_alg».proof.Proof.LibRowMax
import Idealize.ShloMosaic.PureOps.Reduce
import Idealize.ShloMosaic.Lib.Pipeline.Value
import Idealize.ShloMosaic.Lib.StableHlo.Run

noncomputable section

open Idealize.ShloMosaic Idealize.ShloMosaic.ValueIdx Cert.SegmentRows

namespace Cert.LibHostReads

variable {N E K C : ℕ}

/-- A host accumulating row scatter with the row dimension numbers, read at `(r, c)`. -/
theorem hostScatter_rows_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatterDims N E C wf)
    (x : (⟨2, ![N, C]⟩ : Shape).Idx → EReal) (idx : IVec ⟨2, ![E, 1]⟩ 32) (upd : (⟨2, ![E, C]⟩ : Shape).Idx → EReal) (r : Fin N) (c : Fin C) :
    Host.scatterAdd (F := Ideal) (φ := .f32) d x idx upd (ix2 r c) = x (ix2 r c) + ∑ e ∈ segment idx r, upd (ix2 e c) := by
  subst hd
  exact scatterAdd_rows_apply wf x idx upd r c

/-- A host accumulating vector scatter with the vector dimension numbers, read at `r`. -/
theorem hostScatter_vec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : (⟨1, ![N]⟩ : Shape).Idx → EReal) (idx : IVec ⟨2, ![E, 1]⟩ 32) (upd : (⟨1, ![E]⟩ : Shape).Idx → EReal) (r : Fin N) :
    Host.scatterAdd (F := Ideal) (φ := .f32) d x idx upd (ix1 r) = x (ix1 r) + ∑ e ∈ segment idx r, upd (ix1 e) := by
  subst hd
  exact scatterAdd_vec_apply wf x idx upd r

/-- A host row gather with the row dimension numbers, read at `(e, c)`. -/
theorem hostGather_rows_apply {α : Type} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGatherDims N E C wf)
    (x : (⟨2, ![N, C]⟩ : Shape).Idx → α) (idx : IVec ⟨2, ![E, 1]⟩ 32) (e : Fin E) (c : Fin C) :
    Host.gather d x idx (ix2 e c) = x (ix2 (takeRow hN idx e) c) := by
  subst hd
  exact gather_rows_apply hN wf x idx e c

/-! ## Kept axes, the `broadcast_in_dim` forms -/

variable {α : Type} {m n : ℕ}

/-- `[m] → [m, 1]` read at `(p, 0)`. -/
theorem colInner_apply (u : (⟨1, ![m]⟩ : Shape).Idx → α) (h : (⟨1, ![m]⟩ : Shape).BroadcastsInDim ⟨2, ![m, 1]⟩ ![0]) (p : Fin m) :
    broadcastInDim ⟨2, ![m, 1]⟩ ![0] h u (ix2 p 0) = u (ix1 p) :=
  broadcastInDim_apply ![0] h u (ix2 p 0) (ix1 p) fun a => by
    match a with
    | ⟨0, _⟩ =>
      show p.val = if m = 1 then 0 else p.val
      split_ifs with h1
      · have := p.isLt; omega
      · rfl

/-- `[m, 1] → [m, n]` read at `(p, q)`. -/
theorem colOuter_apply (w : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h w (ix2 p q) = w (ix2 p 0) :=
  broadcastInDim_apply ![0, 1] h w (ix2 p q) (ix2 p 0) fun a => by
    match a with
    | ⟨0, _⟩ =>
      show p.val = if m = 1 then 0 else p.val
      split_ifs with h1
      · have := p.isLt; omega
      · rfl
    | ⟨1, _⟩ => rfl

/-- `[n] → [1, n]` read at `(0, q)`. -/
theorem rowInner_apply (u : (⟨1, ![n]⟩ : Shape).Idx → α) (h : (⟨1, ![n]⟩ : Shape).BroadcastsInDim ⟨2, ![1, n]⟩ ![1]) (q : Fin n) :
    broadcastInDim ⟨2, ![1, n]⟩ ![1] h u (ix2 0 q) = u (ix1 q) :=
  broadcastInDim_apply ![1] h u (ix2 0 q) (ix1 q) fun a => by
    match a with
    | ⟨0, _⟩ =>
      show q.val = if n = 1 then 0 else q.val
      split_ifs with h1
      · have := q.isLt; omega
      · rfl

/-- `[1, n] → [m, n]` read at `(p, q)`. -/
theorem rowOuter_apply (w : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h w (ix2 p q) = w (ix2 0 q) :=
  broadcastInDim_apply ![0, 1] h w (ix2 p q) (ix2 0 q) fun a => by
    match a with
    | ⟨0, _⟩ => rfl
    | ⟨1, _⟩ =>
      show q.val = if n = 1 then 0 else q.val
      split_ifs with h1
      · have := q.isLt; omega
      · rfl

/-! ## Row reductions on the host -/

/-- The host's maximum along the rows at `p`: the maximum folded over the row from the initial value. -/
theorem hostRowMax_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduce (FloatOps.maximumf (F := Ideal) (φ := .f32)) v init h' hu (ix1 p)
      = (Finset.univ : Finset (Fin n)).fold max (init (Shape.Idx.first hu)) (fun c => v (ix2 p c)) := by
  have h : (⟨2, ![m, n]⟩ : Shape).Reduces [1] (⟨1, ![m]⟩ : Shape) := by
    obtain ⟨hr, hs⟩ := h'
    exact ⟨hr, Nat.one_pos, hs⟩
  rw [Host.reduce_eq_fold_single _ v init h' h hu (ix1 p), Cert.LibRowMax.comp_lift_row v h p]
  rfl

/-- The host's sum along the rows at `p`: the initial value plus the sum over the row. -/
theorem hostRowSum_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduceAdd (F := Ideal) (φ := .f32) v init h' hu (ix1 p) = init (Shape.Idx.first hu) + ∑ c : Fin n, v (ix2 p c) := by
  have h : (⟨2, ![m, n]⟩ : Shape).Reduces [1] (⟨1, ![m]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.Rows.lift_row h p k)

/-! ## Typed references -/

open Idealize.ShloMosaic.StableHlo in
/-- Contents at a value's type carried to its buffer's type and back. -/
theorem ofBuf_toBuf {sig : RefSig} {Val : EltTy → Type} {T : BufTy} (y : TRef sig T) (v : T.Contents Val) :
    y.ofBuf (y.toBuf v) = v := by
  obtain ⟨r, e, h1, h2⟩ := y
  subst e
  rfl

end Cert.LibHostReads

end
-- ==== Proof.KernelMoments.lean ====
/-
  The statistics the second program computes on the host between its passes. From an array `st` of shape
  `[25, 2, 128]` — slot 0 the column sums of each of the 25 row blocks, slot 1 their column sums of squares — it
  forms, for every column `q`: the sum over the 25 blocks of slot 0 divided by the row count (the mean), the same
  for slot 1 (the mean of the squares), and the second minus the square of the first (the variance). Each is
  read here at the entry `(0, q)` of its `[1, 128]` row. Two layout reads close the file: a `[1, 1]` array
  broadcast to a row reads its one entry, and a vector viewed as a one-row matrix reads the vector.
-/
import proofs.«154256_j1151051235416_2_alg».proof.Proof.Gen.KernelIdeal
import proofs.«154256_j1151051235416_2_alg».proof.Proof.NormSpec
import proofs.«154256_j1151051235416_2_alg».proof.Proof.LibHostReads
import proofs.«154256_j1151051235416_2_alg».proof.Proof.LibAxisZero
import Idealize.ShloMosaic.PureOps.Ideal.Laws
import Idealize.ShloMosaic.Lib.Pipeline.Value
import Idealize.ShloMosaic.Lib.ValueIdx

noncomputable section

open Idealize.ShloMosaic Idealize.ShloMosaic.ValueIdx

namespace Cert.KernelIdeal.KerValue

open Cert.KernelIdeal.Facts₀

/-! ## General reads -/

/-- The host's quotient of two arrays, read at an index. -/
theorem hostDivf_apply {s : Shape} (x y : FVec Ideal s .f32) (i : s.Idx) : Host.divf x y i = Ideal.div (x i) (y i) := rfl

/-- The host's sum along the columns of a matrix at column `c`: the initial value plus the sum over the rows. -/
theorem hostColSum_apply {m n : ℕ} (v : FVec Ideal (⟨2, ![m, n]⟩ : Shape) .f32) (init : (⟨0, ![]⟩ : Shape).Idx → EReal)
    (h' : (⟨2, ![m, n]⟩ : Shape).ReducesTo [0] (⟨1, ![n]⟩ : Shape))
    (hu : 0 < (⟨0, ![]⟩ : Shape).numel) (c : Fin n) :
    Host.reduceAdd (F := Ideal) (φ := .f32) v init h' hu (ix1 c) = init (Shape.Idx.first hu) + ∑ k : Fin m, v (ix2 k c) := by
  have h : (⟨2, ![m, n]⟩ : Shape).Reduces [0] (⟨1, ![n]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.LibAxisZero.lift_col h c k)

/-- A block `[m, 1, n]` cut out of `[m, 2, n]` at the middle offset `s`, read at `(t, 0, q)`, is the array at
    `(t, s, q)`. -/
theorem sliceMid_apply {α : Type} {m n : ℕ} (off : Fin 3 → ℕ) (s : Fin 2) (h0 : off 0 = 0) (h1 : off 1 = s.val)
    (h2 : off 2 = 0) (x : (⟨3, ![m, 2, n]⟩ : Shape).Idx → α)
    (h : (⟨3, ![m, 2, n]⟩ : Shape).Slices off ⟨3, ![m, 1, n]⟩) (t : Fin m) (q : Fin n) :
    extractStridedSlice ⟨3, ![m, 1, n]⟩ off x h (ix3 t 0 q) = x (ix3 t s q) :=
  extractStridedSlice_apply off x h (ix3 t 0 q) (ix3 t s q) fun a => by
    match a with
    | ⟨0, _⟩ => show t.val = off 0 + t.val; rw [h0, Nat.zero_add]
    | ⟨1, _⟩ => show s.val = off 1 + 0; rw [h1, Nat.add_zero]
    | ⟨2, _⟩ => show q.val = off 2 + q.val; rw [h2, Nat.zero_add]

/-- An array `[m, 1, n]` viewed as `[m, n]`, read at `(t, q)`, is the array at `(t, 0, q)`: both have row-major
    position `t · n + q`. -/
theorem dropMid_apply {α : Type} {m n : ℕ} (x : (⟨3, ![m, 1, n]⟩ : Shape).Idx → α)
    (h : (⟨3, ![m, 1, n]⟩ : Shape).ShapeCasts ⟨2, ![m, n]⟩) (t : Fin m) (q : Fin n) :
    shapeCast ⟨2, ![m, n]⟩ x h (ix2 t q) = x (ix3 t 0 q) :=
  shapeCast_apply x h (ix2 t q) (ix3 t 0 q) (by
    rw [Shape.rowMajor_val_three, Shape.rowMajor_val_two]
    show (t.val * 1 + 0) * n + q.val = t.val * n + q.val
    rw [Nat.mul_one, Nat.add_zero])

/-- A vector `[n]` viewed as `[1, n]`, read at `(0, k)`, is the vector at `k`. -/
theorem addRow_apply {α : Type} {n : ℕ} (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_one, Shape.rowMajor_val_two]
    show k.val = 0 * n + k.val
    rw [Nat.zero_mul, Nat.zero_add])

/-! ## The statistics -/

/-- The mean row: slot 0 summed over the blocks, divided by the row count. -/
def meanRow (st : FVec Ideal S25x2x128 .f32) : FVec Ideal S1x128 .f32 :=
  Host.divf (broadcastInDim S1x128 ![1] bcast_S128_S1x128_1 (Host.reduceAdd (shapeCast S25x128 (extractStridedSlice S25x1x128 ![0, 0, 0] st slices_S25x2x128_S25x1x128_0_0_0) shapeCasts_S25x1x128_S25x128) (constant S_ .f32 0x00000000#32) reducesTo_S25x128_S128_d0 h_S_)) (broadcastInDim S1x128 ![] bcast_S_S1x128 (constant S_ .f32 0x47C35000#32))

/-- The row of the means of the squares: slot 1 summed over the blocks, divided by the row count. -/
def sqMeanRow (st : FVec Ideal S25x2x128 .f32) : FVec Ideal S1x128 .f32 :=
  Host.divf (broadcastInDim S1x128 ![1] bcast_S128_S1x128_1 (Host.reduceAdd (shapeCast S25x128 (extractStridedSlice S25x1x128 ![0, 1, 0] st slices_S25x2x128_S25x1x128_0_1_0) shapeCasts_S25x1x128_S25x128) (constant S_ .f32 0x00000000#32) reducesTo_S25x128_S128_d0 h_S_)) (broadcastInDim S1x128 ![] bcast_S_S1x128 (constant S_ .f32 0x47C35000#32))

/-- The variance row: the mean of the squares minus the square of the mean. -/
def varRow (st : FVec Ideal S25x2x128 .f32) : FVec Ideal S1x128 .f32 :=
  subf (sqMeanRow st) (mulf (meanRow st) (meanRow st))

/-- Either slot's row, read at `(0, q)`: the quotient reads entrywise; the dividend is the row view of the column
    sums, whose entry `q` is zero plus the sum over the 25 blocks of the slot's entry `(t, s, q)`; the divisor is the
    broadcast scalar constant, the row count. -/
theorem slotRow_apply (off : Fin 3 → ℕ) (s : Fin 2) (h0 : off 0 = 0) (h1 : off 1 = s.val) (h2 : off 2 = 0)
    (hsl : S25x2x128.Slices off S25x1x128) (st : FVec Ideal S25x2x128 .f32) (q : Fin 128) :
    Host.divf (broadcastInDim S1x128 ![1] bcast_S128_S1x128_1 (Host.reduceAdd (shapeCast S25x128 (extractStridedSlice S25x1x128 off st hsl) shapeCasts_S25x1x128_S25x128) (constant S_ .f32 0x00000000#32) reducesTo_S25x128_S128_d0 h_S_)) (broadcastInDim S1x128 ![] bcast_S_S1x128 (constant S_ .f32 0x47C35000#32)) (ix2 0 q)
      = Ideal.div (∑ t : Fin 25, st (ix3 t s q)) Cert.NormSpec.rowCount := by
  rw [hostDivf_apply, Cert.LibHostReads.rowInner_apply, hostColSum_apply, constant_apply, Ideal.ofBits_zero_f32, zero_add]
  refine congrArg₂ Ideal.div (Finset.sum_congr rfl fun t _ => ?_) rfl
  rw [dropMid_apply, sliceMid_apply off s h0 h1 h2]

theorem meanRow_apply (st : FVec Ideal S25x2x128 .f32) (q : Fin 128) :
    meanRow st (ix2 0 q) = Ideal.div (∑ t : Fin 25, st (ix3 t 0 q)) Cert.NormSpec.rowCount :=
  slotRow_apply ![0, 0, 0] 0 rfl rfl rfl _ st q

theorem sqMeanRow_apply (st : FVec Ideal S25x2x128 .f32) (q : Fin 128) :
    sqMeanRow st (ix2 0 q) = Ideal.div (∑ t : Fin 25, st (ix3 t 1 q)) Cert.NormSpec.rowCount :=
  slotRow_apply ![0, 1, 0] 1 rfl rfl rfl _ st q

theorem varRow_apply (st : FVec Ideal S25x2x128 .f32) (q : Fin 128) :
    varRow st (ix2 0 q) = Ideal.div (∑ t : Fin 25, st (ix3 t 1 q)) Cert.NormSpec.rowCount
      - meanRow st (ix2 0 q) * meanRow st (ix2 0 q) := by
  unfold varRow
  rw [subf_apply, mulf_apply, sqMeanRow_apply]

/-! ## Two layout reads of the first host stretch -/

/-- A `[1, 1]` array broadcast to a `[1, 128]` row reads its one entry. -/
theorem epsRow_apply (a2 : FVec Ideal S1x1 .f32) (k : Fin 128) :
    broadcastInDim S1x128 ![0, 1] bcast_S1x1_S1x128_0_1 a2 (ix2 0 k) = a2 (ix2 0 0) :=
  Cert.LibHostReads.colOuter_apply a2 bcast_S1x1_S1x128_0_1 0 k

/-- A vector of 128 entries viewed as a one-row matrix reads the vector. -/
theorem rowCast_apply (a : FVec Ideal S128 .f32) (k : Fin 128) :
    shapeCast S1x128 a shapeCasts_S128_S1x128 (ix2 0 k) = a (ix1 k) :=
  addRow_apply a shapeCasts_S128_S1x128 k

end Cert.KernelIdeal.KerValue

end
-- ==== Proof.LibSegmentAggregate.lean ====
/-
  One round of message passing on a graph, read at an entry.

  Take the rows `h[src]` of a matrix `h : [N, C]` along an index column `src : [E, 1]`, scale them entry by
  entry by `nb : [E, C]`, and add them into `z : [N, C]` along an index column `dst : [E, 1]`. Entry `(r, c)`
  of the result is `z (r, c)` plus the sum, over the edges `e` whose destination index is `r`, of
  `h (row e, c) · nb (e, c)`, where `row e` is edge `e`'s source index clamped into the matrix.
-/
import proofs.«154256_j1151051235416_2_alg».proof.Proof.LibSegmentRows

noncomputable section

open Idealize.ShloMosaic Idealize.ShloMosaic.ValueIdx

namespace Cert.SegmentAggregate

open Cert.SegmentRows

/-- Gather rows, scale, scatter-add, at entry `(r, c)`. -/
theorem gather_scale_scatter_apply {N E C w : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z : (⟨2, ![N, C]⟩ : Shape).Idx → EReal) (src dst : IVec ⟨2, ![E, 1]⟩ w)
    (h : (⟨2, ![N, C]⟩ : Shape).Idx → EReal) (nb : (⟨2, ![E, C]⟩ : Shape).Idx → EReal) (r : Fin N) (c : Fin C) :
    Ideal.hostScatterAdd (rowScatterDims N E C wfs) z dst
        (fun i => Host.gather (rowGatherDims N E C wfg) h src i * nb i) (ix2 r c)
      = z (ix2 r c) + ∑ e ∈ segment dst r, h (ix2 (takeRow hN src e) c) * nb (ix2 e c) := by
  rw [scatterAdd_rows_apply]
  congr 1
  refine Finset.sum_congr rfl fun e _ => ?_
  show Host.gather (rowGatherDims N E C wfg) h src (ix2 e c) * nb (ix2 e c) = _
  rw [gather_rows_apply hN]

/-- The same for any printed dimension records of the row-gather and row-scatter form, over the host's
    operations: the records enter as variables with the equations that say what they are, so that a use at
    concrete sizes is one syntactic match. -/
theorem host_gather_scale_scatter_apply {N E C w : Nat} (hN : 0 < N) {φ : FTy}
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (g : GatherDims ⟨2, ![N, C]⟩ ⟨2, ![E, 1]⟩ ⟨2, ![E, C]⟩) (d : ScatterDims ⟨2, ![N, C]⟩ ⟨2, ![E, 1]⟩ ⟨2, ![E, C]⟩)
    (hg : g = rowGatherDims N E C wfg) (hd : d = rowScatterDims N E C wfs)
    (z : FVec Ideal ⟨2, ![N, C]⟩ φ) (src dst : IVec ⟨2, ![E, 1]⟩ w)
    (h : FVec Ideal ⟨2, ![N, C]⟩ φ) (nb : FVec Ideal ⟨2, ![E, C]⟩ φ) (r : Fin N) (c : Fin C) :
    Host.scatterAdd (F := Ideal) d z dst (mulf (Host.gather g h src) nb) (ix2 r c)
      = z (ix2 r c) + ∑ e ∈ segment dst r, h (ix2 (takeRow hN src e) c) * nb (ix2 e c) := by
  subst hg hd
  exact gather_scale_scatter_apply hN wfg wfs z src dst h nb r c

end Cert.SegmentAggregate

end
-- ==== Proof.KernelAggregate.lean ====
/-
  The kernel's aggregated messages, read at an entry.

  The kernel's first host stretch takes the rows of a half-precision copy of the message matrix along the source
  index column, widens them back, scales them entry by entry by the edge weights spread over the 128 columns, and
  adds them into a zero matrix along the destination index column. On the extended reals the narrowing and the
  widening change no entry, so entry (r, c) of the result is the specification's aggregate: the sum, over the edges
  whose destination index is r, of the message matrix at the edge's clamped source row and column c, times the
  edge's weight.
-/
import proofs.«154256_j1151051235416_2_alg».proof.Proof.Gen.KernelIdeal
import proofs.«154256_j1151051235416_2_alg».proof.Proof.NormSpec
import proofs.«154256_j1151051235416_2_alg».proof.Proof.LibSegmentAggregate
import proofs.«154256_j1151051235416_2_alg».proof.Proof.LibHostReads
import Idealize.ShloMosaic.Lib.IdealHost

noncomputable section

open Idealize.ShloMosaic Idealize.ShloMosaic.ValueIdx
open Cert.KernelIdeal Cert.KernelIdeal.Facts₀

namespace Cert.KernelIdeal.KerValue

variable [Cert.KernelIdeal.Facts]

/-- The source index column: an index below zero has 100000 added, then the vector becomes a column. -/
def idxCol (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- The destination index column: the vector as a column, no index changed. -/
def dstCol (a : IVec S1600000 32) : IVec S1600000x1 32 :=
  broadcastInDim S1600000x1 ![0] bcast_S1600000_S1600000x1_0 a

/-- The edge weights as a column, spread over the 128 columns. -/
def wMat (w : FVec Ideal S1600000 .f32) : FVec Ideal S1600000x128 .f32 :=
  broadcastInDim S1600000x128 ![0, 1] bcast_S1600000x1_S1600000x128_0_1
    (broadcastInDim S1600000x1 ![0] bcast_S1600000_S1600000x1_0 w)

/-- The aggregated messages as the kernel's host stretch computes them: rows of the narrowed matrix gathered,
    widened, scaled by the weights, and added into the zero matrix. -/
def aggTerm (a0 : FVec Ideal S100000x128 .f32) (a1 : FVec Ideal S1600000 .f32) (a11 a12 : IVec S1600000 32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (dstCol a12)
    (mulf
      ((extf (F := Ideal) .f32 · bitsLt_bf16_f32)
        (Host.gather gather_S100000x128_S1600000x1_S1600000x128_1_0_n_n_0_1_1128
          ((truncf (F := Ideal) .bf16 · bitsLt_bf16_f32) a0) (idxCol a11)))
      (wMat a1))

/-- On the extended reals, narrowing a matrix, gathering its rows and widening them is gathering the rows of the
    matrix itself: the two conversions change no entry. -/
theorem widen_gather_narrow (a0 : FVec Ideal S100000x128 .f32) (idx : IVec S1600000x1 32) :
    ((extf (F := Ideal) .f32 · bitsLt_bf16_f32)
        (Host.gather gather_S100000x128_S1600000x1_S1600000x128_1_0_n_n_0_1_1128
          ((truncf (F := Ideal) .bf16 · bitsLt_bf16_f32) a0) idx) : FVec Ideal S1600000x128 .f32)
      = Host.gather gather_S100000x128_S1600000x1_S1600000x128_1_0_n_n_0_1_1128 a0 idx := rfl

/-- The zero pattern spread over any shape is zero everywhere. -/
theorem zeroSplat_apply {T : Shape} (h : (⟨0, ![]⟩ : Shape).BroadcastsInDim T ![]) (j : T.Idx) :
    broadcastInDim T ![] h (constant (F := Ideal) S_ .f32 0x00000000#32) j = (0 : EReal) := by
  rw [broadcastInDim_scalar_apply]
  exact Ideal.ofBits_zero_f32

/-- The kernel's aggregated messages at an entry are the specification's aggregate. -/
theorem aggTerm_apply (a0 : FVec Ideal S100000x128 .f32) (a1 : FVec Ideal S1600000 .f32) (a11 a12 : IVec S1600000 32)
    (r : Fin 100000) (c : Fin 128) :
    aggTerm a0 a1 a11 a12 (ix2 r c) = Cert.NormSpec.aggregate a0 (idxCol a11) (dstCol a12) (wMat a1) r c := by
  unfold aggTerm
  rw [widen_gather_narrow,
    Cert.SegmentAggregate.host_gather_scale_scatter_apply (N := 100000) (E := 1600000) (C := 128) (by norm_num)
      gather_S100000x128_S1600000x1_S1600000x128_1_0_n_n_0_1_1128_wf
      scatter_S100000x128_S1600000x1_S1600000x128_1_0_0_1_wf
      gather_S100000x128_S1600000x1_S1600000x128_1_0_n_n_0_1_1128 scatter_S100000x128_S1600000x1_S1600000x128_1_0_0_1 rfl rfl,
    zeroSplat_apply, zero_add]
  rfl

/-- The same as an equation of matrices. -/
theorem mat_aggTerm (a0 : FVec Ideal S100000x128 .f32) (a1 : FVec Ideal S1600000 .f32) (a11 a12 : IVec S1600000 32) :
    Cert.NormSpec.mat (aggTerm a0 a1 a11 a12) = Cert.NormSpec.aggregate a0 (idxCol a11) (dstCol a12) (wMat a1) :=
  funext fun r => funext fun c => aggTerm_apply a0 a1 a11 a12 r c

end Cert.KernelIdeal.KerValue

end
-- ==== Proof.KernelStretches.lean ====
/-
  The second program's host stretches, buffer by buffer.

  Its main function alternates host stretches and passes over the row blocks. Before the first pass the host forms
  the aggregated messages, spreads the one-entry self-loop weight to a row, and views each bias, gain and shift vector
  as a one-row matrix; between passes it forms the mean row and the variance row from the statistics array the pass
  before left. Each buffer a later pass reads is stated here as a function of the contents at launch or of the
  contents the pass before left; a buffer that a stretch or a pass does not write is carried through it unchanged.
-/
import proofs.«154256_j1151051235416_2_alg».proof.Proof.KernelIdealFrameP
import proofs.«154256_j1151051235416_2_alg».proof.Proof.KernelMoments
import proofs.«154256_j1151051235416_2_alg».proof.Proof.KernelAggregate
import Idealize.ShloMosaic.Lib.StableHlo.Run
import Idealize.ShloMosaic.PureOps.Ideal

set_option maxRecDepth 16384

noncomputable section

namespace Cert.KernelIdeal.KerValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What each host stretch writes, and so what it keeps -/

/-- The buffers host stretch 0 writes, in order. -/
abbrev hostOps0_W : List (Ref sig .tc) := [main_v0, main_c, main_v1, main_v2, main_c_0, main_v3, main_v4, main_v5, main_v6, main_v7, main_v8, main_v9, main_v10, main_v11, main_cst, main_v12, main_v13, main_v14, main_v15, main_v16, main_v17, main_v18, main_v19, main_v20, main_v21]

theorem hostOps0_writes : (hostOps0 : List (HloOp τ sig (Elt Ideal))).Forall fun op =>
    op.writes ⊆ (hostOps0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer host stretch 0 does not write keeps its contents through it. -/
theorem hostOps0_keep (V : Valuation τ sig (Elt Ideal)) (r : Ref sig .tc) (h : r ∉ hostOps0_W) :
    StableHlo.after hostOps0 V (Proc.devRef .tc r) = V (Proc.devRef .tc r) :=
  StableHlo.after_of_writes_sub hostOps0 V hostOps0_writes h

/-- The buffers host stretch 1 writes, in order. -/
abbrev hostOps1_W : List (Ref sig .tc) := [main_v23, main_v24, main_cst_1, main_v25, main_v26, main_v27, main_v28, main_cst_2, main_v29, main_v30, main_cst_3, main_v31, main_v32, main_cst_4, main_v33, main_v34, main_v35, main_v36]

theorem hostOps1_writes : (hostOps1 : List (HloOp τ sig (Elt Ideal))).Forall fun op =>
    op.writes ⊆ (hostOps1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer host stretch 1 does not write keeps its contents through it. -/
theorem hostOps1_keep (V : Valuation τ sig (Elt Ideal)) (r : Ref sig .tc) (h : r ∉ hostOps1_W) :
    StableHlo.after hostOps1 V (Proc.devRef .tc r) = V (Proc.devRef .tc r) :=
  StableHlo.after_of_writes_sub hostOps1 V hostOps1_writes h

/-- The buffers host stretch 2 writes, in order. -/
abbrev hostOps2_W : List (Ref sig .tc) := [main_v38, main_v39, main_cst_5, main_v40, main_v41, main_v42, main_v43, main_cst_6, main_v44, main_v45, main_cst_7, main_v46, main_v47, main_cst_8, main_v48, main_v49, main_v50, main_v51]

theorem hostOps2_writes : (hostOps2 : List (HloOp τ sig (Elt Ideal))).Forall fun op =>
    op.writes ⊆ (hostOps2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer host stretch 2 does not write keeps its contents through it. -/
theorem hostOps2_keep (V : Valuation τ sig (Elt Ideal)) (r : Ref sig .tc) (h : r ∉ hostOps2_W) :
    StableHlo.after hostOps2 V (Proc.devRef .tc r) = V (Proc.devRef .tc r) :=
  StableHlo.after_of_writes_sub hostOps2 V hostOps2_writes h

variable (m : (ℓ : Loc nD τ sig) → Buf (Elt Ideal) ℓ) (ρ : Dev nD → PrngReg) (c : Dev nD)

/-! ## Host stretch 0: the rows the first pass reads, from the contents at launch -/

set_option maxHeartbeats 2000000 in
/-- The aggregated messages: the rows of the narrowed message matrix taken along the source index column, widened,
    scaled by the edge weights, and added into the zero matrix along the destination index column. -/
theorem W1_main_v14 : W1 m ρ c (Proc.devRef .tc main_v14)
    = aggTerm (m ((c : Thread nD τ).loc main_arg0)) (m ((c : Thread nD τ).loc main_arg1)) (m ((c : Thread nD τ).loc main_arg11)) (m ((c : Thread nD τ).loc main_arg12)) := by
  show StableHlo.after hostOps0 (W0 m ρ c) (Proc.devRef .tc main_v14) = _
  after_results_simp
  rfl

/-- The self-loop weight spread to a row. -/
theorem W1_main_v15 : W1 m ρ c (Proc.devRef .tc main_v15)
    = broadcastInDim S1x128 ![0, 1] bcast_S1x1_S1x128_0_1 (m ((c : Thread nD τ).loc main_arg2)) := by
  show StableHlo.after hostOps0 (W0 m ρ c) (Proc.devRef .tc main_v15) = _
  after_results

/-- Argument 4's vector viewed as a one-row matrix. -/
theorem W1_main_v16 : W1 m ρ c (Proc.devRef .tc main_v16) = shapeCast S1x128 (m ((c : Thread nD τ).loc main_arg4)) shapeCasts_S128_S1x128 := by
  show StableHlo.after hostOps0 (W0 m ρ c) (Proc.devRef .tc main_v16) = _
  after_results
  rfl

/-- Argument 5's vector viewed as a one-row matrix. -/
theorem W1_main_v17 : W1 m ρ c (Proc.devRef .tc main_v17) = shapeCast S1x128 (m ((c : Thread nD τ).loc main_arg5)) shapeCasts_S128_S1x128 := by
  show StableHlo.after hostOps0 (W0 m ρ c) (Proc.devRef .tc main_v17) = _
  after_results
  rfl

/-- Argument 6's vector viewed as a one-row matrix. -/
theorem W1_main_v18 : W1 m ρ c (Proc.devRef .tc main_v18) = shapeCast S1x128 (m ((c : Thread nD τ).loc main_arg6)) shapeCasts_S128_S1x128 := by
  show StableHlo.after hostOps0 (W0 m ρ c) (Proc.devRef .tc main_v18) = _
  after_results
  rfl

/-- Argument 8's vector viewed as a one-row matrix. -/
theorem W1_main_v19 : W1 m ρ c (Proc.devRef .tc main_v19) = shapeCast S1x128 (m ((c : Thread nD τ).loc main_arg8)) shapeCasts_S128_S1x128 := by
  show StableHlo.after hostOps0 (W0 m ρ c) (Proc.devRef .tc main_v19) = _
  after_results
  rfl

/-- Argument 9's vector viewed as a one-row matrix. -/
theorem W1_main_v20 : W1 m ρ c (Proc.devRef .tc main_v20) = shapeCast S1x128 (m ((c : Thread nD τ).loc main_arg9)) shapeCasts_S128_S1x128 := by
  show StableHlo.after hostOps0 (W0 m ρ c) (Proc.devRef .tc main_v20) = _
  after_results
  rfl

/-- Argument 10's vector viewed as a one-row matrix. -/
theorem W1_main_v21 : W1 m ρ c (Proc.devRef .tc main_v21) = shapeCast S1x128 (m ((c : Thread nD τ).loc main_arg10)) shapeCasts_S128_S1x128 := by
  show StableHlo.after hostOps0 (W0 m ρ c) (Proc.devRef .tc main_v21) = _
  after_results
  rfl

/-- Host stretch 0 does not write argument 0. -/
theorem W1_main_arg0 : W1 m ρ c (Proc.devRef .tc main_arg0) = (m ((c : Thread nD τ).loc main_arg0)) :=
  hostOps0_keep (W0 m ρ c) main_arg0 (by decide)

/-- Host stretch 0 does not write argument 3. -/
theorem W1_main_arg3 : W1 m ρ c (Proc.devRef .tc main_arg3) = (m ((c : Thread nD τ).loc main_arg3)) :=
  hostOps0_keep (W0 m ρ c) main_arg3 (by decide)

/-- Host stretch 0 does not write argument 7. -/
theorem W1_main_arg7 : W1 m ρ c (Proc.devRef .tc main_arg7) = (m ((c : Thread nD τ).loc main_arg7)) :=
  hostOps0_keep (W0 m ρ c) main_arg7 (by decide)

/-! ## The first pass keeps what it does not write -/

theorem W2_main_v17 : W2 m ρ c (Proc.devRef .tc main_v17) = W1 m ρ c (Proc.devRef .tc main_v17) :=
  W2_of_ne m ρ c main_v17 (by decide)

theorem W2_main_v18 : W2 m ρ c (Proc.devRef .tc main_v18) = W1 m ρ c (Proc.devRef .tc main_v18) :=
  W2_of_ne m ρ c main_v18 (by decide)

theorem W2_main_arg7 : W2 m ρ c (Proc.devRef .tc main_arg7) = W1 m ρ c (Proc.devRef .tc main_arg7) :=
  W2_of_ne m ρ c main_arg7 (by decide)

theorem W2_main_v19 : W2 m ρ c (Proc.devRef .tc main_v19) = W1 m ρ c (Proc.devRef .tc main_v19) :=
  W2_of_ne m ρ c main_v19 (by decide)

theorem W2_main_v20 : W2 m ρ c (Proc.devRef .tc main_v20) = W1 m ρ c (Proc.devRef .tc main_v20) :=
  W2_of_ne m ρ c main_v20 (by decide)

theorem W2_main_v21 : W2 m ρ c (Proc.devRef .tc main_v21) = W1 m ρ c (Proc.devRef .tc main_v21) :=
  W2_of_ne m ρ c main_v21 (by decide)

/-! ## Host stretch 1: the mean and variance rows of the first statistics array -/

/-- The mean row the second pass reads. -/
theorem W3_main_v32 : W3 m ρ c (Proc.devRef .tc main_v32) = meanRow (W2 m ρ c (Proc.devRef .tc main_v22_1)) := by
  show StableHlo.after hostOps1 (W2 m ρ c) (Proc.devRef .tc main_v32) = _
  after_results
  rfl

/-- The variance row the second pass reads. -/
theorem W3_main_v36 : W3 m ρ c (Proc.devRef .tc main_v36) = varRow (W2 m ρ c (Proc.devRef .tc main_v22_1)) := by
  show StableHlo.after hostOps1 (W2 m ρ c) (Proc.devRef .tc main_v36) = _
  after_results
  rfl

theorem W3_main_v22_0 : W3 m ρ c (Proc.devRef .tc main_v22_0) = W2 m ρ c (Proc.devRef .tc main_v22_0) :=
  hostOps1_keep (W2 m ρ c) main_v22_0 (by decide)

theorem W3_main_v17 : W3 m ρ c (Proc.devRef .tc main_v17) = W2 m ρ c (Proc.devRef .tc main_v17) :=
  hostOps1_keep (W2 m ρ c) main_v17 (by decide)

theorem W3_main_v18 : W3 m ρ c (Proc.devRef .tc main_v18) = W2 m ρ c (Proc.devRef .tc main_v18) :=
  hostOps1_keep (W2 m ρ c) main_v18 (by decide)

theorem W3_main_arg7 : W3 m ρ c (Proc.devRef .tc main_arg7) = W2 m ρ c (Proc.devRef .tc main_arg7) :=
  hostOps1_keep (W2 m ρ c) main_arg7 (by decide)

theorem W3_main_v19 : W3 m ρ c (Proc.devRef .tc main_v19) = W2 m ρ c (Proc.devRef .tc main_v19) :=
  hostOps1_keep (W2 m ρ c) main_v19 (by decide)

theorem W3_main_v20 : W3 m ρ c (Proc.devRef .tc main_v20) = W2 m ρ c (Proc.devRef .tc main_v20) :=
  hostOps1_keep (W2 m ρ c) main_v20 (by decide)

theorem W3_main_v21 : W3 m ρ c (Proc.devRef .tc main_v21) = W2 m ρ c (Proc.devRef .tc main_v21) :=
  hostOps1_keep (W2 m ρ c) main_v21 (by decide)

/-! ## The second pass keeps what it does not write -/

theorem W4_main_v20 : W4 m ρ c (Proc.devRef .tc main_v20) = W3 m ρ c (Proc.devRef .tc main_v20) :=
  W4_of_ne m ρ c main_v20 (by decide)

theorem W4_main_v21 : W4 m ρ c (Proc.devRef .tc main_v21) = W3 m ρ c (Proc.devRef .tc main_v21) :=
  W4_of_ne m ρ c main_v21 (by decide)

/-! ## Host stretch 2: the mean and variance rows of the second statistics array -/

/-- The mean row the third pass reads. -/
theorem W5_main_v47 : W5 m ρ c (Proc.devRef .tc main_v47) = meanRow (W4 m ρ c (Proc.devRef .tc main_v37_1)) := by
  show StableHlo.after hostOps2 (W4 m ρ c) (Proc.devRef .tc main_v47) = _
  after_results
  rfl

/-- The variance row the third pass reads. -/
theorem W5_main_v51 : W5 m ρ c (Proc.devRef .tc main_v51) = varRow (W4 m ρ c (Proc.devRef .tc main_v37_1)) := by
  show StableHlo.after hostOps2 (W4 m ρ c) (Proc.devRef .tc main_v51) = _
  after_results
  rfl

theorem W5_main_v37_0 : W5 m ρ c (Proc.devRef .tc main_v37_0) = W4 m ρ c (Proc.devRef .tc main_v37_0) :=
  hostOps2_keep (W4 m ρ c) main_v37_0 (by decide)

theorem W5_main_v20 : W5 m ρ c (Proc.devRef .tc main_v20) = W4 m ρ c (Proc.devRef .tc main_v20) :=
  hostOps2_keep (W4 m ρ c) main_v20 (by decide)

theorem W5_main_v21 : W5 m ρ c (Proc.devRef .tc main_v21) = W4 m ρ c (Proc.devRef .tc main_v21) :=
  hostOps2_keep (W4 m ρ c) main_v21 (by decide)

end Cert.KernelIdeal.KerValue

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.KernelBridge.lean ====
/-
  The three whole-array forms composed are the specification's computation with the variance taken as the mean of
  the squares minus the square of the mean.

  The block statistics split the 100000 rows into 25 blocks of 4000: the sum over the blocks of the block sums is the
  sum over all rows, so a mean row built from the block sums is the specification's column mean, and a variance row
  built from the block sums of squares and the mean row is the specification's moments variance. The first form is
  the linear map applied to the aggregated messages plus the self-loop term (the self-loop scalar is one number
  repeated along its row), the second the linear map applied to the normalised, rectified first form, and the
  third the normalised, rectified second form. Only regrouping of finite sums is used.
-/
import proofs.«154256_j1151051235416_2_alg».proof.Proof.KernelForms
import proofs.«154256_j1151051235416_2_alg».proof.Proof.NormSpec
import proofs.«154256_j1151051235416_2_alg».proof.Proof.LibERealSums

noncomputable section

namespace Cert.KernelIdeal.KerValue

open Cert.KernelIdeal Idealize.ShloMosaic Idealize.ShloMosaic.ValueIdx

/-- The sum over the 25 blocks of the sums over a block's 4000 rows is the sum over the 100000 rows. -/
theorem sum_blocks (f : Fin 100000 → EReal) :
    ∑ t : Fin 25, ∑ p : Fin 4000, f (rowOf t p) = ∑ r : Fin 100000, f r :=
  (Cert.LibERealSums.sum_fin_blocks (m := 25) (n := 4000) (N := 100000) (by norm_num) rowOf rowOf_val f).symm

/-- The block sums added up are the column sum. -/
theorem blockStats_colSum (x : FVec Ideal S100000x128 .f32) (q : Fin 128) :
    ∑ t : Fin 25, blockStats x (ix3 t 0 q) = Cert.NormSpec.colSum (Cert.NormSpec.mat x) q := by
  simp only [blockStats_sum]
  exact sum_blocks fun r => x (ix2 r q)

/-- The block sums of squares added up are the column sum of the squares. -/
theorem blockStats_colSumSq (x : FVec Ideal S100000x128 .f32) (q : Fin 128) :
    ∑ t : Fin 25, blockStats x (ix3 t 1 q)
      = Cert.NormSpec.colSum (fun r c => Cert.NormSpec.mat x r c * Cert.NormSpec.mat x r c) q := by
  simp only [blockStats_sq]
  exact sum_blocks fun r => x (ix2 r q) * x (ix2 r q)

/-- A mean row built from the block sums is the column mean. -/
theorem meanRow_eq (x : FVec Ideal S100000x128 .f32) (M : FVec Ideal S1x128 .f32)
    (hM : ∀ q : Fin 128, M (ix2 0 q) = Ideal.div (∑ t : Fin 25, blockStats x (ix3 t 0 q)) Cert.NormSpec.rowCount) :
    (fun k : Fin 128 => M (ix2 0 k)) = Cert.NormSpec.mean (Cert.NormSpec.mat x) := by
  funext q
  rw [hM q, blockStats_colSum]
  rfl

/-- A variance row built from the block sums of squares and the mean row is the moments variance. -/
theorem varRow_eq (x : FVec Ideal S100000x128 .f32) (M V : FVec Ideal S1x128 .f32)
    (hM : ∀ q : Fin 128, M (ix2 0 q) = Ideal.div (∑ t : Fin 25, blockStats x (ix3 t 0 q)) Cert.NormSpec.rowCount)
    (hV : ∀ q : Fin 128, V (ix2 0 q)
      = Ideal.div (∑ t : Fin 25, blockStats x (ix3 t 1 q)) Cert.NormSpec.rowCount - M (ix2 0 q) * M (ix2 0 q)) :
    (fun k : Fin 128 => V (ix2 0 k)) = Cert.NormSpec.varMoments (Cert.NormSpec.mat x) := by
  funext q
  have hm : M (ix2 0 q) = Cert.NormSpec.mean (Cert.NormSpec.mat x) q := congrFun (meanRow_eq x M hM) q
  rw [hV q, blockStats_colSumSq, hm]
  rfl

/-- The first form is the linear map applied to the aggregated messages plus the self-loop term. -/
theorem mat_pre1 (A a0 : FVec Ideal S100000x128 .f32) (E B1 : FVec Ideal S1x128 .f32) (a3 : FVec Ideal S128x128 .f32)
    (hE : ∀ k : Fin 128, E (ix2 0 k) = E (ix2 0 0)) :
    Cert.NormSpec.mat (pre1 A a0 E B1 a3)
      = Cert.NormSpec.affine (Cert.NormSpec.selfLoop (Cert.NormSpec.mat A) (Cert.NormSpec.mat a0) (E (ix2 0 0)))
          (Cert.NormSpec.mat a3) (fun k => B1 (ix2 0 k)) := by
  funext r c
  show (∑ k : Fin 128, (A (ix2 r k) + E (ix2 0 k) * a0 (ix2 r k)) * a3 (ix2 k c)) + B1 (ix2 0 c) = _
  simp only [hE]
  rfl

/-- The second form is the linear map applied to the normalised, rectified argument. -/
theorem mat_pre2 (x : FVec Ideal S100000x128 .f32) (M Va G B : FVec Ideal S1x128 .f32) (W : FVec Ideal S128x128 .f32)
    (Bi : FVec Ideal S1x128 .f32) :
    Cert.NormSpec.mat (pre2 x M Va G B W Bi)
      = Cert.NormSpec.affine (Cert.NormSpec.normRelu (Cert.NormSpec.mat x) (fun k => M (ix2 0 k)) (fun k => Va (ix2 0 k))
          (fun k => G (ix2 0 k)) (fun k => B (ix2 0 k))) (Cert.NormSpec.mat W) (fun k => Bi (ix2 0 k)) := by
  funext r c
  rfl

/-- The third form at an entry is the normalised, rectified argument. -/
theorem norm3_apply (x : FVec Ideal S100000x128 .f32) (M Va G B : FVec Ideal S1x128 .f32) (r : Fin 100000) (q : Fin 128) :
    norm3 x M Va G B (ix2 r q)
      = Cert.NormSpec.normRelu (Cert.NormSpec.mat x) (fun k => M (ix2 0 k)) (fun k => Va (ix2 0 k))
          (fun k => G (ix2 0 k)) (fun k => B (ix2 0 k)) r q := rfl

/-- The three forms composed, their mean and variance rows built from the block statistics, are the specification's
    computation with the moments variance. -/
theorem forms_eq_net (A a0 : FVec Ideal S100000x128 .f32) (a3 a7 : FVec Ideal S128x128 .f32)
    (E B1 G1 Be1 B2 G2 Be2 M1 V1 M2 V2 : FVec Ideal S1x128 .f32)
    (hE : ∀ k : Fin 128, E (ix2 0 k) = E (ix2 0 0))
    (hM1 : ∀ q : Fin 128, M1 (ix2 0 q)
      = Ideal.div (∑ t : Fin 25, blockStats (pre1 A a0 E B1 a3) (ix3 t 0 q)) Cert.NormSpec.rowCount)
    (hV1 : ∀ q : Fin 128, V1 (ix2 0 q)
      = Ideal.div (∑ t : Fin 25, blockStats (pre1 A a0 E B1 a3) (ix3 t 1 q)) Cert.NormSpec.rowCount
          - M1 (ix2 0 q) * M1 (ix2 0 q))
    (hM2 : ∀ q : Fin 128, M2 (ix2 0 q)
      = Ideal.div (∑ t : Fin 25, blockStats (pre2 (pre1 A a0 E B1 a3) M1 V1 G1 Be1 a7 B2) (ix3 t 0 q))
          Cert.NormSpec.rowCount)
    (hV2 : ∀ q : Fin 128, V2 (ix2 0 q)
      = Ideal.div (∑ t : Fin 25, blockStats (pre2 (pre1 A a0 E B1 a3) M1 V1 G1 Be1 a7 B2) (ix3 t 1 q))
          Cert.NormSpec.rowCount - M2 (ix2 0 q) * M2 (ix2 0 q))
    (r : Fin 100000) (q : Fin 128) :
    norm3 (pre2 (pre1 A a0 E B1 a3) M1 V1 G1 Be1 a7 B2) M2 V2 G2 Be2 (ix2 r q)
      = Cert.NormSpec.net Cert.NormSpec.varMoments (Cert.NormSpec.mat A) (Cert.NormSpec.mat a0) (E (ix2 0 0))
          (Cert.NormSpec.mat a3) (fun k => B1 (ix2 0 k)) (fun k => G1 (ix2 0 k)) (fun k => Be1 (ix2 0 k))
          (Cert.NormSpec.mat a7) (fun k => B2 (ix2 0 k)) (fun k => G2 (ix2 0 k)) (fun k => Be2 (ix2 0 k)) r q := by
  rw [norm3_apply, meanRow_eq _ M2 hM2, varRow_eq _ M2 V2 hM2 hV2, mat_pre2, meanRow_eq _ M1 hM1,
    varRow_eq _ M1 V1 hM1 hV1, mat_pre1 A a0 E B1 a3 hE]
  rfl

end Cert.KernelIdeal.KerValue

end
-- ==== Proof.ReferenceTerm.lean ====
/-
  The value the reference program computes, as one term over its thirteen arguments.

  The definitions follow the program's text operation for operation, with the same function symbols and the same
  shape-relation evidence the program prints, at the extended-real instance of the float operations: the index
  column of the source indices (a negative index has the row count added first), the index column of the
  destination indices (taken as they are), the edge weights spread over the 128 columns, the variance of the
  columns as the program's variance function returns it, a normalisation followed by the maximum with zero, and
  the whole function.
-/
import proofs.«154256_j1151051235416_2_alg».proof.ReferenceIdeal
import proofs.«154256_j1151051235416_2_alg».proof.Proof.Gen.ReferenceIdeal
import Idealize.ShloMosaic.PureOps.Ideal

noncomputable section

open Idealize.ShloMosaic
open Cert.ReferenceIdeal Cert.ReferenceIdeal.Facts₀

namespace Cert.ReferenceIdeal.RefValue

variable [Cert.ReferenceIdeal.Facts]

/-- The source index column: an index below zero has 100000 added, then the vector becomes a column. -/
def idxCol (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- The destination index column: the vector as a column, no index changed. -/
def dstCol (a : IVec S1600000 32) : IVec S1600000x1 32 :=
  broadcastInDim S1600000x1 ![0] bcast_S1600000_S1600000x1_0 a

/-- The edge weights as a column, spread over the 128 columns. -/
def wMat (w : FVec Ideal S1600000 .f32) : FVec Ideal S1600000x128 .f32 :=
  broadcastInDim S1600000x128 ![0, 1] bcast_S1600000x1_S1600000x128_0_1
    (broadcastInDim S1600000x1 ![0] bcast_S1600000_S1600000x1_0 w)

/-- The column sums divided by the row count, as the variance function computes them (a row of shape [1, 128]). -/
def varMeanRow (x : FVec Ideal S100000x128 .f32) : FVec Ideal S1x128 .f32 :=
  Host.divf
    (broadcastInDim S1x128 ![1] bcast_S128_S1x128_1
      (Host.reduceAdd x (constant (F := Ideal) S_ .f32 0x00000000#32) reducesTo_S100000x128_S128_d0 h_S_))
    (broadcastInDim S1x128 ![] bcast_S_S1x128 (constant (F := Ideal) S_ .f32 0x47C35000#32))

/-- The deviations from the column means. -/
def varDev (x : FVec Ideal S100000x128 .f32) : FVec Ideal S100000x128 .f32 :=
  subf x (broadcastInDim S100000x128 ![0, 1] bcast_S1x128_S100000x128_0_1 (varMeanRow x))

/-- The divisor of the variance function: the row count minus the correction, the correction the integer zero. -/
def varDivisor : FVec Ideal S_ .f32 :=
  subf (constant (F := Ideal) S_ .f32 0x47C35000#32) (sitofp (F := Ideal) .f32 (constantI S_ 32 0#32))

/-- What one call of the variance function returns for the correction zero: the sum of the squared deviations
    divided by the divisor where the divisor is positive, the not-a-number pattern elsewhere. -/
def varTerm (x : FVec Ideal S100000x128 .f32) : FVec Ideal S128 .f32 :=
  select (broadcastInDim S128 ![] bcast_S_S128 (cmpf .ogt varDivisor (constant (F := Ideal) S_ .f32 0x00000000#32)))
    (Host.divf
      (Host.reduceAdd (mulf (varDev x) (varDev x)) (constant (F := Ideal) S_ .f32 0x00000000#32)
        reducesTo_S100000x128_S128_d0 h_S_)
      (broadcastInDim S128 ![] bcast_S_S128 varDivisor))
    (broadcastInDim S128 ![] bcast_S_S128 (constant (F := Ideal) S_ .f32 0x7FC00000#32))

/-- A row of 128 entries spread over the 100000 rows. -/
def spread (u : FVec Ideal S128 .f32) : FVec Ideal S100000x128 .f32 :=
  broadcastInDim S100000x128 ![0, 1] bcast_S1x128_S100000x128_0_1 (broadcastInDim S1x128 ![1] bcast_S128_S1x128_1 u)

/-- The column means as the main function computes them. -/
def meanTerm (x : FVec Ideal S100000x128 .f32) : FVec Ideal S128 .f32 :=
  Host.divf (Host.reduceAdd x (constant (F := Ideal) S_ .f32 0x00000000#32) reducesTo_S100000x128_S128_d0 h_S_)
    (broadcastInDim S128 ![] bcast_S_S128 (constant (F := Ideal) S_ .f32 0x47C35000#32))

/-- Normalise by the column means and variances, scale by `g`, shift by `b`, take the maximum with zero. -/
def normTerm (x : FVec Ideal S100000x128 .f32) (g b : FVec Ideal S128 .f32) : FVec Ideal S100000x128 .f32 :=
  maximumf
    (addf
      (mulf
        (mulf (subf x (spread (meanTerm x)))
          (spread (Host.rsqrt (addf (varTerm x)
            (broadcastInDim S128 ![] bcast_S_S128 (constant (F := Ideal) S_ .f32 0x3727C5AC#32))))))
        (spread g))
      (spread b))
    (broadcastInDim S100000x128 ![] bcast_S_S100000x128 (constant (F := Ideal) S_ .f32 0x00000000#32))

/-- The aggregated messages plus the self-loop term. -/
def aggTerm (a0 : FVec Ideal S100000x128 .f32) (a1 : FVec Ideal S1600000 .f32) (a2 : FVec Ideal S1x1 .f32)
    (a11 a12 : IVec S1600000 32) : FVec Ideal S100000x128 .f32 :=
  addf
    (Host.scatterAdd scatter_S100000x128_S1600000x1_S1600000x128_1_0_0_1
      (broadcastInDim S100000x128 ![] bcast_S_S100000x128 (constant (F := Ideal) S_ .f32 0x00000000#32))
      (dstCol a12)
      (mulf (Host.gather gather_S100000x128_S1600000x1_S1600000x128_1_0_n_n_0_1_1128 a0 (idxCol a11)) (wMat a1)))
    (mulf (broadcastInDim S100000x128 ![0, 1] bcast_S1x1_S100000x128_0_1 a2) a0)

/-- A linear map with a bias. -/
def affineTerm (h : FVec Ideal S100000x128 .f32) (W : FVec Ideal S128x128 .f32) (b : FVec Ideal S128 .f32) :
    FVec Ideal S100000x128 .f32 :=
  addf (Host.dotGeneral dot_S100000x128_S128x128_S100000x128_1_0_0_1_n_n none h W) (spread b)

/-- The whole function: its result. -/
def refOut (a0 : FVec Ideal S100000x128 .f32) (a1 : FVec Ideal S1600000 .f32) (a2 : FVec Ideal S1x1 .f32)
    (a3 : FVec Ideal S128x128 .f32) (a4 a5 a6 : FVec Ideal S128 .f32) (a7 : FVec Ideal S128x128 .f32)
    (a8 a9 a10 : FVec Ideal S128 .f32) (a11 a12 : IVec S1600000 32) : FVec Ideal S100000x128 .f32 :=
  normTerm (affineTerm (normTerm (affineTerm (aggTerm a0 a1 a2 a11 a12) a3 a4) a5 a6) a7 a8) a9 a10

end Cert.ReferenceIdeal.RefValue

end
-- ==== Proof.ReferenceReads.lean ====
/-
  The reference's array operations read at coordinates, over the extended reals.

  A row of 128 entries spread over the 100000 rows reads the row at the column; a one-entry matrix spread over the
  whole matrix reads its entry; a scalar spread over any shape reads the scalar; the sum of a matrix over its rows,
  started from the zero pattern, is the sum of the column; the two forms of the column mean the program computes are
  the specification's mean.
-/
import proofs.«154256_j1151051235416_2_alg».proof.Proof.ReferenceTerm
import proofs.«154256_j1151051235416_2_alg».proof.Proof.NormSpec
import proofs.«154256_j1151051235416_2_alg».proof.Proof.LibHostReads
import proofs.«154256_j1151051235416_2_alg».proof.Proof.LibAxisZero
import Idealize.ShloMosaic.Lib.IdealHost

noncomputable section

open Idealize.ShloMosaic Idealize.ShloMosaic.ValueIdx
open Cert.ReferenceIdeal Cert.ReferenceIdeal.Facts₀

namespace Cert.ReferenceIdeal.RefValue

variable [Cert.ReferenceIdeal.Facts]

/-- A row spread over the rows reads the row at the column. -/
theorem spread_apply (u : FVec Ideal S128 .f32) (r : Fin 100000) (c : Fin 128) :
    spread u (ix2 r c) = u (ix1 c) := by
  unfold spread
  rw [Cert.LibHostReads.rowOuter_apply, Cert.LibHostReads.rowInner_apply]

/-- A one-entry matrix spread over `[m, n]` reads its entry. -/
theorem oneByOne_apply {α : Type} {m n : ℕ} (v : (⟨2, ![1, 1]⟩ : Shape).Idx → α)
    (h : (⟨2, ![1, 1]⟩ : Shape).BroadcastsInDim ⟨2, ![m, n]⟩ ![0, 1]) (p : Fin m) (q : Fin n) :
    broadcastInDim ⟨2, ![m, n]⟩ ![0, 1] h v (ix2 p q) = v (ix2 0 0) :=
  broadcastInDim_apply ![0, 1] h v (ix2 p q) (ix2 0 0) fun a => by
    match a with
    | ⟨0, _⟩ => rfl
    | ⟨1, _⟩ => rfl

/-- The zero pattern spread over any shape is zero everywhere. -/
theorem zeroSplat_apply {T : Shape} (h : (⟨0, ![]⟩ : Shape).BroadcastsInDim T ![]) (j : T.Idx) :
    broadcastInDim T ![] h (constant (F := Ideal) S_ .f32 0x00000000#32) j = (0 : EReal) := by
  rw [broadcastInDim_scalar_apply]
  exact Ideal.ofBits_zero_f32

/-- The sum over the rows, started from the zero pattern, at a column. -/
theorem colReduce_apply (x : FVec Ideal S100000x128 .f32) (c : Fin 128) :
    Host.reduceAdd x (constant (F := Ideal) S_ .f32 0x00000000#32) reducesTo_S100000x128_S128_d0 h_S_ (ix1 c)
      = ∑ r : Fin 100000, x (ix2 r c) := by
  have h : S100000x128.Reduces [0] S128 := by
    obtain ⟨hr, hs⟩ := (reducesTo_S100000x128_S128_d0 : S100000x128.ReducesTo [0] S128)
    exact ⟨hr, Nat.one_pos, hs⟩
  rw [hostReduceAdd_apply, Ideal.hostReduceAdd_single _ h]
  show Ideal.ofBits .f32 0x00000000#32 + _ = _
  rw [Ideal.ofBits_zero_f32, zero_add]
  exact Finset.sum_congr rfl fun k _ => congrArg x (Cert.LibAxisZero.lift_col h c k)

/-- The column sum in the specification's words. -/
theorem colReduce_eq_colSum (x : FVec Ideal S100000x128 .f32) (c : Fin 128) :
    Host.reduceAdd x (constant (F := Ideal) S_ .f32 0x00000000#32) reducesTo_S100000x128_S128_d0 h_S_ (ix1 c)
      = Cert.NormSpec.colSum (Cert.NormSpec.mat x) c := colReduce_apply x c

/-- The column mean of the main function is the specification's mean. -/
theorem meanTerm_apply (x : FVec Ideal S100000x128 .f32) (c : Fin 128) :
    meanTerm x (ix1 c) = Cert.NormSpec.mean (Cert.NormSpec.mat x) c := by
  unfold meanTerm
  rw [hostDivf_apply, colReduce_eq_colSum, broadcastInDim_scalar_apply]
  rfl

/-- The column mean inside the variance function is the specification's mean. -/
theorem varMeanRow_apply (x : FVec Ideal S100000x128 .f32) (c : Fin 128) :
    varMeanRow x (ix2 0 c) = Cert.NormSpec.mean (Cert.NormSpec.mat x) c := by
  unfold varMeanRow
  rw [hostDivf_apply, Cert.LibHostReads.rowInner_apply, colReduce_eq_colSum, broadcastInDim_scalar_apply]
  rfl

end Cert.ReferenceIdeal.RefValue

end
-- ==== Proof.ReferenceVar.lean ====
/-
  The variance function of the reference read at a column: the mean of the squared deviations from the column mean.

  The divisor is the row count minus the correction, and the correction is the integer zero; the comparison of the
  divisor with zero holds because the row count is the positive number 100000, so the selection returns the quotient.
-/
import proofs.«154256_j1151051235416_2_alg».proof.Proof.ReferenceReads

noncomputable section

open Idealize.ShloMosaic Idealize.ShloMosaic.ValueIdx
open Cert.ReferenceIdeal Cert.ReferenceIdeal.Facts₀

namespace Cert.ReferenceIdeal.RefValue

variable [Cert.ReferenceIdeal.Facts]

/-- The host's inverse square root at an index. -/
theorem hostRsqrt_apply {s : Shape} {φ : FTy} (a : FVec Ideal s φ) (i : s.Idx) : Host.rsqrt a i = Ideal.rsqrt (a i) := rfl

/-- A deviation from the column mean. -/
theorem varDev_apply (x : FVec Ideal S100000x128 .f32) (r : Fin 100000) (c : Fin 128) :
    varDev x (ix2 r c) = Cert.NormSpec.mat x r c - Cert.NormSpec.mean (Cert.NormSpec.mat x) c := by
  unfold varDev
  rw [subf_apply, Cert.LibHostReads.rowOuter_apply, varMeanRow_apply]
  rfl

/-- The divisor is the row count: the correction is zero. -/
theorem varDivisor_apply (i : S_.Idx) : varDivisor i = Cert.NormSpec.rowCount := by
  unfold varDivisor
  rw [subf_apply, constant_apply, sitofp_apply]
  show Ideal.ofBits .f32 0x47C35000#32 - (((constantI S_ 32 0#32 i).toInt : ℝ) : EReal) = _
  have h0 : (constantI S_ 32 0#32 i).toInt = 0 := by
    show (0#32 : BitVec 32).toInt = 0
    decide
  rw [h0, Int.cast_zero, EReal.coe_zero, sub_zero]
  rfl

/-- The row count is positive. -/
theorem rowCount_pos (hN : Cert.NormSpec.rowCount = ((100000 : ℝ) : EReal)) : (0 : EReal) < Cert.NormSpec.rowCount := by
  rw [hN]
  exact_mod_cast (by norm_num : (0 : ℝ) < 100000)

/-- The variance function at a column is the specification's centred variance. -/
theorem varTerm_apply (hN : Cert.NormSpec.rowCount = ((100000 : ℝ) : EReal)) (x : FVec Ideal S100000x128 .f32)
    (c : Fin 128) : varTerm x (ix1 c) = Cert.NormSpec.varCentered (Cert.NormSpec.mat x) c := by
  have hc : FloatOps.cmpf (F := Ideal) (φ := .f32) .ogt Cert.NormSpec.rowCount (0 : EReal) = 1 := by
    show Ideal.cmp .ogt Cert.NormSpec.rowCount 0 = 1
    simp [Ideal.cmp, rowCount_pos hN]
  unfold varTerm
  rw [select_apply, broadcastInDim_scalar_apply, cmpf_apply, varDivisor_apply, constant_apply, Ideal.ofBits_zero_f32, hc]
  show (if (1 : BitVec 1) = 1 then _ else _) = _
  rw [if_pos rfl, hostDivf_apply, colReduce_apply, broadcastInDim_scalar_apply, varDivisor_apply]
  unfold Cert.NormSpec.varCentered Cert.NormSpec.colSum
  refine congrArg (fun s => Ideal.div s Cert.NormSpec.rowCount) (Finset.sum_congr rfl fun r _ => ?_)
  rw [mulf_apply, varDev_apply]

end Cert.ReferenceIdeal.RefValue

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«154256_j1151051235416_2_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.ReferenceLayers.lean ====
/-
  The reference's normalisation, aggregation and linear map read at an entry, in the specification's words.
-/
import proofs.«154256_j1151051235416_2_alg».proof.Proof.ReferenceVar
import proofs.«154256_j1151051235416_2_alg».proof.Proof.LibSegmentAggregate
import proofs.«154256_j1151051235416_2_alg».proof.Proof.LibPlainDot

noncomputable section

open Idealize.ShloMosaic Idealize.ShloMosaic.ValueIdx
open Cert.ReferenceIdeal Cert.ReferenceIdeal.Facts₀

namespace Cert.ReferenceIdeal.RefValue

variable [Cert.ReferenceIdeal.Facts]

/-- The normalisation followed by the maximum with zero, at an entry. -/
theorem normTerm_apply (hN : Cert.NormSpec.rowCount = ((100000 : ℝ) : EReal)) (x : FVec Ideal S100000x128 .f32)
    (g b : FVec Ideal S128 .f32) (r : Fin 100000) (c : Fin 128) :
    normTerm x g b (ix2 r c)
      = Cert.NormSpec.normRelu (Cert.NormSpec.mat x) (Cert.NormSpec.mean (Cert.NormSpec.mat x))
          (Cert.NormSpec.varCentered (Cert.NormSpec.mat x)) (Cert.NormSpec.vec g) (Cert.NormSpec.vec b) r c := by
  unfold normTerm
  rw [maximumf_apply, addf_apply, mulf_apply, mulf_apply, subf_apply, zeroSplat_apply, spread_apply, spread_apply,
    spread_apply, spread_apply, meanTerm_apply, hostRsqrt_apply, addf_apply, varTerm_apply hN,
    broadcastInDim_scalar_apply, constant_apply]
  rfl

/-- The same as an equation of matrices. -/
theorem mat_normTerm (hN : Cert.NormSpec.rowCount = ((100000 : ℝ) : EReal)) (x : FVec Ideal S100000x128 .f32)
    (g b : FVec Ideal S128 .f32) :
    Cert.NormSpec.mat (normTerm x g b)
      = Cert.NormSpec.normRelu (Cert.NormSpec.mat x) (Cert.NormSpec.mean (Cert.NormSpec.mat x))
          (Cert.NormSpec.varCentered (Cert.NormSpec.mat x)) (Cert.NormSpec.vec g) (Cert.NormSpec.vec b) :=
  funext fun r => funext fun c => normTerm_apply hN x g b r c

/-- The aggregated messages plus the self-loop term, at an entry. -/
theorem aggTerm_apply (a0 : FVec Ideal S100000x128 .f32) (a1 : FVec Ideal S1600000 .f32) (a2 : FVec Ideal S1x1 .f32)
    (a11 a12 : IVec S1600000 32) (r : Fin 100000) (c : Fin 128) :
    aggTerm a0 a1 a2 a11 a12 (ix2 r c)
      = Cert.NormSpec.selfLoop (Cert.NormSpec.aggregate a0 (idxCol a11) (dstCol a12) (wMat a1)) (Cert.NormSpec.mat a0)
          (a2 (ix2 0 0)) r c := by
  unfold aggTerm
  rw [addf_apply, mulf_apply, oneByOne_apply,
    Cert.SegmentAggregate.host_gather_scale_scatter_apply (N := 100000) (E := 1600000) (C := 128) (by norm_num)
      gather_S100000x128_S1600000x1_S1600000x128_1_0_n_n_0_1_1128_wf
      scatter_S100000x128_S1600000x1_S1600000x128_1_0_0_1_wf
      gather_S100000x128_S1600000x1_S1600000x128_1_0_n_n_0_1_1128 scatter_S100000x128_S1600000x1_S1600000x128_1_0_0_1 rfl rfl,
    zeroSplat_apply, zero_add]
  rfl

theorem mat_aggTerm (a0 : FVec Ideal S100000x128 .f32) (a1 : FVec Ideal S1600000 .f32) (a2 : FVec Ideal S1x1 .f32)
    (a11 a12 : IVec S1600000 32) :
    Cert.NormSpec.mat (aggTerm a0 a1 a2 a11 a12)
      = Cert.NormSpec.selfLoop (Cert.NormSpec.aggregate a0 (idxCol a11) (dstCol a12) (wMat a1)) (Cert.NormSpec.mat a0)
          (a2 (ix2 0 0)) :=
  funext fun r => funext fun c => aggTerm_apply a0 a1 a2 a11 a12 r c

/-- The linear map with its bias, at an entry. -/
theorem affineTerm_apply (h : FVec Ideal S100000x128 .f32) (W : FVec Ideal S128x128 .f32) (b : FVec Ideal S128 .f32)
    (r : Fin 100000) (c : Fin 128) :
    affineTerm h W b (ix2 r c) = Cert.NormSpec.affine (Cert.NormSpec.mat h) (Cert.NormSpec.mat W) (Cert.NormSpec.vec b) r c := by
  unfold affineTerm Host.dotGeneral
  rw [addf_apply, spread_apply,
    Cert.LibPlainDot.dotGeneral_plain_apply (M := 100000) (K := 128) (N := 128)
      dot_S100000x128_S128x128_S100000x128_1_0_0_1_n_n rfl rfl rfl rfl rfl rfl]
  rfl

theorem mat_affineTerm (h : FVec Ideal S100000x128 .f32) (W : FVec Ideal S128x128 .f32) (b : FVec Ideal S128 .f32) :
    Cert.NormSpec.mat (affineTerm h W b)
      = Cert.NormSpec.affine (Cert.NormSpec.mat h) (Cert.NormSpec.mat W) (Cert.NormSpec.vec b) :=
  funext fun r => funext fun c => affineTerm_apply h W b r c

end Cert.ReferenceIdeal.RefValue

end
-- ==== Proof.ReferenceValue.lean ====
/-
  The value of the reference's result at an entry: the specification's computation with the centred variance, over the
  aggregated messages of the program's index columns and weight matrix.
-/
import proofs.«154256_j1151051235416_2_alg».proof.Proof.ReferenceLayers

noncomputable section

open Idealize.ShloMosaic Idealize.ShloMosaic.ValueIdx
open Cert.ReferenceIdeal Cert.ReferenceIdeal.Facts₀

namespace Cert.ReferenceIdeal.RefValue

variable [Cert.ReferenceIdeal.Facts]

/-- The reference's result at row `r` and column `c`. -/
theorem refOut_apply (a0 : FVec Ideal S100000x128 .f32) (a1 : FVec Ideal S1600000 .f32) (a2 : FVec Ideal S1x1 .f32)
    (a3 : FVec Ideal S128x128 .f32) (a4 a5 a6 : FVec Ideal S128 .f32) (a7 : FVec Ideal S128x128 .f32)
    (a8 a9 a10 : FVec Ideal S128 .f32) (a11 a12 : IVec S1600000 32)
    (hN : Cert.NormSpec.rowCount = ((100000 : ℝ) : EReal)) (r : Fin 100000) (c : Fin 128) :
    refOut a0 a1 a2 a3 a4 a5 a6 a7 a8 a9 a10 a11 a12 (ix2 r c)
      = Cert.NormSpec.net Cert.NormSpec.varCentered
          (Cert.NormSpec.aggregate a0 (idxCol a11) (dstCol a12) (wMat a1)) (Cert.NormSpec.mat a0) (a2 (ix2 0 0))
          (Cert.NormSpec.mat a3) (Cert.NormSpec.vec a4) (Cert.NormSpec.vec a5) (Cert.NormSpec.vec a6)
          (Cert.NormSpec.mat a7) (Cert.NormSpec.vec a8) (Cert.NormSpec.vec a9) (Cert.NormSpec.vec a10) r c := by
  unfold refOut
  rw [normTerm_apply hN, mat_affineTerm, mat_normTerm hN, mat_affineTerm, mat_aggTerm]
  rfl

end Cert.ReferenceIdeal.RefValue

end
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.NormAlgebra1.lean ====
/-
  The two constants of the normalisation: the row count is the real number 100000, and the number added to a
  variance is a positive real.
-/
import proofs.«154256_j1151051235416_2_alg».proof.Proof.NormSpec
import proofs.«154256_j1151051235416_2_alg».proof.Proof.LibIdealReal

noncomputable section

open Idealize.ShloMosaic

namespace Cert.NormSpec

/-- The pattern `0x47C35000` has exponent field 143 and fraction `0x435000 = 4411392`: it denotes
    `(2^23 + 4411392) · 2^(143 - 127 - 23) = 12800000 / 128 = 100000`. -/
theorem rowCount_eq : rowCount = ((100000 : ℝ) : EReal) := by
  unfold rowCount
  simp [Ideal.ofBits, Ideal.ieee]
  have h : ((12800000 : ℝ) * ((2 : ℝ) ^ 7)⁻¹) = 100000 := by norm_num
  exact_mod_cast h

/-- The pattern `0x3727C5AC` has exponent field 110 and fraction `0x27C5AC = 2606508`: it denotes
    `(2^23 + 2606508) · 2^(110 - 127 - 23) = 10995116 / 2^40`, a positive real. -/
theorem stab_pos : ∃ e : ℝ, 0 < e ∧ stab = (e : EReal) := by
  unfold stab
  simp [Ideal.ofBits, Ideal.ieee]
  refine ⟨(10995116 : ℝ) * ((2 : ℝ) ^ 40)⁻¹, by positivity, ?_⟩
  exact_mod_cast rfl

theorem rowCount_ne_zero : (100000 : ℝ) ≠ 0 := by norm_num

end Cert.NormSpec

end
-- ==== Proof.NormAlgebra2.lean ====
/-
  The variance identity over the reals: for a finite family `f` of `n ≠ 0` real numbers with mean `μ = (∑ f) / n`,
  the mean of the squared deviations from `μ` is the mean of the squares minus `μ²`; and the mean of the squared
  deviations is not negative.
-/
import Mathlib.Algebra.BigOperators.Field
import Mathlib.Algebra.Order.BigOperators.Ring.Finset
import Mathlib.Data.Real.Basic
import Mathlib.Tactic

namespace Cert.NormAlgebra

open Finset

/-- Expanding `(f i - μ)² = f i² - 2 μ f i + μ²` and summing: the middle sum is `2 μ · n μ` and the last is `n μ²`. -/
theorem centered_eq_moments {ι : Type*} [Fintype ι] (f : ι → ℝ) (n : ℝ) (hn : n = (Fintype.card ι : ℝ)) (hn0 : n ≠ 0) :
    (∑ i, (f i - (∑ j, f j) / n) * (f i - (∑ j, f j) / n)) / n
      = (∑ i, f i * f i) / n - ((∑ j, f j) / n) * ((∑ j, f j) / n) := by
  set S := ∑ j, f j with hS
  set μ := S / n with hμ
  have h1 : ∀ i, (f i - μ) * (f i - μ) = f i * f i - 2 * μ * f i + μ * μ := fun i => by ring
  rw [Finset.sum_congr rfl (fun i _ => h1 i), Finset.sum_add_distrib, Finset.sum_sub_distrib, ← Finset.mul_sum,
    Finset.sum_const, Finset.card_univ, nsmul_eq_mul, ← hn, ← hS]
  have hSn : S = n * μ := by rw [hμ]; field_simp
  rw [hSn]
  field_simp
  ring

/-- A mean of squares over a positive count is not negative. -/
theorem centered_nonneg {ι : Type*} [Fintype ι] (f : ι → ℝ) (m n : ℝ) (hn : 0 < n) :
    0 ≤ (∑ i, (f i - m) * (f i - m)) / n :=
  div_nonneg (Finset.sum_nonneg fun i _ => mul_self_nonneg _) hn.le

end Cert.NormAlgebra
-- ==== Proof.NormAlgebra3.lean ====
/-
  Arrays of real numbers inside the extended reals. Sums, differences, products, maxima with zero and quotients by
  the row count of reals are reals; hence column sums, means, the linear map and the self-loop term of real
  matrices are real. On a real matrix the two variance formulas give the same real number, which is not negative;
  hence the inverse square root of that number plus the positive stabiliser is a real, and the normalised matrix
  is real.
-/
import proofs.«154256_j1151051235416_2_alg».proof.Proof.NormSpec
import proofs.«154256_j1151051235416_2_alg».proof.Proof.LibERealSums
import proofs.«154256_j1151051235416_2_alg».proof.Proof.LibIdealReal
import proofs.«154256_j1151051235416_2_alg».proof.Proof.NormAlgebra1
import proofs.«154256_j1151051235416_2_alg».proof.Proof.NormAlgebra2

noncomputable section

open Idealize.ShloMosaic

namespace Cert.NormSpec

/-- An extended real that is a real number. -/
def IsReal (x : EReal) : Prop := ∃ a : ℝ, x = (a : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion is monotone, so it carries the maximum of two reals to the maximum of their coercions. -/
theorem IsReal.max_zero {x : EReal} (hx : IsReal x) : IsReal (max x 0) := by
  obtain ⟨a, rfl⟩ := hx
  refine ⟨max a 0, ?_⟩
  rw [← EReal.coe_zero]
  exact (EReal.coe_strictMono.monotone.map_max).symm

theorem IsReal.sum {ι : Type*} (s : Finset ι) (g : ι → EReal) (h : ∀ i ∈ s, IsReal (g i)) :
    IsReal (∑ i ∈ s, g i) := by
  classical
  induction s using Finset.induction_on with
  | empty => exact ⟨0, by rw [Finset.sum_empty, EReal.coe_zero]⟩
  | insert a s ha ih =>
    rw [Finset.sum_insert ha]
    exact (h a (Finset.mem_insert_self a s)).add (ih fun i hi => h i (Finset.mem_insert_of_mem hi))

theorem IsReal.div_rowCount {x : EReal} (hx : IsReal x) : IsReal (Ideal.div x rowCount) := by
  obtain ⟨a, rfl⟩ := hx
  rw [rowCount_eq]
  exact ⟨a / 100000, Cert.IdealReal.div_coe_coe rowCount_ne_zero⟩

/-- The inverse square root of a positive real is a real. -/
theorem rsqrt_real {a e : ℝ} (ha : 0 ≤ a) (he : 0 < e) : IsReal (Ideal.rsqrt ((a : EReal) + (e : EReal))) := by
  have hpos : 0 < a + e := add_pos_of_nonneg_of_pos ha he
  rw [← EReal.coe_add, Ideal.rsqrt_coe, if_neg (not_lt.mpr hpos.le), if_neg hpos.ne']
  exact ⟨_, rfl⟩

theorem colSum_real {x : Mat} (hx : ∀ r c, IsReal (x r c)) (c : Fin 128) : IsReal (colSum x c) :=
  IsReal.sum _ _ fun r _ => hx r c

theorem mean_real {x : Mat} (hx : ∀ r c, IsReal (x r c)) (c : Fin 128) : IsReal (mean x c) :=
  (colSum_real hx c).div_rowCount

theorem selfLoop_real {agg v : Mat} {eps : EReal} (hagg : ∀ r c, IsReal (agg r c)) (hv : ∀ r c, IsReal (v r c))
    (heps : IsReal eps) : ∀ r c, IsReal (selfLoop agg v eps r c) :=
  fun r c => (hagg r c).add (heps.mul (hv r c))

theorem affine_real {h : Mat} {W : Fin 128 → Fin 128 → EReal} {b : Row} (hh : ∀ r c, IsReal (h r c))
    (hW : ∀ k c, IsReal (W k c)) (hb : ∀ c, IsReal (b c)) : ∀ r c, IsReal (affine h W b r c) :=
  fun r c => (IsReal.sum _ _ fun k _ => (hh r k).mul (hW k c)).add (hb c)

/-- On a real matrix with entries `f`, both variances of column `c` are the real number
    `(∑ r, (f r c - μ)²) / 100000`, `μ = (∑ r, f r c) / 100000`, which is not negative. -/
theorem var_real {x : Mat} (hx : ∀ r c, IsReal (x r c)) (c : Fin 128) :
    ∃ a : ℝ, 0 ≤ a ∧ varCentered x c = (a : EReal) ∧ varMoments x c = (a : EReal) := by
  choose f hf using hx
  obtain rfl : x = fun r c => ((f r c : ℝ) : EReal) := funext fun r => funext fun c => hf r c
  have hmean : mean (fun r c => ((f r c : ℝ) : EReal)) c = (((∑ j, f j c) / 100000 : ℝ) : EReal) := by
    simp only [mean, colSum]
    rw [← Cert.LibERealSums.coe_finset_sum, rowCount_eq, Cert.IdealReal.div_coe_coe rowCount_ne_zero]
  have hcen : ∑ r : Fin 100000, (((f r c : ℝ) : EReal) - (((∑ j, f j c) / 100000 : ℝ) : EReal))
        * (((f r c : ℝ) : EReal) - (((∑ j, f j c) / 100000 : ℝ) : EReal))
      = ((∑ r : Fin 100000, (f r c - (∑ j, f j c) / 100000) * (f r c - (∑ j, f j c) / 100000) : ℝ) : EReal) :=
    Cert.LibERealSums.sum_eq_coe _ _ _ fun r _ => by rw [EReal.coe_mul, EReal.coe_sub]
  have hsq : ∑ r : Fin 100000, ((f r c : ℝ) : EReal) * ((f r c : ℝ) : EReal)
      = ((∑ r : Fin 100000, f r c * f r c : ℝ) : EReal) :=
    Cert.LibERealSums.sum_eq_coe _ _ _ fun r _ => by rw [EReal.coe_mul]
  have hid := Cert.NormAlgebra.centered_eq_moments (fun r => f r c) 100000 (by simp) (by norm_num)
  refine ⟨(∑ r, (f r c - (∑ j, f j c) / 100000) * (f r c - (∑ j, f j c) / 100000)) / 100000,
    Cert.NormAlgebra.centered_nonneg _ _ _ (by norm_num), ?_, ?_⟩
  · simp only [varCentered, colSum]
    rw [hmean, hcen, rowCount_eq, Cert.IdealReal.div_coe_coe rowCount_ne_zero]
  · simp only [varMoments, colSum]
    rw [hmean, hsq, rowCount_eq, Cert.IdealReal.div_coe_coe rowCount_ne_zero, ← EReal.coe_mul, ← EReal.coe_sub, hid]

/-- On a real matrix the two variance formulas agree. -/
theorem varMoments_eq_varCentered {x : Mat} (hx : ∀ r c, IsReal (x r c)) : varMoments x = varCentered x := by
  funext c
  obtain ⟨a, _, hc, hm⟩ := var_real hx c
  rw [hc, hm]

theorem varCentered_nonneg_real {x : Mat} (hx : ∀ r c, IsReal (x r c)) (c : Fin 128) :
    ∃ a : ℝ, 0 ≤ a ∧ varCentered x c = (a : EReal) := by
  obtain ⟨a, ha, hc, _⟩ := var_real hx c
  exact ⟨a, ha, hc⟩

/-- The normalised matrix of a real matrix, with a real mean, a variance that is a real not negative, and a real
    scale and shift, is real. -/
theorem normRelu_real {x : Mat} {mu va g b : Row} (hx : ∀ r c, IsReal (x r c)) (hmu : ∀ c, IsReal (mu c))
    (hva : ∀ c, ∃ a : ℝ, 0 ≤ a ∧ va c = (a : EReal)) (hg : ∀ c, IsReal (g c)) (hb : ∀ c, IsReal (b c)) :
    ∀ r c, IsReal (normRelu x mu va g b r c) := by
  intro r c
  obtain ⟨e, he, hst⟩ := stab_pos
  obtain ⟨a, ha, hva'⟩ := hva c
  have hrs : IsReal (Ideal.rsqrt (va c + stab)) := by
    rw [hva', hst]
    exact rsqrt_real ha he
  exact (((((hx r c).sub (hmu c)).mul hrs).mul (hg c)).add (hb c)).max_zero

end Cert.NormSpec

end
-- ==== Proof.NormAlgebra.lean ====
/-
  The algebra of the normalisation network over real inputs: the constants, the aggregated messages of real arrays
  are real, and the network computed with the variance as the mean of the squares minus the square of the mean
  equals the network computed with the variance as the mean of the squared deviations.

  The first pre-activation `x₁` is real, so its two variances agree; with the centred variance (a real that is not
  negative) the hidden layer is real, so the second pre-activation `x₂` is real and its two variances agree too.
-/
import proofs.«154256_j1151051235416_2_alg».proof.Proof.NormSpec
import proofs.«154256_j1151051235416_2_alg».proof.Proof.NormAlgebra1
import proofs.«154256_j1151051235416_2_alg».proof.Proof.NormAlgebra3

noncomputable section

open Idealize.ShloMosaic Idealize.ShloMosaic.ValueIdx

namespace Cert.NormSpec

/-- aggregated messages of real arrays are real -/
theorem aggregate_real (v : (⟨2, ![100000, 128]⟩ : Shape).Idx → EReal) (src dst : IVec ⟨2, ![1600000, 1]⟩ 32)
    (wm : (⟨2, ![1600000, 128]⟩ : Shape).Idx → EReal) (hv : ∀ i, ∃ a : ℝ, v i = (a : EReal)) (hw : ∀ i, ∃ a : ℝ, wm i = (a : EReal)) :
    ∀ r c, ∃ a : ℝ, aggregate v src dst wm r c = (a : EReal) := by
  intro r c
  unfold aggregate
  exact IsReal.sum _ _ fun e _ => IsReal.mul (hv _) (hw _)

/-- THE MAIN THEOREM: on real inputs the two variance formulas give the same network output. -/
theorem net_moments_eq_centered (agg v : Mat) (eps : EReal) (W1 : Fin 128 → Fin 128 → EReal) (b1 g1 be1 : Row)
    (W2 : Fin 128 → Fin 128 → EReal) (b2 g2 be2 : Row)
    (hagg : ∀ r c, ∃ a : ℝ, agg r c = (a : EReal)) (hv : ∀ r c, ∃ a : ℝ, v r c = (a : EReal)) (heps : ∃ a : ℝ, eps = (a : EReal))
    (hW1 : ∀ k c, ∃ a : ℝ, W1 k c = (a : EReal)) (hb1 : ∀ c, ∃ a : ℝ, b1 c = (a : EReal)) (hg1 : ∀ c, ∃ a : ℝ, g1 c = (a : EReal)) (hbe1 : ∀ c, ∃ a : ℝ, be1 c = (a : EReal))
    (hW2 : ∀ k c, ∃ a : ℝ, W2 k c = (a : EReal)) (hb2 : ∀ c, ∃ a : ℝ, b2 c = (a : EReal)) (hg2 : ∀ c, ∃ a : ℝ, g2 c = (a : EReal)) (hbe2 : ∀ c, ∃ a : ℝ, be2 c = (a : EReal)) :
    net varMoments agg v eps W1 b1 g1 be1 W2 b2 g2 be2 = net varCentered agg v eps W1 b1 g1 be1 W2 b2 g2 be2 := by
  have h1 : ∀ r c, IsReal (affine (selfLoop agg v eps) W1 b1 r c) :=
    affine_real (selfLoop_real hagg hv heps) hW1 hb1
  have e1 : varMoments (affine (selfLoop agg v eps) W1 b1) = varCentered (affine (selfLoop agg v eps) W1 b1) :=
    varMoments_eq_varCentered h1
  have h2 : ∀ r c, IsReal (affine (normRelu (affine (selfLoop agg v eps) W1 b1)
      (mean (affine (selfLoop agg v eps) W1 b1)) (varCentered (affine (selfLoop agg v eps) W1 b1)) g1 be1) W2 b2 r c) :=
    affine_real (normRelu_real h1 (mean_real h1) (varCentered_nonneg_real h1) hg1 hbe1) hW2 hb2
  have e2 := varMoments_eq_varCentered h2
  unfold net
  rw [e1, e2]

end Cert.NormSpec

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.InputsReal.lean ====
/-
  The precondition read back: it computes, for each of the eleven float arrays, whether every entry has
  absolute value below +∞, and joins the eleven bits by "and" (the first array's bit innermost on the left).
  If the joined bit is 1, each of the eleven bits is 1, and so every entry of every array is a real number.
-/
import proofs.«154256_j1151051235416_2_alg».proof.Pre_finite_inputs
import proofs.«154256_j1151051235416_2_alg».proof.Proof.LibFiniteAll

noncomputable section

open Idealize.ShloMosaic

namespace Cert.Pre_finite_inputs.Real

open Cert.Pre_finite_inputs Cert.FiniteAll

/-- All eleven float arguments are arrays of real numbers when the precondition's bit is 1. -/
theorem inputs_real [Cert.Pre_finite_inputs.Facts]
    (a0 : FVec Ideal S100000x128 .f32) (a1 : FVec Ideal S1600000 .f32) (a2 : FVec Ideal S1x1 .f32) (a3 : FVec Ideal S128x128 .f32)
    (a4 a5 a6 : FVec Ideal S128 .f32) (a7 : FVec Ideal S128x128 .f32) (a8 a9 a10 : FVec Ideal S128 .f32) (a11 a12 : IVec S1600000 32)
    (h : Cert.Pre_finite_inputs.fn (F := Ideal) a0 a1 a2 a3 a4 a5 a6 a7 a8 a9 a10 a11 a12 = fun _ => 1#1) :
    (∀ i, ∃ x : ℝ, a0 i = (x : EReal)) ∧ (∀ i, ∃ x : ℝ, a1 i = (x : EReal)) ∧ (∀ i, ∃ x : ℝ, a2 i = (x : EReal)) ∧ (∀ i, ∃ x : ℝ, a3 i = (x : EReal))
    ∧ (∀ i, ∃ x : ℝ, a4 i = (x : EReal)) ∧ (∀ i, ∃ x : ℝ, a5 i = (x : EReal)) ∧ (∀ i, ∃ x : ℝ, a6 i = (x : EReal)) ∧ (∀ i, ∃ x : ℝ, a7 i = (x : EReal))
    ∧ (∀ i, ∃ x : ℝ, a8 i = (x : EReal)) ∧ (∀ i, ∃ x : ℝ, a9 i = (x : EReal)) ∧ (∀ i, ∃ x : ℝ, a10 i = (x : EReal)) := by
  have e := congrFun h ValueIdx.ix0
  -- the chain of operations, its four parts unfolded one after the other; the joins by "and" read at the one index
  simp only [fn, fn_part1, fn_part2, fn_part3, andi, IntOp.andi_eq_one] at e
  obtain ⟨⟨⟨⟨⟨⟨⟨⟨⟨⟨e0, e1⟩, e2⟩, e3⟩, e4⟩, e5⟩, e6⟩, e7⟩, e8⟩, e9⟩, e10⟩ := e
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6, all_real a7 _ _ _ _ e7,
    all_real a8 _ _ _ _ e8, all_real a9 _ _ _ _ e9, all_real a10 _ _ _ _ e10⟩

end Cert.Pre_finite_inputs.Real

end
-- ==== Proof.KernelValue.lean ====
/-
  The idealized kernel's result array as the network of the specification.

  The buffers are followed through @main: the first host stretch forms the aggregated messages and the row vectors; the
  first pallas_call leaves the first pre-activation and its per-block statistics; the second host stretch turns the
  statistics into the mean row and the variance row (mean of squares minus squared mean); the second pallas_call leaves
  the second pre-activation and its statistics; the third host stretch the second mean and variance rows; the third
  pallas_call the normalised, rectified output. Summing the per-block statistics over the 25 blocks gives the column
  sums over all 100000 rows, so the output is `net varMoments` of the arguments. On real arguments this equals the
  reference's `net varCentered`.
-/
import proofs.«154256_j1151051235416_2_alg».proof.Proof.KernelRun
import proofs.«154256_j1151051235416_2_alg».proof.Proof.KernelLayer1
import proofs.«154256_j1151051235416_2_alg».proof.Proof.KernelLayer2
import proofs.«154256_j1151051235416_2_alg».proof.Proof.KernelLayer3
import proofs.«154256_j1151051235416_2_alg».proof.Proof.KernelStretches
import proofs.«154256_j1151051235416_2_alg».proof.Proof.KernelAggregate
import proofs.«154256_j1151051235416_2_alg».proof.Proof.KernelBridge
import proofs.«154256_j1151051235416_2_alg».proof.Proof.ReferenceValue
import proofs.«154256_j1151051235416_2_alg».proof.Proof.NormAlgebra
import proofs.«154256_j1151051235416_2_alg».proof.Proof.InputsReal
import proofs.«154256_j1151051235416_2_alg».proof.Proof.Gen.Pre_finite_inputs

set_option maxRecDepth 16384

noncomputable section

namespace Cert.KernelIdeal.KerValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)

/-- The row vectors the pallas_calls read: the self-loop weight spread along a row, and a vector as a one-row matrix. -/
abbrev epsRow (x : FVec Ideal S1x1 .f32) : FVec Ideal S1x128 .f32 := broadcastInDim S1x128 ![0, 1] bcast_S1x1_S1x128_0_1 x
abbrev asRow (x : FVec Ideal S128 .f32) : FVec Ideal S1x128 .f32 := shapeCast S1x128 x shapeCasts_S128_S1x128

/-- The first pre-activation, the first mean and variance rows, the second pre-activation, of the arguments. -/
def act1 : FVec Ideal S100000x128 .f32 := pre1 (aggTerm a0 a1 a11 a12) a0 (epsRow a2) (asRow a4) a3
def act2 : FVec Ideal S100000x128 .f32 :=
  pre2 (act1 m c) (meanRow (blockStats (act1 m c))) (varRow (blockStats (act1 m c))) (asRow a5) (asRow a6) a7 (asRow a8)

/-- After the first pallas_call: the first pre-activation and its statistics. -/
theorem exit0_act : W2 m ρ c (Proc.devRef .tc main_v22_0) = act1 m c := by
  refine (W2_arr m ρ c 5).trans ((final0_5 (V1 m ρ) c).trans ?_)
  show pre1 (W1 m ρ c (Proc.devRef .tc main_v14)) (W1 m ρ c (Proc.devRef .tc main_arg0)) (W1 m ρ c (Proc.devRef .tc main_v15))
    (W1 m ρ c (Proc.devRef .tc main_v16)) (W1 m ρ c (Proc.devRef .tc main_arg3)) = _
  rw [W1_main_v14, W1_main_arg0, W1_main_v15, W1_main_v16, W1_main_arg3]
  rfl
theorem exit0_stats : W2 m ρ c (Proc.devRef .tc main_v22_1) = blockStats (act1 m c) := by
  refine (W2_arr m ρ c 6).trans ((final0_6 (V1 m ρ) c).trans ?_)
  show blockStats (pre1 (W1 m ρ c (Proc.devRef .tc main_v14)) (W1 m ρ c (Proc.devRef .tc main_arg0)) (W1 m ρ c (Proc.devRef .tc main_v15))
    (W1 m ρ c (Proc.devRef .tc main_v16)) (W1 m ρ c (Proc.devRef .tc main_arg3))) = _
  rw [W1_main_v14, W1_main_arg0, W1_main_v15, W1_main_v16, W1_main_arg3]
  rfl

/-- After the second pallas_call: the second pre-activation and its statistics. -/
theorem exit1_act : W4 m ρ c (Proc.devRef .tc main_v37_0) = act2 m c := by
  refine (W4_arr m ρ c 7).trans ((final1_7 (V3 m ρ) c).trans ?_)
  show pre2 (W3 m ρ c (Proc.devRef .tc main_v22_0)) (W3 m ρ c (Proc.devRef .tc main_v32)) (W3 m ρ c (Proc.devRef .tc main_v36))
    (W3 m ρ c (Proc.devRef .tc main_v17)) (W3 m ρ c (Proc.devRef .tc main_v18)) (W3 m ρ c (Proc.devRef .tc main_arg7))
    (W3 m ρ c (Proc.devRef .tc main_v19)) = _
  rw [W3_main_v22_0, W3_main_v32, W3_main_v36, W3_main_v17, W3_main_v18, W3_main_arg7, W3_main_v19,
    W2_main_v17, W2_main_v18, W2_main_arg7, W2_main_v19, W1_main_v17, W1_main_v18, W1_main_arg7, W1_main_v19,
    exit0_act, exit0_stats]
  rfl
theorem exit1_stats : W4 m ρ c (Proc.devRef .tc main_v37_1) = blockStats (act2 m c) := by
  refine (W4_arr m ρ c 8).trans ((final1_8 (V3 m ρ) c).trans ?_)
  show blockStats (pre2 (W3 m ρ c (Proc.devRef .tc main_v22_0)) (W3 m ρ c (Proc.devRef .tc main_v32)) (W3 m ρ c (Proc.devRef .tc main_v36))
    (W3 m ρ c (Proc.devRef .tc main_v17)) (W3 m ρ c (Proc.devRef .tc main_v18)) (W3 m ρ c (Proc.devRef .tc main_arg7))
    (W3 m ρ c (Proc.devRef .tc main_v19))) = _
  rw [W3_main_v22_0, W3_main_v32, W3_main_v36, W3_main_v17, W3_main_v18, W3_main_arg7, W3_main_v19,
    W2_main_v17, W2_main_v18, W2_main_arg7, W2_main_v19, W1_main_v17, W1_main_v18, W1_main_arg7, W1_main_v19,
    exit0_act, exit0_stats]
  rfl

/-- The result array: the normalised, rectified second pre-activation. -/
theorem result_forms : W6 m ρ c (Proc.devRef .tc main_v52)
    = norm3 (act2 m c) (meanRow (blockStats (act2 m c))) (varRow (blockStats (act2 m c))) (asRow a9) (asRow a10) := by
  refine (W6_arr m ρ c 5).trans ((final2_5 (V5 m ρ) c).trans ?_)
  show norm3 (W5 m ρ c (Proc.devRef .tc main_v37_0)) (W5 m ρ c (Proc.devRef .tc main_v47)) (W5 m ρ c (Proc.devRef .tc main_v51))
    (W5 m ρ c (Proc.devRef .tc main_v20)) (W5 m ρ c (Proc.devRef .tc main_v21)) = _
  rw [W5_main_v37_0, W5_main_v47, W5_main_v51, W5_main_v20, W5_main_v21, W4_main_v20, W4_main_v21, W3_main_v20, W3_main_v21,
    W2_main_v20, W2_main_v21, W1_main_v20, W1_main_v21, exit1_act, exit1_stats]

/-- The result array, entry by entry, is the network with the moments variance of the arguments. -/
theorem result_apply (r : Fin 100000) (q : Fin 128) :
    W6 m ρ c (Proc.devRef .tc main_v52) (ix2 r q)
      = Cert.NormSpec.net Cert.NormSpec.varMoments (Cert.NormSpec.aggregate a0 (idxCol a11) (dstCol a12) (wMat a1)) (Cert.NormSpec.mat a0)
          (a2 (ix2 0 0)) (Cert.NormSpec.mat a3) (Cert.NormSpec.vec a4) (Cert.NormSpec.vec a5) (Cert.NormSpec.vec a6) (Cert.NormSpec.mat a7)
          (Cert.NormSpec.vec a8) (Cert.NormSpec.vec a9) (Cert.NormSpec.vec a10) r q := by
  rw [result_forms]
  have h := forms_eq_net (aggTerm a0 a1 a11 a12) a0 a3 a7 (epsRow a2) (asRow a4) (asRow a5) (asRow a6) (asRow a8) (asRow a9) (asRow a10)
    (meanRow (blockStats (act1 m c))) (varRow (blockStats (act1 m c))) (meanRow (blockStats (act2 m c))) (varRow (blockStats (act2 m c)))
    (fun k => (epsRow_apply a2 k).trans (epsRow_apply a2 0).symm)
    (fun q => meanRow_apply _ q) (fun q => varRow_apply _ q) (fun q => meanRow_apply _ q) (fun q => varRow_apply _ q) r q
  refine h.trans ?_
  have eE : epsRow a2 (ix2 0 0) = a2 (ix2 0 0) := epsRow_apply a2 0
  rw [mat_aggTerm, eE]
  have e4 : (fun k => asRow a4 (ix2 0 k)) = Cert.NormSpec.vec a4 := funext fun k => rowCast_apply a4 k
  have e5 : (fun k => asRow a5 (ix2 0 k)) = Cert.NormSpec.vec a5 := funext fun k => rowCast_apply a5 k
  have e6 : (fun k => asRow a6 (ix2 0 k)) = Cert.NormSpec.vec a6 := funext fun k => rowCast_apply a6 k
  have e8 : (fun k => asRow a8 (ix2 0 k)) = Cert.NormSpec.vec a8 := funext fun k => rowCast_apply a8 k
  have e9 : (fun k => asRow a9 (ix2 0 k)) = Cert.NormSpec.vec a9 := funext fun k => rowCast_apply a9 k
  have e10 : (fun k => asRow a10 (ix2 0 k)) = Cert.NormSpec.vec a10 := funext fun k => rowCast_apply a10 k
  rw [e4, e5, e6, e8, e9, e10]

/-- On real arguments the kernel's result array is the reference's result term of the same arguments. -/
theorem result_eq
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) = (fun _ => 1#1)) :
    W6 m ρ c (Proc.devRef .tc main_v52)
      = Cert.ReferenceIdeal.RefValue.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  obtain ⟨h0, h1, h2, h3, h4, h5, h6, h7, h8, h9, h10⟩ := Cert.Pre_finite_inputs.Real.inputs_real _ _ _ _ _ _ _ _ _ _ _ _ _ hpre
  funext i
  obtain ⟨r, q, rfl⟩ : ∃ (r : Fin 100000) (q : Fin 128), i = ix2 r q := ⟨i 0, i 1, eq_ix2 i⟩
  refine (result_apply m ρ c r q).trans ?_
  refine Eq.trans ?_ (Cert.ReferenceIdeal.RefValue.refOut_apply _ _ _ _ _ _ _ _ _ _ _ _ _ Cert.NormSpec.rowCount_eq r q).symm
  have eI : Cert.ReferenceIdeal.RefValue.idxCol a11 = idxCol a11 := rfl
  have eD : Cert.ReferenceIdeal.RefValue.dstCol a12 = dstCol a12 := rfl
  have eW : Cert.ReferenceIdeal.RefValue.wMat a1 = wMat a1 := rfl
  rw [eI, eD, eW]
  have hw : ∀ i, ∃ x : ℝ, wMat a1 i = (x : EReal) := fun i => h1 _
  have hagg : ∀ r k, ∃ x : ℝ, Cert.NormSpec.aggregate a0 (idxCol a11) (dstCol a12) (wMat a1) r k = (x : EReal) :=
    Cert.NormSpec.aggregate_real a0 (idxCol a11) (dstCol a12) (wMat a1) h0 hw
  have hv : ∀ r k, ∃ x : ℝ, Cert.NormSpec.mat a0 r k = (x : EReal) := fun r k => h0 (ix2 r k)
  have hW1 : ∀ k q, ∃ x : ℝ, Cert.NormSpec.mat a3 k q = (x : EReal) := fun k q => h3 (ix2 k q)
  have hW2 : ∀ k q, ∃ x : ℝ, Cert.NormSpec.mat a7 k q = (x : EReal) := fun k q => h7 (ix2 k q)
  have hb1 : ∀ k, ∃ x : ℝ, Cert.NormSpec.vec a4 k = (x : EReal) := fun k => h4 (ix1 k)
  have hg1 : ∀ k, ∃ x : ℝ, Cert.NormSpec.vec a5 k = (x : EReal) := fun k => h5 (ix1 k)
  have hbe1 : ∀ k, ∃ x : ℝ, Cert.NormSpec.vec a6 k = (x : EReal) := fun k => h6 (ix1 k)
  have hb2 : ∀ k, ∃ x : ℝ, Cert.NormSpec.vec a8 k = (x : EReal) := fun k => h8 (ix1 k)
  have hg2 : ∀ k, ∃ x : ℝ, Cert.NormSpec.vec a9 k = (x : EReal) := fun k => h9 (ix1 k)
  have hbe2 : ∀ k, ∃ x : ℝ, Cert.NormSpec.vec a10 k = (x : EReal) := fun k => h10 (ix1 k)
  exact congrFun (congrFun (Cert.NormSpec.net_moments_eq_centered (Cert.NormSpec.aggregate a0 (idxCol a11) (dstCol a12) (wMat a1)) (Cert.NormSpec.mat a0)
    (a2 (ix2 0 0)) (Cert.NormSpec.mat a3) (Cert.NormSpec.vec a4) (Cert.NormSpec.vec a5) (Cert.NormSpec.vec a6) (Cert.NormSpec.mat a7)
    (Cert.NormSpec.vec a8) (Cert.NormSpec.vec a9) (Cert.NormSpec.vec a10) hagg hv (h2 (ix2 0 0)) hW1 hb1 hg1 hbe1 hW2 hb2 hg2 hbe2) r) q

end Cert.KernelIdeal.KerValue

end
-- ==== Proof.ReferenceOps.lean ====
/-
  The reference program as one straight line of array operations, and its run.

  The main function's statements are listed in order as five consecutive windows; where the program calls one of its
  own functions (the variance, which itself calls the selection, and the maximum with zero) that function's
  operations stand in the call's place, over the buffers of that call. The main function equals the windows run
  one after the other, so every weakly fair execution terminates with each buffer holding the fold of the
  operations' results over the contents at launch.
-/
import proofs.«154256_j1151051235416_2_alg».proof.ReferenceIdeal
import proofs.«154256_j1151051235416_2_alg».proof.Proof.Gen.ReferenceIdeal
import Idealize.ShloMosaic.Lib.StableHlo.Run
import Idealize.ShloMosaic.Lib.Pipeline.Frame

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The index columns, the gathered rows times the edge weights, their accumulation by destination, the self-loop term, and the first linear map with its bias: the values up to the first layer's pre-normalisation matrix. -/
abbrev opsAggregate : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg11 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg11 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg11 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg1 main_v7 (broadcastInDim S1600000x1 ![0] bcast_S1600000_S1600000x1_0 : (⟨S1600000, .f32⟩ : BufTy).Contents (Elt F) → (⟨S1600000x1, .f32⟩ : BufTy).Contents (Elt F)),
    unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg12 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg2 main_v13 (broadcastInDim S100000x128 ![0, 1] bcast_S1x1_S100000x128_0_1 : (⟨S1x1, .f32⟩ : BufTy).Contents (Elt F) → (⟨S100000x128, .f32⟩ : BufTy).Contents (Elt F)),
    binary main_v13 main_arg0 main_v14 (mulf : (⟨S100000x128, .f32⟩ : BufTy).Contents (Elt F) → (⟨S100000x128, .f32⟩ : BufTy).Contents (Elt F) → (⟨S100000x128, .f32⟩ : BufTy).Contents (Elt F)),
    binary main_v12 main_v14 main_v15 (addf : (⟨S100000x128, .f32⟩ : BufTy).Contents (Elt F) → (⟨S100000x128, .f32⟩ : BufTy).Contents (Elt F) → (⟨S100000x128, .f32⟩ : BufTy).Contents (Elt F)),
    binary main_v15 main_arg3 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v17 (broadcastInDim S1x128 ![1] bcast_S128_S1x128_1 : (⟨S128, .f32⟩ : BufTy).Contents (Elt F) → (⟨S1x128, .f32⟩ : BufTy).Contents (Elt F)),
    unary main_v17 main_v18 (broadcastInDim S100000x128 ![0, 1] bcast_S1x128_S100000x128_0_1 : (⟨S1x128, .f32⟩ : BufTy).Contents (Elt F) → (⟨S100000x128, .f32⟩ : BufTy).Contents (Elt F)),
    binary main_v16 main_v18 main_v19 (addf : (⟨S100000x128, .f32⟩ : BufTy).Contents (Elt F) → (⟨S100000x128, .f32⟩ : BufTy).Contents (Elt F) → (⟨S100000x128, .f32⟩ : BufTy).Contents (Elt F)) ]

/-- The first normalisation: the column means, the variance function's operations in the call's place (its own mean, deviations, squares, divisor and selection), the scaling by the reciprocal square root, the gain and the shift, and the maximum with zero. -/
abbrev opsNorm1 : List (HloOp τ sig (Elt F)) :=
  [ nullary main_cst_1 (constant S_ .f32 0x00000000#32),
    binary main_v19 main_cst_1 main_v20 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v21 (broadcastInDim S128 ![] bcast_S_S128 : (⟨S_, .f32⟩ : BufTy).Contents (Elt F) → (⟨S128, .f32⟩ : BufTy).Contents (Elt F)),
    binary main_v20 main_v21 main_v22 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary (TRef.of (T := ⟨S_, .f32⟩) main_call0_cst) (constant S_ .f32 0x00000000#32),
    TRef.binary (TRef.of (T := ⟨S100000x128, .f32⟩) main_v19) (TRef.of (T := ⟨S_, .f32⟩) main_call0_cst) (TRef.of (T := ⟨S128, .f32⟩) main_call0_v0) (fun x v => Host.reduceAdd x v reducesTo_S100000x128_S128_d0 h_S_),
    TRef.unary (TRef.of (T := ⟨S128, .f32⟩) main_call0_v0) (TRef.of (T := ⟨S1x128, .f32⟩) main_call0_v1) (broadcastInDim S1x128 ![1] bcast_S128_S1x128_1),
    TRef.nullary (TRef.of (T := ⟨S_, .f32⟩) main_call0_cst_0) (constant S_ .f32 0x47C35000#32),
    TRef.unary (TRef.of (T := ⟨S_, .f32⟩) main_call0_cst_0) (TRef.of (T := ⟨S1x128, .f32⟩) main_call0_v2) (broadcastInDim S1x128 ![] bcast_S_S1x128),
    TRef.binary (TRef.of (T := ⟨S1x128, .f32⟩) main_call0_v1) (TRef.of (T := ⟨S1x128, .f32⟩) main_call0_v2) (TRef.of (T := ⟨S1x128, .f32⟩) main_call0_v3) Host.divf,
    TRef.unary (TRef.of (T := ⟨S1x128, .f32⟩) main_call0_v3) (TRef.of (T := ⟨S100000x128, .f32⟩) main_call0_v4) (broadcastInDim S100000x128 ![0, 1] bcast_S1x128_S100000x128_0_1),
    TRef.binary (TRef.of (T := ⟨S100000x128, .f32⟩) main_v19) (TRef.of (T := ⟨S100000x128, .f32⟩) main_call0_v4) (TRef.of (T := ⟨S100000x128, .f32⟩) main_call0_v5) subf,
    TRef.binary (TRef.of (T := ⟨S100000x128, .f32⟩) main_call0_v5) (TRef.of (T := ⟨S100000x128, .f32⟩) main_call0_v5) (TRef.of (T := ⟨S100000x128, .f32⟩) main_call0_v6) mulf,
    TRef.unary (TRef.of (T := ⟨S_, .i32⟩) main_c_3) (TRef.of (T := ⟨S_, .f32⟩) main_call0_v7) (sitofp .f32),
    TRef.nullary (TRef.of (T := ⟨S_, .f32⟩) main_call0_cst_1) (constant S_ .f32 0x47C35000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S100000x128, .f32⟩) main_call0_v6) (TRef.of (T := ⟨S_, .f32⟩) main_call0_cst_2) (TRef.of (T := ⟨S128, .f32⟩) main_call0_v9) (fun x v => Host.reduceAdd x v reducesTo_S100000x128_S128_d0 h_S_),
    TRef.unary (TRef.of (T := ⟨S_, .f32⟩) main_call0_v8) (TRef.of (T := ⟨S128, .f32⟩) main_call0_v10) (broadcastInDim S128 ![] bcast_S_S128),
    TRef.binary (TRef.of (T := ⟨S128, .f32⟩) main_call0_v9) (TRef.of (T := ⟨S128, .f32⟩) main_call0_v10) (TRef.of (T := ⟨S128, .f32⟩) main_call0_v11) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v12) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S128, .f32⟩) main_call0_call0_v1) (broadcastInDim S128 ![] bcast_S_S128),
    TRef.ternary (TRef.of (T := ⟨S_, .i1⟩) main_call0_v12) (TRef.of (T := ⟨S128, .f32⟩) main_call0_v11) (TRef.of (T := ⟨S128, .f32⟩) main_call0_call0_v1) (TRef.of (T := ⟨S128, .f32⟩) main_v23) (fun p a b => select (broadcastInDim S128 ![] bcast_S_S128 p) a b),
    unary main_v22 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v19 main_v25 main_v26 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v27 (broadcastInDim S128 ![] bcast_S_S128 : (⟨S_, .f32⟩ : BufTy).Contents (Elt F) → (⟨S128, .f32⟩ : BufTy).Contents (Elt F)),
    binary main_v23 main_v27 main_v28 (addf : (⟨S128, .f32⟩ : BufTy).Contents (Elt F) → (⟨S128, .f32⟩ : BufTy).Contents (Elt F) → (⟨S128, .f32⟩ : BufTy).Contents (Elt F)),
    unary main_v28 main_v29 (Host.rsqrt : (⟨S128, .f32⟩ : BufTy).Contents (Elt F) → (⟨S128, .f32⟩ : BufTy).Contents (Elt F)),
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v26 main_v31 main_v32 (mulf : (⟨S100000x128, .f32⟩ : BufTy).Contents (Elt F) → (⟨S100000x128, .f32⟩ : BufTy).Contents (Elt F) → (⟨S100000x128, .f32⟩ : BufTy).Contents (Elt F)),
    unary main_arg5 main_v33 (broadcastInDim S1x128 ![1] bcast_S128_S1x128_1 : (⟨S128, .f32⟩ : BufTy).Contents (Elt F) → (⟨S1x128, .f32⟩ : BufTy).Contents (Elt F)),
    unary main_v33 main_v34 (broadcastInDim S100000x128 ![0, 1] bcast_S1x128_S100000x128_0_1 : (⟨S1x128, .f32⟩ : BufTy).Contents (Elt F) → (⟨S100000x128, .f32⟩ : BufTy).Contents (Elt F)),
    binary main_v32 main_v34 main_v35 (mulf : (⟨S100000x128, .f32⟩ : BufTy).Contents (Elt F) → (⟨S100000x128, .f32⟩ : BufTy).Contents (Elt F) → (⟨S100000x128, .f32⟩ : BufTy).Contents (Elt F)),
    unary main_arg6 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v35 main_v37 main_v38 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v38) (TRef.of (T := ⟨S100000x128, .f32⟩) main_call1_v0) (TRef.of (T := ⟨S100000x128, .f32⟩) main_v39) maximumf ]

/-- The second linear map with its bias. -/
abbrev opsLinear2 : List (HloOp τ sig (Elt F)) :=
  [ binary main_v39 main_arg7 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)) ]

/-- The second normalisation up to the column means spread over the rows: the means, the variance function's operations in the call's place. -/
abbrev opsNorm2Head : List (HloOp τ sig (Elt F)) :=
  [ nullary main_cst_5 (constant S_ .f32 0x00000000#32),
    binary main_v43 main_cst_5 main_v44 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_6 (constant S_ .f32 0x47C35000#32),
    unary main_cst_6 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    nullary main_c_7 (constantI S_ 32 0#32),
    TRef.nullary (TRef.of (T := ⟨S_, .f32⟩) main_call2_cst) (constant S_ .f32 0x00000000#32),
    TRef.binary (TRef.of (T := ⟨S100000x128, .f32⟩) main_v43) (TRef.of (T := ⟨S_, .f32⟩) main_call2_cst) (TRef.of (T := ⟨S128, .f32⟩) main_call2_v0) (fun x v => Host.reduceAdd x v reducesTo_S100000x128_S128_d0 h_S_),
    TRef.unary (TRef.of (T := ⟨S128, .f32⟩) main_call2_v0) (TRef.of (T := ⟨S1x128, .f32⟩) main_call2_v1) (broadcastInDim S1x128 ![1] bcast_S128_S1x128_1),
    TRef.nullary (TRef.of (T := ⟨S_, .f32⟩) main_call2_cst_0) (constant S_ .f32 0x47C35000#32),
    TRef.unary (TRef.of (T := ⟨S_, .f32⟩) main_call2_cst_0) (TRef.of (T := ⟨S1x128, .f32⟩) main_call2_v2) (broadcastInDim S1x128 ![] bcast_S_S1x128),
    TRef.binary (TRef.of (T := ⟨S1x128, .f32⟩) main_call2_v1) (TRef.of (T := ⟨S1x128, .f32⟩) main_call2_v2) (TRef.of (T := ⟨S1x128, .f32⟩) main_call2_v3) Host.divf,
    TRef.unary (TRef.of (T := ⟨S1x128, .f32⟩) main_call2_v3) (TRef.of (T := ⟨S100000x128, .f32⟩) main_call2_v4) (broadcastInDim S100000x128 ![0, 1] bcast_S1x128_S100000x128_0_1),
    TRef.binary (TRef.of (T := ⟨S100000x128, .f32⟩) main_v43) (TRef.of (T := ⟨S100000x128, .f32⟩) main_call2_v4) (TRef.of (T := ⟨S100000x128, .f32⟩) main_call2_v5) subf,
    TRef.binary (TRef.of (T := ⟨S100000x128, .f32⟩) main_call2_v5) (TRef.of (T := ⟨S100000x128, .f32⟩) main_call2_v5) (TRef.of (T := ⟨S100000x128, .f32⟩) main_call2_v6) mulf,
    TRef.unary (TRef.of (T := ⟨S_, .i32⟩) main_c_7) (TRef.of (T := ⟨S_, .f32⟩) main_call2_v7) (sitofp .f32),
    TRef.nullary (TRef.of (T := ⟨S_, .f32⟩) main_call2_cst_1) (constant S_ .f32 0x47C35000#32),
    TRef.binary (TRef.of (T := ⟨S_, .f32⟩) main_call2_cst_1) (TRef.of (T := ⟨S_, .f32⟩) main_call2_v7) (TRef.of (T := ⟨S_, .f32⟩) main_call2_v8) subf,
    TRef.nullary (TRef.of (T := ⟨S_, .f32⟩) main_call2_cst_2) (constant S_ .f32 0x00000000#32),
    TRef.binary (TRef.of (T := ⟨S100000x128, .f32⟩) main_call2_v6) (TRef.of (T := ⟨S_, .f32⟩) main_call2_cst_2) (TRef.of (T := ⟨S128, .f32⟩) main_call2_v9) (fun x v => Host.reduceAdd x v reducesTo_S100000x128_S128_d0 h_S_),
    TRef.unary (TRef.of (T := ⟨S_, .f32⟩) main_call2_v8) (TRef.of (T := ⟨S128, .f32⟩) main_call2_v10) (broadcastInDim S128 ![] bcast_S_S128),
    TRef.binary (TRef.of (T := ⟨S128, .f32⟩) main_call2_v9) (TRef.of (T := ⟨S128, .f32⟩) main_call2_v10) (TRef.of (T := ⟨S128, .f32⟩) main_call2_v11) Host.divf,
    TRef.nullary (TRef.of (T := ⟨S_, .f32⟩) main_call2_cst_3) (constant S_ .f32 0x00000000#32),
    TRef.binary (TRef.of (T := ⟨S_, .f32⟩) main_call2_v8) (TRef.of (T := ⟨S_, .f32⟩) main_call2_cst_3) (TRef.of (T := ⟨S_, .i1⟩) main_call2_v12) (cmpf .ogt),
    TRef.nullary (TRef.of (T := ⟨S_, .f32⟩) main_call2_cst_4) (constant S_ .f32 0x7FC00000#32),
    TRef.unary (TRef.of (T := ⟨S_, .f32⟩) main_call2_cst_4) (TRef.of (T := ⟨S_, .f32⟩) main_call2_call0_v0) id,
    TRef.unary (TRef.of (T := ⟨S_, .f32⟩) main_call2_call0_v0) (TRef.of (T := ⟨S128, .f32⟩) main_call2_call0_v1) (broadcastInDim S128 ![] bcast_S_S128),
    TRef.ternary (TRef.of (T := ⟨S_, .i1⟩) main_call2_v12) (TRef.of (T := ⟨S128, .f32⟩) main_call2_v11) (TRef.of (T := ⟨S128, .f32⟩) main_call2_call0_v1) (TRef.of (T := ⟨S128, .f32⟩) main_v47) (fun p a b => select (broadcastInDim S128 ![] bcast_S_S128 p) a b),
    unary main_v46 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)) ]

/-- The rest of the second normalisation: the deviations, the reciprocal square root of the variance plus the small constant, the gain, the shift, and the maximum with zero. -/
abbrev opsNorm2Tail : List (HloOp τ sig (Elt F)) :=
  [ binary main_v43 main_v49 main_v50 (subf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3727C5AC#32),
    unary main_cst_8 main_v51 (broadcastInDim S128 ![] bcast_S_S128 : (⟨S_, .f32⟩ : BufTy).Contents (Elt F) → (⟨S128, .f32⟩ : BufTy).Contents (Elt F)),
    binary main_v47 main_v51 main_v52 (addf : (⟨S128, .f32⟩ : BufTy).Contents (Elt F) → (⟨S128, .f32⟩ : BufTy).Contents (Elt F) → (⟨S128, .f32⟩ : BufTy).Contents (Elt F)),
    unary main_v52 main_v53 (Host.rsqrt : (⟨S128, .f32⟩ : BufTy).Contents (Elt F) → (⟨S128, .f32⟩ : BufTy).Contents (Elt F)),
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v50 main_v55 main_v56 (mulf : (⟨S100000x128, .f32⟩ : BufTy).Contents (Elt F) → (⟨S100000x128, .f32⟩ : BufTy).Contents (Elt F) → (⟨S100000x128, .f32⟩ : BufTy).Contents (Elt F)),
    unary main_arg9 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v56 main_v58 main_v59 (mulf : (⟨S100000x128, .f32⟩ : BufTy).Contents (Elt F) → (⟨S100000x128, .f32⟩ : BufTy).Contents (Elt F) → (⟨S100000x128, .f32⟩ : BufTy).Contents (Elt F)),
    unary main_arg10 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v62) (TRef.of (T := ⟨S100000x128, .f32⟩) main_call3_v0) (TRef.of (T := ⟨S100000x128, .f32⟩) main_v63) maximumf ]

/-- Every operation of the program, in order. -/
abbrev ops : List (HloOp τ sig (Elt F)) :=
  opsAggregate ++ (opsNorm1 ++ (opsLinear2 ++ (opsNorm2Head ++ opsNorm2Tail)))

set_option maxRecDepth 8192 in
set_option maxHeartbeats 4000000 in
/-- The main function's first sixty statements are the first four windows in order: the called functions'
    definitions unfolded at their calls, both sides are one chain of steps once sequencing is reassociated. -/
theorem part0_eq (c : Dev nD) :
    main_part0 (F := F) c = seq (opsAggregate ++ (opsNorm1 ++ (opsLinear2 ++ opsNorm2Head))) := by
  simp only [main_part0, fn_var.body, fn_where.body, fn_relu.body, opsAggregate, opsNorm1, opsLinear2, opsNorm2Head,
    List.cons_append, List.nil_append, seq, bind_assoc, pure_bind]
  rfl

set_option maxRecDepth 8192 in
set_option maxHeartbeats 4000000 in
/-- The main function's last sixteen statements are the last window. -/
theorem part1_eq (c : Dev nD) : main_part1 (F := F) c = seq opsNorm2Tail := by
  simp only [main_part1, fn_relu.body, opsNorm2Tail, seq, bind_assoc, pure_bind]

/-- The main function is the five windows run in order. -/
theorem main_eq (c : Dev nD) : main (F := F) c = seq ops := by
  have h : (ops : List (HloOp τ sig (Elt F))) = (opsAggregate ++ (opsNorm1 ++ (opsLinear2 ++ opsNorm2Head))) ++ opsNorm2Tail := by
    simp only [ops, List.append_assoc]
  rw [h, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsAggregate_sub : (opsAggregate : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., binary_bufs_sub .., binary_bufs_sub .., unary_bufs_sub .., unary_bufs_sub .., binary_bufs_sub ..⟩

set_option maxRecDepth 8192 in
theorem opsAggregate_fresh : ∀ op ∈ (opsAggregate : List (HloOp τ sig (Elt F))), op.fresh = ∅ := by
  intro _ h; (repeat (cases h with | head => rfl | tail _ h => ?_)); exact nomatch h

set_option maxRecDepth 8192 in
theorem opsNorm1_sub : (opsNorm1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem opsNorm1_fresh : ∀ op ∈ (opsNorm1 : List (HloOp τ sig (Elt F))), op.fresh = ∅ := by
  intro _ h; (repeat (cases h with | head => rfl | tail _ h => ?_)); exact nomatch h

set_option maxRecDepth 8192 in
theorem opsLinear2_sub : (opsLinear2 : List (HloOp τ sig (Elt F))).Forall fun op => op.bufs ⊆ tcRefs τ sig :=
  ⟨binary_bufs_sub .., unary_bufs_sub .., unary_bufs_sub .., binary_bufs_sub ..⟩

set_option maxRecDepth 8192 in
theorem opsLinear2_fresh : ∀ op ∈ (opsLinear2 : List (HloOp τ sig (Elt F))), op.fresh = ∅ := by
  intro _ h; (repeat (cases h with | head => rfl | tail _ h => ?_)); exact nomatch h

set_option maxRecDepth 8192 in
theorem opsNorm2Head_sub : (opsNorm2Head : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩

set_option maxRecDepth 8192 in
theorem opsNorm2Head_fresh : ∀ op ∈ (opsNorm2Head : List (HloOp τ sig (Elt F))), op.fresh = ∅ := by
  intro _ h; (repeat (cases h with | head => rfl | tail _ h => ?_)); exact nomatch h

set_option maxRecDepth 8192 in
theorem opsNorm2Tail_sub : (opsNorm2Tail : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem opsNorm2Tail_fresh : ∀ op ∈ (opsNorm2Tail : List (HloOp τ sig (Elt F))), op.fresh = ∅ := by
  intro _ h; (repeat (cases h with | head => rfl | tail _ h => ?_)); exact nomatch h

/-- Every buffer an operation touches is one of the core's references. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsAggregate_sub op h, List.forall_iff_forall_mem.mp opsNorm1_sub op h, List.forall_iff_forall_mem.mp opsLinear2_sub op h, List.forall_iff_forall_mem.mp opsNorm2Head_sub op h, List.forall_iff_forall_mem.mp opsNorm2Tail_sub op h]

/-- Every operation determines its results. -/
theorem ops_fresh : ∀ op ∈ (ops : List (HloOp τ sig (Elt F))), op.fresh = ∅ := by
  intro op h
  simp only [ops, List.mem_append] at h
  rcases h with h | h | h | h | h
  exacts [opsAggregate_fresh op h, opsNorm1_fresh op h, opsLinear2_fresh op h, opsNorm2Head_fresh op h, opsNorm2Tail_fresh op h]

/-- On every device, for any float values, from any memory with zero counters: every weakly fair execution of the
    main function terminates, and every final state has each buffer at the fold of the operations over the
    contents at launch. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefValue

end
-- ==== Proof.ReferenceKeeps.lean ====
/-
  What each window of the reference program writes, and so what it keeps.

  Each window writes one buffer per operation and no other: a reference outside that list holds after the window
  what it held before.
-/
import proofs.«154256_j1151051235416_2_alg».proof.Proof.ReferenceOps

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The buffers the window writes, in order. -/
abbrev opsAggregate_W : List (Ref sig .tc) := [main_c, main_v0, main_v1, main_c_0, main_v2, main_v3, main_v4, main_v5, main_v6, main_v7, main_v8, main_v9, main_cst, main_v10, main_v11, main_v12, main_v13, main_v14, main_v15, main_v16, main_v17, main_v18, main_v19]

set_option maxRecDepth 8192 in
theorem opsAggregate_writes : (opsAggregate : List (HloOp τ sig (Elt F))).Forall fun op =>
    op.writes ⊆ (opsAggregate_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the window does not write keeps its contents through it. -/
theorem opsAggregate_keep (V : Valuation τ sig (Elt F)) (r : Ref sig .tc) (h : r ∉ opsAggregate_W) :
    after opsAggregate V (Proc.devRef .tc r) = V (Proc.devRef .tc r) :=
  after_of_writes_sub opsAggregate V opsAggregate_writes h

/-- The buffers the window writes, in order. -/
abbrev opsNorm1_W : List (Ref sig .tc) := [main_cst_1, main_v20, main_cst_2, main_v21, main_v22, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v23, main_v24, main_v25, main_v26, main_cst_4, main_v27, main_v28, main_v29, main_v30, main_v31, main_v32, main_v33, main_v34, main_v35, main_v36, main_v37, main_v38, main_call1_cst, main_call1_v0, main_v39]

set_option maxRecDepth 8192 in
theorem opsNorm1_writes : (opsNorm1 : List (HloOp τ sig (Elt F))).Forall fun op =>
    op.writes ⊆ (opsNorm1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the window does not write keeps its contents through it. -/
theorem opsNorm1_keep (V : Valuation τ sig (Elt F)) (r : Ref sig .tc) (h : r ∉ opsNorm1_W) :
    after opsNorm1 V (Proc.devRef .tc r) = V (Proc.devRef .tc r) :=
  after_of_writes_sub opsNorm1 V opsNorm1_writes h

/-- The buffers the window writes, in order. -/
abbrev opsLinear2_W : List (Ref sig .tc) := [main_v40, main_v41, main_v42, main_v43]

set_option maxRecDepth 8192 in
theorem opsLinear2_writes : (opsLinear2 : List (HloOp τ sig (Elt F))).Forall fun op =>
    op.writes ⊆ (opsLinear2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the window does not write keeps its contents through it. -/
theorem opsLinear2_keep (V : Valuation τ sig (Elt F)) (r : Ref sig .tc) (h : r ∉ opsLinear2_W) :
    after opsLinear2 V (Proc.devRef .tc r) = V (Proc.devRef .tc r) :=
  after_of_writes_sub opsLinear2 V opsLinear2_writes h

/-- The buffers the window writes, in order. -/
abbrev opsNorm2Head_W : List (Ref sig .tc) := [main_cst_5, main_v44, main_cst_6, main_v45, main_v46, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v47, main_v48, main_v49]

set_option maxRecDepth 8192 in
theorem opsNorm2Head_writes : (opsNorm2Head : List (HloOp τ sig (Elt F))).Forall fun op =>
    op.writes ⊆ (opsNorm2Head_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the window does not write keeps its contents through it. -/
theorem opsNorm2Head_keep (V : Valuation τ sig (Elt F)) (r : Ref sig .tc) (h : r ∉ opsNorm2Head_W) :
    after opsNorm2Head V (Proc.devRef .tc r) = V (Proc.devRef .tc r) :=
  after_of_writes_sub opsNorm2Head V opsNorm2Head_writes h

/-- The buffers the window writes, in order. -/
abbrev opsNorm2Tail_W : List (Ref sig .tc) := [main_v50, main_cst_8, main_v51, main_v52, main_v53, main_v54, main_v55, main_v56, main_v57, main_v58, main_v59, main_v60, main_v61, main_v62, main_call3_cst, main_call3_v0, main_v63]

set_option maxRecDepth 8192 in
theorem opsNorm2Tail_writes : (opsNorm2Tail : List (HloOp τ sig (Elt F))).Forall fun op =>
    op.writes ⊆ (opsNorm2Tail_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the window does not write keeps its contents through it. -/
theorem opsNorm2Tail_keep (V : Valuation τ sig (Elt F)) (r : Ref sig .tc) (h : r ∉ opsNorm2Tail_W) :
    after opsNorm2Tail V (Proc.devRef .tc r) = V (Proc.devRef .tc r) :=
  after_of_writes_sub opsNorm2Tail V opsNorm2Tail_writes h

end Cert.ReferenceIdeal.RefValue

end
-- ==== Proof.ReferenceWindows.lean ====
/-
  The value each window of the reference program leaves, over any contents it starts from.

  Read at the extended-real instance: after the first window the first layer's pre-normalisation matrix is the
  linear map of the aggregated messages plus the self-loop term; after the second the normalised, scaled, shifted
  matrix cut at zero; after the third the second linear map of it; after the last two the second normalisation.
  The casts a called function's operations put around their values are identities at these literal buffers.
-/
import proofs.«154256_j1151051235416_2_alg».proof.Proof.ReferenceOps
import proofs.«154256_j1151051235416_2_alg».proof.Proof.ReferenceTerm

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable [Cert.ReferenceIdeal.Facts]

set_option maxRecDepth 8192 in
set_option maxHeartbeats 2000000 in
/-- After the first window the first layer's input to the normalisation is the linear map of the aggregate. -/
theorem opsAggregate_value (V : Valuation τ sig (Elt Ideal)) :
    after opsAggregate V (Proc.devRef .tc main_v19)
      = affineTerm (aggTerm (V (Proc.devRef .tc main_arg0)) (V (Proc.devRef .tc main_arg1)) (V (Proc.devRef .tc main_arg2)) (V (Proc.devRef .tc main_arg11)) (V (Proc.devRef .tc main_arg12)))
          (V (Proc.devRef .tc main_arg3)) (V (Proc.devRef .tc main_arg4)) := by
  simp only [opsAggregate]
  after_results_simp
  rfl

set_option maxRecDepth 8192 in
set_option maxHeartbeats 4000000 in
/-- After the second window the first layer's output is the normalisation of its input. -/
theorem opsNorm1_value (V : Valuation τ sig (Elt Ideal)) :
    after opsNorm1 V (Proc.devRef .tc main_v39) = normTerm (V (Proc.devRef .tc main_v19)) (V (Proc.devRef .tc main_arg5)) (V (Proc.devRef .tc main_arg6)) := by
  simp only [opsNorm1]
  after_results_simp
  rfl

set_option maxRecDepth 8192 in
/-- After the third window the second layer's input to the normalisation is the linear map of the first layer's output. -/
theorem opsLinear2_value (V : Valuation τ sig (Elt Ideal)) :
    after opsLinear2 V (Proc.devRef .tc main_v43) = affineTerm (V (Proc.devRef .tc main_v39)) (V (Proc.devRef .tc main_arg7)) (V (Proc.devRef .tc main_arg8)) := by
  simp only [opsLinear2]
  after_results_simp
  rfl

set_option maxRecDepth 8192 in
set_option maxHeartbeats 4000000 in
/-- After the last two windows the result is the normalisation of the second layer's input. -/
theorem opsNorm2_value (V : Valuation τ sig (Elt Ideal)) :
    after opsNorm2Tail (after opsNorm2Head V) (Proc.devRef .tc main_v63) = normTerm (V (Proc.devRef .tc main_v43)) (V (Proc.devRef .tc main_arg9)) (V (Proc.devRef .tc main_arg10)) := by
  rw [← StableHlo.after_append]
  simp only [opsNorm2Head, opsNorm2Tail, List.cons_append, List.nil_append]
  after_results_simp
  rfl

end Cert.ReferenceIdeal.RefValue

end
-- ==== Proof.ReferenceRun.lean ====
/-
  The reference program's run: every weakly fair execution of the main function terminates with the result buffer
  at the reference value of the thirteen arguments' contents at launch, and the arguments unchanged.

  The fold of all the operations is the fold of the five windows in turn; each window's value is a function of
  what the windows before it left, and no window writes an argument.
-/
import proofs.«154256_j1151051235416_2_alg».proof.Proof.ReferenceKeeps
import proofs.«154256_j1151051235416_2_alg».proof.Proof.ReferenceWindows

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable [Cert.ReferenceIdeal.Facts]

/-- A buffer no window writes keeps its contents through all the operations. -/
theorem ops_keep {F : FTy → Type} [FloatOps F] (V : Valuation τ sig (Elt F)) (r : Ref sig .tc)
    (h1 : r ∉ opsAggregate_W) (h2 : r ∉ opsNorm1_W) (h3 : r ∉ opsLinear2_W) (h4 : r ∉ opsNorm2Head_W)
    (h5 : r ∉ opsNorm2Tail_W) : after ops V (Proc.devRef .tc r) = V (Proc.devRef .tc r) := by
  simp only [ops, StableHlo.after_append]
  rw [opsNorm2Tail_keep _ r h5, opsNorm2Head_keep _ r h4, opsLinear2_keep _ r h3, opsNorm1_keep _ r h2,
    opsAggregate_keep _ r h1]

/-- The result buffer after all the operations, from any contents: the reference value of the arguments' contents. -/
theorem ops_value (V : Valuation τ sig (Elt Ideal)) :
    after ops V (Proc.devRef .tc main_v63)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [ops, StableHlo.after_append]
  rw [opsNorm2_value,
    opsLinear2_value, opsLinear2_keep _ main_arg9 (by decide), opsLinear2_keep _ main_arg10 (by decide),
    opsNorm1_value, opsNorm1_keep _ main_arg7 (by decide), opsNorm1_keep _ main_arg8 (by decide),
    opsNorm1_keep _ main_arg9 (by decide), opsNorm1_keep _ main_arg10 (by decide),
    opsAggregate_value, opsAggregate_keep _ main_arg5 (by decide), opsAggregate_keep _ main_arg6 (by decide),
    opsAggregate_keep _ main_arg7 (by decide), opsAggregate_keep _ main_arg8 (by decide),
    opsAggregate_keep _ main_arg9 (by decide), opsAggregate_keep _ main_arg10 (by decide)]
  rfl

/-- On every device, from any memory with zero counters: every weakly fair execution of the main function
    terminates with the result at the reference value of the arguments at launch and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v63).trans (ops_value (launchContents m c)),
      (h c main_arg0).trans (ops_keep (launchContents m c) main_arg0 (by decide) (by decide) (by decide) (by decide) (by decide)),
      (h c main_arg1).trans (ops_keep (launchContents m c) main_arg1 (by decide) (by decide) (by decide) (by decide) (by decide)),
      (h c main_arg2).trans (ops_keep (launchContents m c) main_arg2 (by decide) (by decide) (by decide) (by decide) (by decide)),
      (h c main_arg3).trans (ops_keep (launchContents m c) main_arg3 (by decide) (by decide) (by decide) (by decide) (by decide)),
      (h c main_arg4).trans (ops_keep (launchContents m c) main_arg4 (by decide) (by decide) (by decide) (by decide) (by decide)),
      (h c main_arg5).trans (ops_keep (launchContents m c) main_arg5 (by decide) (by decide) (by decide) (by decide) (by decide)),
      (h c main_arg6).trans (ops_keep (launchContents m c) main_arg6 (by decide) (by decide) (by decide) (by decide) (by decide)),
      (h c main_arg7).trans (ops_keep (launchContents m c) main_arg7 (by decide) (by decide) (by decide) (by decide) (by decide)),
      (h c main_arg8).trans (ops_keep (launchContents m c) main_arg8 (by decide) (by decide) (by decide) (by decide) (by decide)),
      (h c main_arg9).trans (ops_keep (launchContents m c) main_arg9 (by decide) (by decide) (by decide) (by decide) (by decide)),
      (h c main_arg10).trans (ops_keep (launchContents m c) main_arg10 (by decide) (by decide) (by decide) (by decide) (by decide)),
      (h c main_arg11).trans (ops_keep (launchContents m c) main_arg11 (by decide) (by decide) (by decide) (by decide) (by decide)),
      (h c main_arg12).trans (ops_keep (launchContents m c) main_arg12 (by decide) (by decide) (by decide) (by decide) (by decide))⟩)
    (run_all m ρ)

end Cert.ReferenceIdeal.RefValue

end
-- ==== Proof.ReferenceFrame.lean ====
/-
  The reference program's run, the arguments alone: every weakly fair execution terminates with the thirteen
  argument buffers unchanged. It is the run's statement with the result's conjunct dropped.
-/
import proofs.«154256_j1151051235416_2_alg».proof.Proof.ReferenceRun

noncomputable section

namespace Cert.ReferenceIdeal.RefValue

open Cert.ReferenceIdeal Idealize.ShloMosaic Idealize.ShloMosaic.TcCoe Idealize.SL.Sem

variable [Cert.ReferenceIdeal.Facts]

/-- On every device, from any memory with zero counters: every weakly fair execution of the main function
    terminates with the arguments unchanged. -/
theorem run_args (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => (h c).2) (run m ρ)

end Cert.ReferenceIdeal.RefValue

end
-- ==== Proof.lean ====
/-
  The certificate's claim. Both idealized programs compute, entry by entry on the extended reals, a message aggregation
  over a graph's edges with a self-loop term, followed twice by a linear map, a batch normalisation over the 100000
  rows, a scale, a shift and a rectifier. The kernel does the dense part in three pallas_calls over blocks of 4000
  rows and takes a column's variance as the mean of the squares minus the square of the mean, summed block by block;
  the reference takes the mean of the squared deviations. On real inputs (the precondition) the two agree: every
  intermediate value is a real, the variance under the inverse square root is nonnegative and the added constant is
  positive, so the algebra of the reals applies. The three frames come from the programs' runs; nothing was rewritten
  by the idealization, so its preservation claim is trivial.
-/
import proofs.«154256_j1151051235416_2_alg».proof.Defs
import proofs.«154256_j1151051235416_2_alg».proof.Proof.KernelFrameP
import proofs.«154256_j1151051235416_2_alg».proof.Proof.KernelValue
import proofs.«154256_j1151051235416_2_alg».proof.Proof.ReferenceFrame
import proofs.«154256_j1151051235416_2_alg».proof.Proof.ReferenceRun
import proofs.«154256_j1151051235416_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.GenP.frame m ρ

/-- The idealized kernel runs and leaves its arguments as launched. -/
theorem frame_ideal : Cert.frame_KernelIdeal := fun m ρ _ => Cert.KernelIdeal.GenP.frame m ρ

/-- The idealized reference runs and leaves its arguments as launched. -/
theorem frame_reference : Cert.frame_ReferenceIdeal := fun m ρ _ => Cert.ReferenceIdeal.RefValue.run_args m ρ

/-- The idealization rewrote no operation. -/
theorem preserves : Cert.preserves_Kernel_KernelIdeal := trivial

/-- From memories that agree on the arguments, all of them real, the two idealized programs end with the same
    result array: the kernel's is the network with the moments variance, the reference's the network with the centred
    variance, of the same arguments. -/
theorem algebraic : Cert.algebraic_KernelIdeal_ReferenceIdeal := by
  intro m ρ m' ρ' hpre hagree
  refine ⟨fun c => Cert.KernelIdeal.GenP.W6 m ρ c (Proc.devRef .tc Cert.KernelIdeal.main_v52),
    Cert.KernelIdeal.KerValue.run_named m ρ, ?_⟩
  refine (θ_run Cert.ReferenceIdeal.defs _ _).mono (fun _ h c => ⟨(h c).1.trans ?_, (h c).2⟩)
    (Cert.ReferenceIdeal.RefValue.run m' ρ')
  obtain ⟨g0, g1, g2, g3, g4, g5, g6, g7, g8, g9, g10, g11, g12⟩ := hagree c
  rw [g0, g1, g2, g3, g4, g5, g6, g7, g8, g9, g10, g11, g12]
  exact (Cert.KernelIdeal.KerValue.result_eq m ρ c (hpre c)).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
